-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x196x768 : Shape := ⟨4, ![8, 16, 196, 768]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S8x16x196x768 : S_.BroadcastsInDim S8x16x196x768 (![] : Fin 0 → Fin S8x16x196x768.rank)
  reducesTo_S8x16x196x768_S_d0_1_2_3 : S8x16x196x768.ReducesTo [0, 1, 2, 3] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S8x16x196x768 .f32) (main_arg1 : FVec F S2304x768 .f32) (main_arg2 : FVec F S768x768 .f32) (main_arg3 : FVec F S768 .f32) : IVec S_ 1 :=
  let main_v0 : FVec F S8x16x196x768 .f32 := Host.absf main_arg0
  let main_cst : FVec F S_ .f32 := constant S_ .f32 0x7F800000#32
  let main_v1 : FVec F S8x16x196x768 .f32 := broadcastInDim S8x16x196x768 ![] bcast_S_S8x16x196x768 main_cst
  let main_v2 : IVec S8x16x196x768 1 := cmpf .olt main_v0 main_v1
  let main_c : IVec S_ 1 := constantI S_ 1 1#1
  let main_v3 : IVec S_ 1 := (fun x v => Host.reduce IntOp.andi x v reducesTo_S8x16x196x768_S_d0_1_2_3 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S8x16x196x768 : Shape := ⟨4, ![8, 16, 196, 768]⟩
abbrev S2304x768 : Shape := ⟨2, ![2304, 768]⟩
abbrev S768x768 : Shape := ⟨2, ![768, 768]⟩
abbrev S768 : Shape := ⟨1, ![768]⟩
abbrev S25088x768 : Shape := ⟨2, ![25088, 768]⟩
abbrev S768x2304 : Shape := ⟨2, ![768, 2304]⟩
abbrev S512x768 : Shape := ⟨2, ![512, 768]⟩
abbrev S512x2304 : Shape := ⟨2, ![512, 2304]⟩
abbrev S8x3136x12x64 : Shape := ⟨4, ![8, 3136, 12, 64]⟩
abbrev S8x12x3136x64 : Shape := ⟨4, ![8, 12, 3136, 64]⟩
abbrev S8x6x3136x64 : Shape := ⟨4, ![8, 6, 3136, 64]⟩
abbrev S128x6x196x64 : Shape := ⟨4, ![128, 6, 196, 64]⟩
abbrev S4x6x196x64 : Shape := ⟨4, ![4, 6, 196, 64]⟩
abbrev S24x196x64 : Shape := ⟨3, ![24, 196, 64]⟩
abbrev S24x196x196 : Shape := ⟨3, ![24, 196, 196]⟩
abbrev S24x196 : Shape := ⟨2, ![24, 196]⟩
abbrev S24x196x1 : Shape := ⟨3, ![24, 196, 1]⟩
abbrev S1568x6x16x64 : Shape := ⟨4, ![1568, 6, 16, 64]⟩
abbrev S56x6x16x64 : Shape := ⟨4, ![56, 6, 16, 64]⟩
abbrev S336x16x64 : Shape := ⟨3, ![336, 16, 64]⟩
abbrev S336x16x16 : Shape := ⟨3, ![336, 16, 16]⟩
abbrev S336x16 : Shape := ⟨2, ![336, 16]⟩
abbrev S336x16x1 : Shape := ⟨3, ![336, 16, 1]⟩
abbrev S8x3136x768 : Shape := ⟨3, ![8, 3136, 768]⟩
abbrev S1x768 : Shape := ⟨2, ![1, 768]⟩

abbrev nBuf : Space → Nat
  | .hbm => 41
  | .vmem => 31
  | .smem => 0
  | _ => 0

abbrev bufTy : (tb : Table) → Fin (tcTables nBuf tb) → BufTy
  | .hbm, ⟨0, _⟩ => ⟨S8x16x196x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S25088x768, .f32⟩
  | .hbm, ⟨5, _⟩ => ⟨S768x2304, .f32⟩
  | .hbm, ⟨6, _⟩ => ⟨S768x2304, .bf16⟩
  | .hbm, ⟨7, _⟩ => ⟨S25088x768, .bf16⟩
  | .hbm, ⟨8, _⟩ => ⟨S25088x768, .bf16⟩
  | .hbm, ⟨9, _⟩ => ⟨S25088x768, .bf16⟩
  | .hbm, ⟨10, _⟩ => ⟨S8x3136x12x64, .bf16⟩
  | .hbm, ⟨11, _⟩ => ⟨S8x12x3136x64, .bf16⟩
  | .hbm, ⟨12, _⟩ => ⟨S8x3136x12x64, .bf16⟩
  | .hbm, ⟨13, _⟩ => ⟨S8x12x3136x64, .bf16⟩
  | .hbm, ⟨14, _⟩ => ⟨S8x3136x12x64, .bf16⟩
  | .hbm, ⟨15, _⟩ => ⟨S8x12x3136x64, .bf16⟩
  | .hbm, ⟨16, _⟩ => ⟨S8x6x3136x64, .bf16⟩
  | .hbm, ⟨17, _⟩ => ⟨S8x6x3136x64, .bf16⟩
  | .hbm, ⟨18, _⟩ => ⟨S8x6x3136x64, .bf16⟩
  | .hbm, ⟨19, _⟩ => ⟨S8x6x3136x64, .bf16⟩
  | .hbm, ⟨20, _⟩ => ⟨S8x6x3136x64, .bf16⟩
  | .hbm, ⟨21, _⟩ => ⟨S8x6x3136x64, .bf16⟩
  | .hbm, ⟨22, _⟩ => ⟨S128x6x196x64, .bf16⟩
  | .hbm, ⟨23, _⟩ => ⟨S128x6x196x64, .bf16⟩
  | .hbm, ⟨24, _⟩ => ⟨S128x6x196x64, .bf16⟩
  | .hbm, ⟨25, _⟩ => ⟨S128x6x196x64, .bf16⟩
  | .hbm, ⟨26, _⟩ => ⟨S1568x6x16x64, .bf16⟩
  | .hbm, ⟨27, _⟩ => ⟨S1568x6x16x64, .bf16⟩
  | .hbm, ⟨28, _⟩ => ⟨S1568x6x16x64, .bf16⟩
  | .hbm, ⟨29, _⟩ => ⟨S1568x6x16x64, .bf16⟩
  | .hbm, ⟨30, _⟩ => ⟨S8x6x3136x64, .bf16⟩
  | .hbm, ⟨31, _⟩ => ⟨S8x6x3136x64, .bf16⟩
  | .hbm, ⟨32, _⟩ => ⟨S8x12x3136x64, .bf16⟩
  | .hbm, ⟨33, _⟩ => ⟨S8x3136x12x64, .bf16⟩
  | .hbm, ⟨34, _⟩ => ⟨S8x3136x768, .bf16⟩
  | .hbm, ⟨35, _⟩ => ⟨S25088x768, .bf16⟩
  | .hbm, ⟨36, _⟩ => ⟨S768x768, .f32⟩
  | .hbm, ⟨37, _⟩ => ⟨S768x768, .bf16⟩
  | .hbm, ⟨38, _⟩ => ⟨S1x768, .f32⟩
  | .hbm, ⟨39, _⟩ => ⟨S25088x768, .f32⟩
  | .hbm, ⟨40, _⟩ => ⟨S8x16x196x768, .f32⟩
  | .local _ .vmem, ⟨0, _⟩ => ⟨S512x768, .f32⟩
  | .local _ .vmem, ⟨1, _⟩ => ⟨S512x768, .f32⟩
  | .local _ .vmem, ⟨2, _⟩ => ⟨S768x2304, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x768, .bf16⟩
  | .local _ .vmem, ⟨7, _⟩ => ⟨S512x768, .bf16⟩
  | .local _ .vmem, ⟨8, _⟩ => ⟨S512x768, .bf16⟩
  | .local _ .vmem, ⟨9, _⟩ => ⟨S4x6x196x64, .bf16⟩
  | .local _ .vmem, ⟨10, _⟩ => ⟨S4x6x196x64, .bf16⟩
  | .local _ .vmem, ⟨11, _⟩ => ⟨S4x6x196x64, .bf16⟩
  | .local _ .vmem, ⟨12, _⟩ => ⟨S4x6x196x64, .bf16⟩
  | .local _ .vmem, ⟨13, _⟩ => ⟨S4x6x196x64, .bf16⟩
  | .local _ .vmem, ⟨14, _⟩ => ⟨S4x6x196x64, .bf16⟩
  | .local _ .vmem, ⟨15, _⟩ => ⟨S4x6x196x64, .bf16⟩
  | .local _ .vmem, ⟨16, _⟩ => ⟨S4x6x196x64, .bf16⟩
  | .local _ .vmem, ⟨17, _⟩ => ⟨S56x6x16x64, .bf16⟩
  | .local _ .vmem, ⟨18, _⟩ => ⟨S56x6x16x64, .bf16⟩
  | .local _ .vmem, ⟨19, _⟩ => ⟨S56x6x16x64, .bf16⟩
  | .local _ .vmem, ⟨20, _⟩ => ⟨S56x6x16x64, .bf16⟩
  | .local _ .vmem, ⟨21, _⟩ => ⟨S56x6x16x64, .bf16⟩
  | .local _ .vmem, ⟨22, _⟩ => ⟨S56x6x16x64, .bf16⟩
  | .local _ .vmem, ⟨23, _⟩ => ⟨S56x6x16x64, .bf16⟩
  | .local _ .vmem, ⟨24, _⟩ => ⟨S56x6x16x64, .bf16⟩
  | .local _ .vmem, ⟨25, _⟩ => ⟨S512x768, .bf16⟩
  | .local _ .vmem, ⟨26, _⟩ => ⟨S512x768, .bf16⟩
  | .local _ .vmem, ⟨27, _⟩ => ⟨S768x768, .bf16⟩
  | .local _ .vmem, ⟨28, _⟩ => ⟨S1x768, .f32⟩
  | .local _ .vmem, ⟨29, _⟩ => ⟨S512x768, .f32⟩
  | .local _ .vmem, ⟨30, _⟩ => ⟨S512x768, .f32⟩
  | _, _ => ⟨S8x16x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg3_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc3_sem0_0 : DmaSem sig := 25
abbrev cc3_sem0_1 : DmaSem sig := 26
abbrev cc3_sem1_0 : DmaSem sig := 27
abbrev cc3_sem2_0 : DmaSem sig := 28
abbrev cc3_sem3_0 : DmaSem sig := 29
abbrev cc3_sem3_1 : DmaSem sig := 30

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S4x6x196x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x6x196x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x6x196x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4x6x196x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![28], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_3 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S56x6x16x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S56x6x16x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S56x6x16x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S56x6x16x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![49], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x768 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S768x768 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x768 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S8x16x196x768_S25088x768 : S8x16x196x768.ShapeCasts S25088x768
  transposes_S2304x768_S768x2304_1_0 : S2304x768.Transposes [1, 0] S768x2304
  bitsLt_bf16_f32 : FTy.bits .bf16 < FTy.bits .f32
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  slices_S512x2304_o0_0_S512x768 : S512x2304.Slices ![0, 0] S512x768
  packedbf16_S512x768_S512x768_0_0 : (Rect.unit (s := S512x768) ![0, 0] S512x768.size inb_S512x768_S512x768_0_0).PackedRows (EltTy.packing .bf16)
  slices_S512x2304_o0_768_S512x768 : S512x2304.Slices ![0, 768] S512x768
  slices_S512x2304_o0_1536_S512x768 : S512x2304.Slices ![0, 1536] S512x768
  shapeCasts_S25088x768_S8x3136x12x64 : S25088x768.ShapeCasts S8x3136x12x64
  transposes_S8x3136x12x64_S8x12x3136x64_0_2_1_3 : S8x3136x12x64.Transposes [0, 2, 1, 3] S8x12x3136x64
  slices_S8x12x3136x64_S8x6x3136x64_0_0_0_0 : S8x12x3136x64.Slices ![0, 0, 0, 0] S8x6x3136x64
  slices_S8x12x3136x64_S8x6x3136x64_0_6_0_0 : S8x12x3136x64.Slices ![0, 6, 0, 0] S8x6x3136x64
  shapeCasts_S8x6x3136x64_S128x6x196x64 : S8x6x3136x64.ShapeCasts S128x6x196x64
  inb_S4x6x196x64_S4x6x196x64_0_0_0_0 : ∀ a, (![0, 0, 0, 0] : Fin 4 → Nat) a + S4x6x196x64.size a ≤ S4x6x196x64.size a
  h_S4x6x196x64 : 0 < S4x6x196x64.numel
  shapeCasts_S4x6x196x64_S4x6x196x64 : S4x6x196x64.ShapeCasts S4x6x196x64
  shapeCasts_S4x6x196x64_S24x196x64 : S4x6x196x64.ShapeCasts S24x196x64
  reduces_S24x196x196_S24x196 : S24x196x196.Reduces [2] S24x196
  shapeCasts_S24x196_S24x196x1 : S24x196.ShapeCasts S24x196x1
  broadcasts_S24x196x1_S24x196x196 : S24x196x1.Broadcasts S24x196x196
  shapeCasts_S24x196x64_S4x6x196x64 : S24x196x64.ShapeCasts S4x6x196x64
  packedbf16_S4x6x196x64_S4x6x196x64_0_0_0_0 : (Rect.unit (s := S4x6x196x64) ![0, 0, 0, 0] S4x6x196x64.size inb_S4x6x196x64_S4x6x196x64_0_0_0_0).PackedRows (EltTy.packing .bf16)
  shapeCasts_S8x6x3136x64_S1568x6x16x64 : S8x6x3136x64.ShapeCasts S1568x6x16x64
  inb_S56x6x16x64_S56x6x16x64_0_0_0_0 : ∀ a, (![0, 0, 0, 0] : Fin 4 → Nat) a + S56x6x16x64.size a ≤ S56x6x16x64.size a
  h_S56x6x16x64 : 0 < S56x6x16x64.numel
  shapeCasts_S56x6x16x64_S56x6x16x64 : S56x6x16x64.ShapeCasts S56x6x16x64
  shapeCasts_S56x6x16x64_S336x16x64 : S56x6x16x64.ShapeCasts S336x16x64
  reduces_S336x16x16_S336x16 : S336x16x16.Reduces [2] S336x16
  shapeCasts_S336x16_S336x16x1 : S336x16.ShapeCasts S336x16x1
  broadcasts_S336x16x1_S336x16x16 : S336x16x1.Broadcasts S336x16x16
  shapeCasts_S336x16x64_S56x6x16x64 : S336x16x64.ShapeCasts S56x6x16x64
  packedbf16_S56x6x16x64_S56x6x16x64_0_0_0_0 : (Rect.unit (s := S56x6x16x64) ![0, 0, 0, 0] S56x6x16x64.size inb_S56x6x16x64_S56x6x16x64_0_0_0_0).PackedRows (EltTy.packing .bf16)
  shapeCasts_S128x6x196x64_S8x6x3136x64 : S128x6x196x64.ShapeCasts S8x6x3136x64
  shapeCasts_S1568x6x16x64_S8x6x3136x64 : S1568x6x16x64.ShapeCasts S8x6x3136x64
  concatenates_S8x6x3136x64_S8x6x3136x64_S8x12x3136x64_d1 : Shape.Concatenates [S8x6x3136x64, S8x6x3136x64] S8x12x3136x64 1
  transposes_S8x12x3136x64_S8x3136x12x64_0_2_1_3 : S8x12x3136x64.Transposes [0, 2, 1, 3] S8x3136x12x64
  shapeCasts_S8x3136x12x64_S8x3136x768 : S8x3136x12x64.ShapeCasts S8x3136x768
  shapeCasts_S8x3136x768_S25088x768 : S8x3136x768.ShapeCasts S25088x768
  transposes_S768x768_S768x768_1_0 : S768x768.Transposes [1, 0] S768x768
  shapeCasts_S768_S1x768 : S768.ShapeCasts S1x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  shapeCasts_S25088x768_S8x16x196x768 : S25088x768.ShapeCasts S8x16x196x768
  dot_S512x768_S768x2304_S512x2304_1_0_0_1_n_n_wf : DotDims.WF S512x768 S768x2304 S512x2304 [1] [0] [0] [1] [] []
  dot_S24x196x64_S24x196x64_S24x196x196_2_2_1_1_0_0_wf : DotDims.WF S24x196x64 S24x196x64 S24x196x196 [2] [2] [1] [1] [0] [0]
  dot_S24x196x196_S24x196x64_S24x196x64_2_1_1_2_0_0_wf : DotDims.WF S24x196x196 S24x196x64 S24x196x64 [2] [1] [1] [2] [0] [0]
  dot_S336x16x64_S336x16x64_S336x16x16_2_2_1_1_0_0_wf : DotDims.WF S336x16x64 S336x16x64 S336x16x16 [2] [2] [1] [1] [0] [0]
  dot_S336x16x16_S336x16x64_S336x16x64_2_1_1_2_0_0_wf : DotDims.WF S336x16x16 S336x16x64 S336x16x64 [2] [1] [1] [2] [0] [0]
  dot_S512x768_S768x768_S512x768_1_0_0_1_n_n_wf : DotDims.WF S512x768 S768x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S25088x768.size a
  hwx0_0 : ∀ i : grid0.Coords, EltTy.bits .f32 = 32 ∨ (Rect.block (s := S25088x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x768.size a ≤ S25088x768.size a
  hwx0_2 : ∀ i : grid0.Coords, EltTy.bits .bf16 = 32 ∨ (Rect.block (s := S25088x768) S512x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S25088x768.size a
  hwx0_3 : ∀ i : grid0.Coords, EltTy.bits .bf16 = 32 ∨ (Rect.block (s := S25088x768) S512x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x768.size a ≤ S25088x768.size a
  hwx0_4 : ∀ i : grid0.Coords, EltTy.bits .bf16 = 32 ∨ (Rect.block (s := S25088x768) S512x768.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x6x196x64.size a ≤ S128x6x196x64.size a
  hwx1_0 : ∀ i : grid1.Coords, EltTy.bits .bf16 = 32 ∨ (Rect.block (s := S128x6x196x64) S4x6x196x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x6x196x64.size a ≤ S128x6x196x64.size a
  hwx1_1 : ∀ i : grid1.Coords, EltTy.bits .bf16 = 32 ∨ (Rect.block (s := S128x6x196x64) S4x6x196x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x6x196x64.size a ≤ S128x6x196x64.size a
  hwx1_2 : ∀ i : grid1.Coords, EltTy.bits .bf16 = 32 ∨ (Rect.block (s := S128x6x196x64) S4x6x196x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x6x196x64.size a ≤ S128x6x196x64.size a
  hwx1_3 : ∀ i : grid1.Coords, EltTy.bits .bf16 = 32 ∨ (Rect.block (s := S128x6x196x64) S4x6x196x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S56x6x16x64.size a ≤ S1568x6x16x64.size a
  hwx2_0 : ∀ i : grid2.Coords, EltTy.bits .bf16 = 32 ∨ (Rect.block (s := S1568x6x16x64) S56x6x16x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S56x6x16x64.size a ≤ S1568x6x16x64.size a
  hwx2_1 : ∀ i : grid2.Coords, EltTy.bits .bf16 = 32 ∨ (Rect.block (s := S1568x6x16x64) S56x6x16x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S56x6x16x64.size a ≤ S1568x6x16x64.size a
  hwx2_2 : ∀ i : grid2.Coords, EltTy.bits .bf16 = 32 ∨ (Rect.block (s := S1568x6x16x64) S56x6x16x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S56x6x16x64.size a ≤ S1568x6x16x64.size a
  hwx2_3 : ∀ i : grid2.Coords, EltTy.bits .bf16 = 32 ∨ (Rect.block (s := S1568x6x16x64) S56x6x16x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x768.size a ≤ S25088x768.size a
  hwx3_0 : ∀ i : grid3.Coords, EltTy.bits .bf16 = 32 ∨ (Rect.block (s := S25088x768) S512x768.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S768x768.size a ≤ S768x768.size a
  hwx3_1 : ∀ i : grid3.Coords, EltTy.bits .bf16 = 32 ∨ (Rect.block (s := S768x768) S768x768.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x768.size a ≤ S1x768.size a
  hwx3_2 : ∀ i : grid3.Coords, EltTy.bits .f32 = 32 ∨ (Rect.block (s := S1x768) S1x768.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x768.size a ≤ S25088x768.size a
  hwx3_3 : ∀ i : grid3.Coords, EltTy.bits .f32 = 32 ∨ (Rect.block (s := S25088x768) S512x768.size (cc3_transform_3 i) (hinb3_3 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S24x196x64_S24x196x64_S24x196x196_2_2_1_1_0_0 : DotDims S24x196x64 S24x196x64 S24x196x196 where
  lhsContracting := [2]
  rhsContracting := [2]
  lhsNonContracting := [1]
  rhsNonContracting := [1]
  lhsBatch := [0]
  rhsBatch := [0]
  wf := dot_S24x196x64_S24x196x64_S24x196x196_2_2_1_1_0_0_wf
def dot_S24x196x196_S24x196x64_S24x196x64_2_1_1_2_0_0 : DotDims S24x196x196 S24x196x64 S24x196x64 where
  lhsContracting := [2]
  rhsContracting := [1]
  lhsNonContracting := [1]
  rhsNonContracting := [2]
  lhsBatch := [0]
  rhsBatch := [0]
  wf := dot_S24x196x196_S24x196x64_S24x196x64_2_1_1_2_0_0_wf
def dot_S336x16x64_S336x16x64_S336x16x16_2_2_1_1_0_0 : DotDims S336x16x64 S336x16x64 S336x16x16 where
  lhsContracting := [2]
  rhsContracting := [2]
  lhsNonContracting := [1]
  rhsNonContracting := [1]
  lhsBatch := [0]
  rhsBatch := [0]
  wf := dot_S336x16x64_S336x16x64_S336x16x16_2_2_1_1_0_0_wf
def dot_S336x16x16_S336x16x64_S336x16x64_2_1_1_2_0_0 : DotDims S336x16x16 S336x16x64 S336x16x64 where
  lhsContracting := [2]
  rhsContracting := [1]
  lhsNonContracting := [1]
  rhsNonContracting := [2]
  lhsBatch := [0]
  rhsBatch := [0]
  wf := dot_S336x16x16_S336x16x64_S336x16x64_2_1_1_2_0_0_wf
def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S512x768.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S512x768.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S512x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S4x6x196x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4x6x196x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S4x6x196x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S4x6x196x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v20) S56x6x16x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S56x6x16x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v22) S56x6x16x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v23) S56x6x16x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v29) S512x768.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v31) S768x768.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1x768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v33) S512x768.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S8x16x196x768 : Shape := ⟨4, ![8, 16, 196, 768]⟩
abbrev S2304x768 : Shape := ⟨2, ![2304, 768]⟩
abbrev S768x768 : Shape := ⟨2, ![768, 768]⟩
abbrev S768 : Shape := ⟨1, ![768]⟩
abbrev S8x3136x768 : Shape := ⟨3, ![8, 3136, 768]⟩
abbrev S8x3136x2304 : Shape := ⟨3, ![8, 3136, 2304]⟩
abbrev S8x3136x3x12x64 : Shape := ⟨5, ![8, 3136, 3, 12, 64]⟩
abbrev S3x8x12x3136x64 : Shape := ⟨5, ![3, 8, 12, 3136, 64]⟩
abbrev S1x8x12x3136x64 : Shape := ⟨5, ![1, 8, 12, 3136, 64]⟩
abbrev S8x12x3136x64 : Shape := ⟨4, ![8, 12, 3136, 64]⟩
abbrev S8x6x3136x64 : Shape := ⟨4, ![8, 6, 3136, 64]⟩
abbrev S128x6x196x64 : Shape := ⟨4, ![128, 6, 196, 64]⟩
abbrev S128x6x196x196 : Shape := ⟨4, ![128, 6, 196, 196]⟩
abbrev S_ : Shape := ⟨0, ![]⟩
abbrev S128x6x196 : Shape := ⟨3, ![128, 6, 196]⟩
abbrev S128x6x196x1 : Shape := ⟨4, ![128, 6, 196, 1]⟩
abbrev S1568x6x16x64 : Shape := ⟨4, ![1568, 6, 16, 64]⟩
abbrev S1568x6x16x16 : Shape := ⟨4, ![1568, 6, 16, 16]⟩
abbrev S1568x6x16 : Shape := ⟨3, ![1568, 6, 16]⟩
abbrev S1568x6x16x1 : Shape := ⟨4, ![1568, 6, 16, 1]⟩
abbrev S8x3136x12x64 : Shape := ⟨4, ![8, 3136, 12, 64]⟩
abbrev S1x1x768 : Shape := ⟨3, ![1, 1, 768]⟩

abbrev nBuf : Space → Nat
  | .hbm => 74
  | .vmem => 0
  | .smem => 0
  | _ => 0

abbrev bufTy : (tb : Table) → Fin (tcTables nBuf tb) → BufTy
  | .hbm, ⟨0, _⟩ => ⟨S8x16x196x768, .f32⟩
  | .hbm, ⟨1, _⟩ => ⟨S2304x768, .f32⟩
  | .hbm, ⟨2, _⟩ => ⟨S768x768, .f32⟩
  | .hbm, ⟨3, _⟩ => ⟨S768, .f32⟩
  | .hbm, ⟨4, _⟩ => ⟨S8x3136x768, .f32⟩
  | .hbm, ⟨5, _⟩ => ⟨S8x3136x2304, .f32⟩
  | .hbm, ⟨6, _⟩ => ⟨S8x3136x3x12x64, .f32⟩
  | .hbm, ⟨7, _⟩ => ⟨S3x8x12x3136x64, .f32⟩
  | .hbm, ⟨8, _⟩ => ⟨S1x8x12x3136x64, .f32⟩
  | .hbm, ⟨9, _⟩ => ⟨S8x12x3136x64, .f32⟩
  | .hbm, ⟨10, _⟩ => ⟨S1x8x12x3136x64, .f32⟩
  | .hbm, ⟨11, _⟩ => ⟨S8x12x3136x64, .f32⟩
  | .hbm, ⟨12, _⟩ => ⟨S1x8x12x3136x64, .f32⟩
  | .hbm, ⟨13, _⟩ => ⟨S8x12x3136x64, .f32⟩
  | .hbm, ⟨14, _⟩ => ⟨S8x6x3136x64, .f32⟩
  | .hbm, ⟨15, _⟩ => ⟨S8x6x3136x64, .f32⟩
  | .hbm, ⟨16, _⟩ => ⟨S8x6x3136x64, .f32⟩
  | .hbm, ⟨17, _⟩ => ⟨S8x6x3136x64, .f32⟩
  | .hbm, ⟨18, _⟩ => ⟨S8x6x3136x64, .f32⟩
  | .hbm, ⟨19, _⟩ => ⟨S8x6x3136x64, .f32⟩
  | .hbm, ⟨20, _⟩ => ⟨S128x6x196x64, .f32⟩
  | .hbm, ⟨21, _⟩ => ⟨S128x6x196x64, .f32⟩
  | .hbm, ⟨22, _⟩ => ⟨S128x6x196x64, .f32⟩
  | .hbm, ⟨23, _⟩ => ⟨S128x6x196x196, .f32⟩
  | .hbm, ⟨24, _⟩ => ⟨S_, .f32⟩
  | .hbm, ⟨25, _⟩ => ⟨S128x6x196x196, .f32⟩
  | .hbm, ⟨26, _⟩ => ⟨S128x6x196x196, .f32⟩
  | .hbm, ⟨27, _⟩ => ⟨S_, .f32⟩
  | .hbm, ⟨28, _⟩ => ⟨S128x6x196, .f32⟩
  | .hbm, ⟨29, _⟩ => ⟨S_, .f32⟩
  | .hbm, ⟨30, _⟩ => ⟨S128x6x196, .f32⟩
  | .hbm, ⟨31, _⟩ => ⟨S128x6x196, .f32⟩
  | .hbm, ⟨32, _⟩ => ⟨S128x6x196x1, .f32⟩
  | .hbm, ⟨33, _⟩ => ⟨S128x6x196x196, .f32⟩
  | .hbm, ⟨34, _⟩ => ⟨S128x6x196x196, .f32⟩
  | .hbm, ⟨35, _⟩ => ⟨S128x6x196x196, .f32⟩
  | .hbm, ⟨36, _⟩ => ⟨S_, .f32⟩
  | .hbm, ⟨37, _⟩ => ⟨S128x6x196, .f32⟩
  | .hbm, ⟨38, _⟩ => ⟨S128x6x196x1, .f32⟩
  | .hbm, ⟨39, _⟩ => ⟨S128x6x196x196, .f32⟩
  | .hbm, ⟨40, _⟩ => ⟨S128x6x196x196, .f32⟩
  | .hbm, ⟨41, _⟩ => ⟨S128x6x196x64, .f32⟩
  | .hbm, ⟨42, _⟩ => ⟨S1568x6x16x64, .f32⟩
  | .hbm, ⟨43, _⟩ => ⟨S1568x6x16x64, .f32⟩
  | .hbm, ⟨44, _⟩ => ⟨S1568x6x16x64, .f32⟩
  | .hbm, ⟨45, _⟩ => ⟨S1568x6x16x16, .f32⟩
  | .hbm, ⟨46, _⟩ => ⟨S_, .f32⟩
  | .hbm, ⟨47, _⟩ => ⟨S1568x6x16x16, .f32⟩
  | .hbm, ⟨48, _⟩ => ⟨S1568x6x16x16, .f32⟩
  | .hbm, ⟨49, _⟩ => ⟨S_, .f32⟩
  | .hbm, ⟨50, _⟩ => ⟨S1568x6x16, .f32⟩
  | .hbm, ⟨51, _⟩ => ⟨S_, .f32⟩
  | .hbm, ⟨52, _⟩ => ⟨S1568x6x16, .f32⟩
  | .hbm, ⟨53, _⟩ => ⟨S1568x6x16, .f32⟩
  | .hbm, ⟨54, _⟩ => ⟨S1568x6x16x1, .f32⟩
  | .hbm, ⟨55, _⟩ => ⟨S1568x6x16x16, .f32⟩
  | .hbm, ⟨56, _⟩ => ⟨S1568x6x16x16, .f32⟩
  | .hbm, ⟨57, _⟩ => ⟨S1568x6x16x16, .f32⟩
  | .hbm, ⟨58, _⟩ => ⟨S_, .f32⟩
  | .hbm, ⟨59, _⟩ => ⟨S1568x6x16, .f32⟩
  | .hbm, ⟨60, _⟩ => ⟨S1568x6x16x1, .f32⟩
  | .hbm, ⟨61, _⟩ => ⟨S1568x6x16x16, .f32⟩
  | .hbm, ⟨62, _⟩ => ⟨S1568x6x16x16, .f32⟩
  | .hbm, ⟨63, _⟩ => ⟨S1568x6x16x64, .f32⟩
  | .hbm, ⟨64, _⟩ => ⟨S8x6x3136x64, .f32⟩
  | .hbm, ⟨65, _⟩ => ⟨S8x6x3136x64, .f32⟩
  | .hbm, ⟨66, _⟩ => ⟨S8x12x3136x64, .f32⟩
  | .hbm, ⟨67, _⟩ => ⟨S8x3136x12x64, .f32⟩
  | .hbm, ⟨68, _⟩ => ⟨S8x3136x768, .f32⟩
  | .hbm, ⟨69, _⟩ => ⟨S8x3136x768, .f32⟩
  | .hbm, ⟨70, _⟩ => ⟨S1x1x768, .f32⟩
  | .hbm, ⟨71, _⟩ => ⟨S8x3136x768, .f32⟩
  | .hbm, ⟨72, _⟩ => ⟨S8x3136x768, .f32⟩
  | .hbm, ⟨73, _⟩ => ⟨S8x16x196x768, .f32⟩
  | _, _ => ⟨S8x16x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_2 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_3 : Ref sig .tc := ⟨.hbm, 46, rfl⟩
abbrev main_v38 : Ref sig .tc := ⟨.hbm, 47, rfl⟩
abbrev main_v39 : Ref sig .tc := ⟨.hbm, 48, rfl⟩
abbrev main_cst_4 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩

abbrev nD : Nat := 1
abbrev τ : Topo := Topo.v7x

variable {F : FTy → Type} [FloatOps F]

class Facts₀ : Prop where
  shapeCasts_S8x16x196x768_S8x3136x768 : S8x16x196x768.ShapeCasts S8x3136x768
  shapeCasts_S8x3136x2304_S8x3136x3x12x64 : S8x3136x2304.ShapeCasts S8x3136x3x12x64
  transposes_S8x3136x3x12x64_S3x8x12x3136x64_2_0_3_1_4 : S8x3136x3x12x64.Transposes [2, 0, 3, 1, 4] S3x8x12x3136x64
  slices_S3x8x12x3136x64_S1x8x12x3136x64_0_0_0_0_0 : S3x8x12x3136x64.Slices ![0, 0, 0, 0, 0] S1x8x12x3136x64
  shapeCasts_S1x8x12x3136x64_S8x12x3136x64 : S1x8x12x3136x64.ShapeCasts S8x12x3136x64
  slices_S3x8x12x3136x64_S1x8x12x3136x64_1_0_0_0_0 : S3x8x12x3136x64.Slices ![1, 0, 0, 0, 0] S1x8x12x3136x64
  slices_S3x8x12x3136x64_S1x8x12x3136x64_2_0_0_0_0 : S3x8x12x3136x64.Slices ![2, 0, 0, 0, 0] S1x8x12x3136x64
  slices_S8x12x3136x64_S8x6x3136x64_0_0_0_0 : S8x12x3136x64.Slices ![0, 0, 0, 0] S8x6x3136x64
  slices_S8x12x3136x64_S8x6x3136x64_0_6_0_0 : S8x12x3136x64.Slices ![0, 6, 0, 0] S8x6x3136x64
  shapeCasts_S8x6x3136x64_S128x6x196x64 : S8x6x3136x64.ShapeCasts S128x6x196x64
  bcast_S_S128x6x196x196 : S_.BroadcastsInDim S128x6x196x196 (![] : Fin 0 → Fin S128x6x196x196.rank)
  reducesTo_S128x6x196x196_S128x6x196_d3 : S128x6x196x196.ReducesTo [3] S128x6x196
  h_S_ : 0 < S_.numel
  bcast_S_S128x6x196 : S_.BroadcastsInDim S128x6x196 (![] : Fin 0 → Fin S128x6x196.rank)
  bcast_S128x6x196_S128x6x196x1_0_1_2 : S128x6x196.BroadcastsInDim S128x6x196x1 (![0, 1, 2] : Fin 3 → Fin S128x6x196x1.rank)
  bcast_S128x6x196x1_S128x6x196x196_0_1_2_3 : S128x6x196x1.BroadcastsInDim S128x6x196x196 (![0, 1, 2, 3] : Fin 4 → Fin S128x6x196x196.rank)
  shapeCasts_S8x6x3136x64_S1568x6x16x64 : S8x6x3136x64.ShapeCasts S1568x6x16x64
  bcast_S_S1568x6x16x16 : S_.BroadcastsInDim S1568x6x16x16 (![] : Fin 0 → Fin S1568x6x16x16.rank)
  reducesTo_S1568x6x16x16_S1568x6x16_d3 : S1568x6x16x16.ReducesTo [3] S1568x6x16
  bcast_S_S1568x6x16 : S_.BroadcastsInDim S1568x6x16 (![] : Fin 0 → Fin S1568x6x16.rank)
  bcast_S1568x6x16_S1568x6x16x1_0_1_2 : S1568x6x16.BroadcastsInDim S1568x6x16x1 (![0, 1, 2] : Fin 3 → Fin S1568x6x16x1.rank)
  bcast_S1568x6x16x1_S1568x6x16x16_0_1_2_3 : S1568x6x16x1.BroadcastsInDim S1568x6x16x16 (![0, 1, 2, 3] : Fin 4 → Fin S1568x6x16x16.rank)
  shapeCasts_S128x6x196x64_S8x6x3136x64 : S128x6x196x64.ShapeCasts S8x6x3136x64
  shapeCasts_S1568x6x16x64_S8x6x3136x64 : S1568x6x16x64.ShapeCasts S8x6x3136x64
  concatenates_S8x6x3136x64_S8x6x3136x64_S8x12x3136x64_d1 : Shape.Concatenates [S8x6x3136x64, S8x6x3136x64] S8x12x3136x64 1
  transposes_S8x12x3136x64_S8x3136x12x64_0_2_1_3 : S8x12x3136x64.Transposes [0, 2, 1, 3] S8x3136x12x64
  shapeCasts_S8x3136x12x64_S8x3136x768 : S8x3136x12x64.ShapeCasts S8x3136x768
  bcast_S768_S1x1x768_2 : S768.BroadcastsInDim S1x1x768 (![2] : Fin 1 → Fin S1x1x768.rank)
  bcast_S1x1x768_S8x3136x768_0_1_2 : S1x1x768.BroadcastsInDim S8x3136x768 (![0, 1, 2] : Fin 3 → Fin S8x3136x768.rank)
  shapeCasts_S8x3136x768_S8x16x196x768 : S8x3136x768.ShapeCasts S8x16x196x768
  dot_S8x3136x768_S2304x768_S8x3136x2304_2_1_01_0_n_n_wf : DotDims.WF S8x3136x768 S2304x768 S8x3136x2304 [2] [1] [0, 1] [0] [] []
  dot_S128x6x196x64_S128x6x196x64_S128x6x196x196_3_3_2_2_01_01_wf : DotDims.WF S128x6x196x64 S128x6x196x64 S128x6x196x196 [3] [3] [2] [2] [0, 1] [0, 1]
  dot_S128x6x196x196_S128x6x196x64_S128x6x196x64_3_2_2_3_01_01_wf : DotDims.WF S128x6x196x196 S128x6x196x64 S128x6x196x64 [3] [2] [2] [3] [0, 1] [0, 1]
  dot_S1568x6x16x64_S1568x6x16x64_S1568x6x16x16_3_3_2_2_01_01_wf : DotDims.WF S1568x6x16x64 S1568x6x16x64 S1568x6x16x16 [3] [3] [2] [2] [0, 1] [0, 1]
  dot_S1568x6x16x16_S1568x6x16x64_S1568x6x16x64_3_2_2_3_01_01_wf : DotDims.WF S1568x6x16x16 S1568x6x16x64 S1568x6x16x64 [3] [2] [2] [3] [0, 1] [0, 1]
  dot_S8x3136x768_S768x768_S8x3136x768_2_1_01_0_n_n_wf : DotDims.WF S8x3136x768 S768x768 S8x3136x768 [2] [1] [0, 1] [0] [] []

variable [Facts₀]

def dot_S8x3136x768_S2304x768_S8x3136x2304_2_1_01_0_n_n : DotDims S8x3136x768 S2304x768 S8x3136x2304 where
  lhsContracting := [2]
  rhsContracting := [1]
  lhsNonContracting := [0, 1]
  rhsNonContracting := [0]
  lhsBatch := []
  rhsBatch := []
  wf := dot_S8x3136x768_S2304x768_S8x3136x2304_2_1_01_0_n_n_wf
def dot_S128x6x196x64_S128x6x196x64_S128x6x196x196_3_3_2_2_01_01 : DotDims S128x6x196x64 S128x6x196x64 S128x6x196x196 where
  lhsContracting := [3]
  rhsContracting := [3]
  lhsNonContracting := [2]
  rhsNonContracting := [2]
  lhsBatch := [0, 1]
  rhsBatch := [0, 1]
  wf := dot_S128x6x196x64_S128x6x196x64_S128x6x196x196_3_3_2_2_01_01_wf
def dot_S128x6x196x196_S128x6x196x64_S128x6x196x64_3_2_2_3_01_01 : DotDims S128x6x196x196 S128x6x196x64 S128x6x196x64 where
  lhsContracting := [3]
  rhsContracting := [2]
  lhsNonContracting := [2]
  rhsNonContracting := [3]
  lhsBatch := [0, 1]
  rhsBatch := [0, 1]
  wf := dot_S128x6x196x196_S128x6x196x64_S128x6x196x64_3_2_2_3_01_01_wf
def dot_S1568x6x16x64_S1568x6x16x64_S1568x6x16x16_3_3_2_2_01_01 : DotDims S1568x6x16x64 S1568x6x16x64 S1568x6x16x16 where
  lhsContracting := [3]
  rhsContracting := [3]
  lhsNonContracting := [2]
  rhsNonContracting := [2]
  lhsBatch := [0, 1]
  rhsBatch := [0, 1]
  wf := dot_S1568x6x16x64_S1568x6x16x64_S1568x6x16x16_3_3_2_2_01_01_wf
def dot_S1568x6x16x16_S1568x6x16x64_S1568x6x16x64_3_2_2_3_01_01 : DotDims S1568x6x16x16 S1568x6x16x64 S1568x6x16x64 where
  lhsContracting := [3]
  rhsContracting := [2]
  lhsNonContracting := [2]
  rhsNonContracting := [3]
  lhsBatch := [0, 1]
  rhsBatch := [0, 1]
  wf := dot_S1568x6x16x16_S1568x6x16x64_S1568x6x16x64_3_2_2_3_01_01_wf
def dot_S8x3136x768_S768x768_S8x3136x768_2_1_01_0_n_n : DotDims S8x3136x768 S768x768 S8x3136x768 where
  lhsContracting := [2]
  rhsContracting := [1]
  lhsNonContracting := [0, 1]
  rhsNonContracting := [0]
  lhsBatch := []
  rhsBatch := []
  wf := dot_S8x3136x768_S768x768_S8x3136x768_2_1_01_0_n_n_wf

class Facts : Prop extends Facts₀ where

variable [Facts]
-- ==== Proof.RefStages.lean ====
/-
  The reference program's run, read in four stretches. Its 70 host operations fall into: the projection of the input
  and its cutting into heads and re-grouping (19 operations); the attention over the 196 positions of a frame (19);
  the attention over the 16 frames of a position, with its operands' re-grouping (22); the joining of the two results
  and the output projection with its bias (10). Every buffer is written once, so what a later stretch reads is what an
  earlier one left; each stretch's result is the corresponding stage of the Read module applied to what it reads, and
  the whole run ends with the result buffer at the last stage of the launch contents, the arguments unchanged.
-/
import proofs.«178978_j19473381720281_2_alg».proof.Proof.RefRead
import Idealize.ShloMosaic.Lib.StableHlo.Run
import Idealize.ShloMosaic.PureOps.Ideal

set_option maxRecDepth 16384

noncomputable section

namespace Cert.ReferenceIdeal.Stages

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- Running one list of operations after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-! ## The four stretches -/

/-- The projection, the cutting into heads and the re-grouping of the first six heads. -/
abbrev P0 : List (HloOp τ sig (Elt F)) :=
  [ reshape main_arg0 main_v0 rfl shapeCasts_S8x16x196x768_S8x3136x768,
    binary main_v0 main_arg1 main_v1 ((fun l r => Host.dotGeneral dot_S8x3136x768_S2304x768_S8x3136x2304_2_1_01_0_n_n none l r) : (⟨S8x3136x768, .f32⟩ : BufTy).Contents (Elt F) → (⟨S2304x768, .f32⟩ : BufTy).Contents (Elt F) → (⟨S8x3136x2304, .f32⟩ : BufTy).Contents (Elt F)),
    reshape main_v1 main_v2 rfl shapeCasts_S8x3136x2304_S8x3136x3x12x64,
    unary main_v2 main_v3 ((transpose S3x8x12x3136x64 [2, 0, 3, 1, 4] · transposes_S8x3136x3x12x64_S3x8x12x3136x64_2_0_3_1_4) : (⟨S8x3136x3x12x64, .f32⟩ : BufTy).Contents (Elt F) → (⟨S3x8x12x3136x64, .f32⟩ : BufTy).Contents (Elt F)),
    unary main_v3 main_v4 ((extractStridedSlice S1x8x12x3136x64 ![0, 0, 0, 0, 0] · slices_S3x8x12x3136x64_S1x8x12x3136x64_0_0_0_0_0) : (⟨S3x8x12x3136x64, .f32⟩ : BufTy).Contents (Elt F) → (⟨S1x8x12x3136x64, .f32⟩ : BufTy).Contents (Elt F)),
    reshape main_v4 main_v5 rfl shapeCasts_S1x8x12x3136x64_S8x12x3136x64,
    unary main_v3 main_v6 ((extractStridedSlice S1x8x12x3136x64 ![1, 0, 0, 0, 0] · slices_S3x8x12x3136x64_S1x8x12x3136x64_1_0_0_0_0) : (⟨S3x8x12x3136x64, .f32⟩ : BufTy).Contents (Elt F) → (⟨S1x8x12x3136x64, .f32⟩ : BufTy).Contents (Elt F)),
    reshape main_v6 main_v7 rfl shapeCasts_S1x8x12x3136x64_S8x12x3136x64,
    unary main_v3 main_v8 ((extractStridedSlice S1x8x12x3136x64 ![2, 0, 0, 0, 0] · slices_S3x8x12x3136x64_S1x8x12x3136x64_2_0_0_0_0) : (⟨S3x8x12x3136x64, .f32⟩ : BufTy).Contents (Elt F) → (⟨S1x8x12x3136x64, .f32⟩ : BufTy).Contents (Elt F)),
    reshape main_v8 main_v9 rfl shapeCasts_S1x8x12x3136x64_S8x12x3136x64,
    unary main_v5 main_v10 ((extractStridedSlice S8x6x3136x64 ![0, 0, 0, 0] · slices_S8x12x3136x64_S8x6x3136x64_0_0_0_0) : (⟨S8x12x3136x64, .f32⟩ : BufTy).Contents (Elt F) → (⟨S8x6x3136x64, .f32⟩ : BufTy).Contents (Elt F)),
    unary main_v5 main_v11 ((extractStridedSlice S8x6x3136x64 ![0, 6, 0, 0] · slices_S8x12x3136x64_S8x6x3136x64_0_6_0_0) : (⟨S8x12x3136x64, .f32⟩ : BufTy).Contents (Elt F) → (⟨S8x6x3136x64, .f32⟩ : BufTy).Contents (Elt F)),
    unary main_v7 main_v12 ((extractStridedSlice S8x6x3136x64 ![0, 0, 0, 0] · slices_S8x12x3136x64_S8x6x3136x64_0_0_0_0) : (⟨S8x12x3136x64, .f32⟩ : BufTy).Contents (Elt F) → (⟨S8x6x3136x64, .f32⟩ : BufTy).Contents (Elt F)),
    unary main_v7 main_v13 ((extractStridedSlice S8x6x3136x64 ![0, 6, 0, 0] · slices_S8x12x3136x64_S8x6x3136x64_0_6_0_0) : (⟨S8x12x3136x64, .f32⟩ : BufTy).Contents (Elt F) → (⟨S8x6x3136x64, .f32⟩ : BufTy).Contents (Elt F)),
    unary main_v9 main_v14 ((extractStridedSlice S8x6x3136x64 ![0, 0, 0, 0] · slices_S8x12x3136x64_S8x6x3136x64_0_0_0_0) : (⟨S8x12x3136x64, .f32⟩ : BufTy).Contents (Elt F) → (⟨S8x6x3136x64, .f32⟩ : BufTy).Contents (Elt F)),
    unary main_v9 main_v15 ((extractStridedSlice S8x6x3136x64 ![0, 6, 0, 0] · slices_S8x12x3136x64_S8x6x3136x64_0_6_0_0) : (⟨S8x12x3136x64, .f32⟩ : BufTy).Contents (Elt F) → (⟨S8x6x3136x64, .f32⟩ : BufTy).Contents (Elt F)),
    reshape main_v10 main_v16 rfl shapeCasts_S8x6x3136x64_S128x6x196x64,
    reshape main_v12 main_v17 rfl shapeCasts_S8x6x3136x64_S128x6x196x64,
    reshape main_v14 main_v18 rfl shapeCasts_S8x6x3136x64_S128x6x196x64 ]
/-- The attention over the positions of a frame. -/
abbrev P1 : List (HloOp τ sig (Elt F)) :=
  [ binary main_v16 main_v17 main_v19 ((fun l r => Host.dotGeneral dot_S128x6x196x64_S128x6x196x64_S128x6x196x196_3_3_2_2_01_01 none l r) : (⟨S128x6x196x64, .f32⟩ : BufTy).Contents (Elt F) → (⟨S128x6x196x64, .f32⟩ : BufTy).Contents (Elt F) → (⟨S128x6x196x196, .f32⟩ : BufTy).Contents (Elt F)),
    nullary main_cst (constant S_ .f32 0x3E000000#32),
    unary main_cst main_v20 (broadcastInDim S128x6x196x196 ![] bcast_S_S128x6x196x196 : (⟨S_, .f32⟩ : BufTy).Contents (Elt F) → (⟨S128x6x196x196, .f32⟩ : BufTy).Contents (Elt F)),
    binary main_v19 main_v20 main_v21 (mulf : (⟨S128x6x196x196, .f32⟩ : BufTy).Contents (Elt F) → (⟨S128x6x196x196, .f32⟩ : BufTy).Contents (Elt F) → (⟨S128x6x196x196, .f32⟩ : BufTy).Contents (Elt F)),
    nullary main_cst_0 (constant S_ .f32 0xFF800000#32),
    binary main_v21 main_cst_0 main_v22 ((fun x v => Host.reduce FloatOps.maximumf x v reducesTo_S128x6x196x196_S128x6x196_d3 h_S_) : (⟨S128x6x196x196, .f32⟩ : BufTy).Contents (Elt F) → (⟨S_, .f32⟩ : BufTy).Contents (Elt F) → (⟨S128x6x196, .f32⟩ : BufTy).Contents (Elt F)),
    nullary main_cst_1 (constant S_ .f32 0xFF800000#32),
    unary main_cst_1 main_v23 (broadcastInDim S128x6x196 ![] bcast_S_S128x6x196 : (⟨S_, .f32⟩ : BufTy).Contents (Elt F) → (⟨S128x6x196, .f32⟩ : BufTy).Contents (Elt F)),
    binary main_v23 main_v22 main_v24 (maximumf : (⟨S128x6x196, .f32⟩ : BufTy).Contents (Elt F) → (⟨S128x6x196, .f32⟩ : BufTy).Contents (Elt F) → (⟨S128x6x196, .f32⟩ : BufTy).Contents (Elt F)),
    unary main_v24 main_v25 (broadcastInDim S128x6x196x1 ![0, 1, 2] bcast_S128x6x196_S128x6x196x1_0_1_2 : (⟨S128x6x196, .f32⟩ : BufTy).Contents (Elt F) → (⟨S128x6x196x1, .f32⟩ : BufTy).Contents (Elt F)),
    unary main_v25 main_v26 (broadcastInDim S128x6x196x196 ![0, 1, 2, 3] bcast_S128x6x196x1_S128x6x196x196_0_1_2_3 : (⟨S128x6x196x1, .f32⟩ : BufTy).Contents (Elt F) → (⟨S128x6x196x196, .f32⟩ : BufTy).Contents (Elt F)),
    binary main_v21 main_v26 main_v27 (subf : (⟨S128x6x196x196, .f32⟩ : BufTy).Contents (Elt F) → (⟨S128x6x196x196, .f32⟩ : BufTy).Contents (Elt F) → (⟨S128x6x196x196, .f32⟩ : BufTy).Contents (Elt F)),
    unary main_v27 main_v28 (Host.exp : (⟨S128x6x196x196, .f32⟩ : BufTy).Contents (Elt F) → (⟨S128x6x196x196, .f32⟩ : BufTy).Contents (Elt F)),
    nullary main_cst_2 (constant S_ .f32 0x00000000#32),
    binary main_v28 main_cst_2 main_v29 ((fun x v => Host.reduceAdd x v reducesTo_S128x6x196x196_S128x6x196_d3 h_S_) : (⟨S128x6x196x196, .f32⟩ : BufTy).Contents (Elt F) → (⟨S_, .f32⟩ : BufTy).Contents (Elt F) → (⟨S128x6x196, .f32⟩ : BufTy).Contents (Elt F)),
    unary main_v29 main_v30 (broadcastInDim S128x6x196x1 ![0, 1, 2] bcast_S128x6x196_S128x6x196x1_0_1_2 : (⟨S128x6x196, .f32⟩ : BufTy).Contents (Elt F) → (⟨S128x6x196x1, .f32⟩ : BufTy).Contents (Elt F)),
    unary main_v30 main_v31 (broadcastInDim S128x6x196x196 ![0, 1, 2, 3] bcast_S128x6x196x1_S128x6x196x196_0_1_2_3 : (⟨S128x6x196x1, .f32⟩ : BufTy).Contents (Elt F) → (⟨S128x6x196x196, .f32⟩ : BufTy).Contents (Elt F)),
    binary main_v28 main_v31 main_v32 (Host.divf : (⟨S128x6x196x196, .f32⟩ : BufTy).Contents (Elt F) → (⟨S128x6x196x196, .f32⟩ : BufTy).Contents (Elt F) → (⟨S128x6x196x196, .f32⟩ : BufTy).Contents (Elt F)),
    binary main_v32 main_v18 main_v33 ((fun l r => Host.dotGeneral dot_S128x6x196x196_S128x6x196x64_S128x6x196x64_3_2_2_3_01_01 none l r) : (⟨S128x6x196x196, .f32⟩ : BufTy).Contents (Elt F) → (⟨S128x6x196x64, .f32⟩ : BufTy).Contents (Elt F) → (⟨S128x6x196x64, .f32⟩ : BufTy).Contents (Elt F)) ]
/-- The re-grouping of the last six heads and the attention over the frames of a position. -/
abbrev P2 : List (HloOp τ sig (Elt F)) :=
  [ reshape main_v11 main_v34 rfl shapeCasts_S8x6x3136x64_S1568x6x16x64,
    reshape main_v13 main_v35 rfl shapeCasts_S8x6x3136x64_S1568x6x16x64,
    reshape main_v15 main_v36 rfl shapeCasts_S8x6x3136x64_S1568x6x16x64,
    binary main_v34 main_v35 main_v37 ((fun l r => Host.dotGeneral dot_S1568x6x16x64_S1568x6x16x64_S1568x6x16x16_3_3_2_2_01_01 none l r) : (⟨S1568x6x16x64, .f32⟩ : BufTy).Contents (Elt F) → (⟨S1568x6x16x64, .f32⟩ : BufTy).Contents (Elt F) → (⟨S1568x6x16x16, .f32⟩ : BufTy).Contents (Elt F)),
    nullary main_cst_3 (constant S_ .f32 0x3E000000#32),
    unary main_cst_3 main_v38 (broadcastInDim S1568x6x16x16 ![] bcast_S_S1568x6x16x16 : (⟨S_, .f32⟩ : BufTy).Contents (Elt F) → (⟨S1568x6x16x16, .f32⟩ : BufTy).Contents (Elt F)),
    binary main_v37 main_v38 main_v39 (mulf : (⟨S1568x6x16x16, .f32⟩ : BufTy).Contents (Elt F) → (⟨S1568x6x16x16, .f32⟩ : BufTy).Contents (Elt F) → (⟨S1568x6x16x16, .f32⟩ : BufTy).Contents (Elt F)),
    nullary main_cst_4 (constant S_ .f32 0xFF800000#32),
    binary main_v39 main_cst_4 main_v40 ((fun x v => Host.reduce FloatOps.maximumf x v reducesTo_S1568x6x16x16_S1568x6x16_d3 h_S_) : (⟨S1568x6x16x16, .f32⟩ : BufTy).Contents (Elt F) → (⟨S_, .f32⟩ : BufTy).Contents (Elt F) → (⟨S1568x6x16, .f32⟩ : BufTy).Contents (Elt F)),
    nullary main_cst_5 (constant S_ .f32 0xFF800000#32),
    unary main_cst_5 main_v41 (broadcastInDim S1568x6x16 ![] bcast_S_S1568x6x16 : (⟨S_, .f32⟩ : BufTy).Contents (Elt F) → (⟨S1568x6x16, .f32⟩ : BufTy).Contents (Elt F)),
    binary main_v41 main_v40 main_v42 (maximumf : (⟨S1568x6x16, .f32⟩ : BufTy).Contents (Elt F) → (⟨S1568x6x16, .f32⟩ : BufTy).Contents (Elt F) → (⟨S1568x6x16, .f32⟩ : BufTy).Contents (Elt F)),
    unary main_v42 main_v43 (broadcastInDim S1568x6x16x1 ![0, 1, 2] bcast_S1568x6x16_S1568x6x16x1_0_1_2 : (⟨S1568x6x16, .f32⟩ : BufTy).Contents (Elt F) → (⟨S1568x6x16x1, .f32⟩ : BufTy).Contents (Elt F)),
    unary main_v43 main_v44 (broadcastInDim S1568x6x16x16 ![0, 1, 2, 3] bcast_S1568x6x16x1_S1568x6x16x16_0_1_2_3 : (⟨S1568x6x16x1, .f32⟩ : BufTy).Contents (Elt F) → (⟨S1568x6x16x16, .f32⟩ : BufTy).Contents (Elt F)),
    binary main_v39 main_v44 main_v45 (subf : (⟨S1568x6x16x16, .f32⟩ : BufTy).Contents (Elt F) → (⟨S1568x6x16x16, .f32⟩ : BufTy).Contents (Elt F) → (⟨S1568x6x16x16, .f32⟩ : BufTy).Contents (Elt F)),
    unary main_v45 main_v46 (Host.exp : (⟨S1568x6x16x16, .f32⟩ : BufTy).Contents (Elt F) → (⟨S1568x6x16x16, .f32⟩ : BufTy).Contents (Elt F)),
    nullary main_cst_6 (constant S_ .f32 0x00000000#32),
    binary main_v46 main_cst_6 main_v47 ((fun x v => Host.reduceAdd x v reducesTo_S1568x6x16x16_S1568x6x16_d3 h_S_) : (⟨S1568x6x16x16, .f32⟩ : BufTy).Contents (Elt F) → (⟨S_, .f32⟩ : BufTy).Contents (Elt F) → (⟨S1568x6x16, .f32⟩ : BufTy).Contents (Elt F)),
    unary main_v47 main_v48 (broadcastInDim S1568x6x16x1 ![0, 1, 2] bcast_S1568x6x16_S1568x6x16x1_0_1_2 : (⟨S1568x6x16, .f32⟩ : BufTy).Contents (Elt F) → (⟨S1568x6x16x1, .f32⟩ : BufTy).Contents (Elt F)),
    unary main_v48 main_v49 (broadcastInDim S1568x6x16x16 ![0, 1, 2, 3] bcast_S1568x6x16x1_S1568x6x16x16_0_1_2_3 : (⟨S1568x6x16x1, .f32⟩ : BufTy).Contents (Elt F) → (⟨S1568x6x16x16, .f32⟩ : BufTy).Contents (Elt F)),
    binary main_v46 main_v49 main_v50 (Host.divf : (⟨S1568x6x16x16, .f32⟩ : BufTy).Contents (Elt F) → (⟨S1568x6x16x16, .f32⟩ : BufTy).Contents (Elt F) → (⟨S1568x6x16x16, .f32⟩ : BufTy).Contents (Elt F)),
    binary main_v50 main_v36 main_v51 ((fun l r => Host.dotGeneral dot_S1568x6x16x16_S1568x6x16x64_S1568x6x16x64_3_2_2_3_01_01 none l r) : (⟨S1568x6x16x16, .f32⟩ : BufTy).Contents (Elt F) → (⟨S1568x6x16x64, .f32⟩ : BufTy).Contents (Elt F) → (⟨S1568x6x16x64, .f32⟩ : BufTy).Contents (Elt F)) ]
/-- The joining of the two results and the output projection. -/
abbrev P3 : List (HloOp τ sig (Elt F)) :=
  [ reshape main_v33 main_v52 rfl shapeCasts_S128x6x196x64_S8x6x3136x64,
    reshape main_v51 main_v53 rfl shapeCasts_S1568x6x16x64_S8x6x3136x64,
    binary main_v52 main_v53 main_v54 ((fun a b => concatenate S8x12x3136x64 1 [⟨S8x6x3136x64, a⟩, ⟨S8x6x3136x64, b⟩] concatenates_S8x6x3136x64_S8x6x3136x64_S8x12x3136x64_d1) : (⟨S8x6x3136x64, .f32⟩ : BufTy).Contents (Elt F) → (⟨S8x6x3136x64, .f32⟩ : BufTy).Contents (Elt F) → (⟨S8x12x3136x64, .f32⟩ : BufTy).Contents (Elt F)),
    unary main_v54 main_v55 ((transpose S8x3136x12x64 [0, 2, 1, 3] · transposes_S8x12x3136x64_S8x3136x12x64_0_2_1_3) : (⟨S8x12x3136x64, .f32⟩ : BufTy).Contents (Elt F) → (⟨S8x3136x12x64, .f32⟩ : BufTy).Contents (Elt F)),
    reshape main_v55 main_v56 rfl shapeCasts_S8x3136x12x64_S8x3136x768,
    binary main_v56 main_arg2 main_v57 ((fun l r => Host.dotGeneral dot_S8x3136x768_S768x768_S8x3136x768_2_1_01_0_n_n none l r) : (⟨S8x3136x768, .f32⟩ : BufTy).Contents (Elt F) → (⟨S768x768, .f32⟩ : BufTy).Contents (Elt F) → (⟨S8x3136x768, .f32⟩ : BufTy).Contents (Elt F)),
    unary main_arg3 main_v58 (broadcastInDim S1x1x768 ![2] bcast_S768_S1x1x768_2 : (⟨S768, .f32⟩ : BufTy).Contents (Elt F) → (⟨S1x1x768, .f32⟩ : BufTy).Contents (Elt F)),
    unary main_v58 main_v59 (broadcastInDim S8x3136x768 ![0, 1, 2] bcast_S1x1x768_S8x3136x768_0_1_2 : (⟨S1x1x768, .f32⟩ : BufTy).Contents (Elt F) → (⟨S8x3136x768, .f32⟩ : BufTy).Contents (Elt F)),
    binary main_v57 main_v59 main_v60 (addf : (⟨S8x3136x768, .f32⟩ : BufTy).Contents (Elt F) → (⟨S8x3136x768, .f32⟩ : BufTy).Contents (Elt F) → (⟨S8x3136x768, .f32⟩ : BufTy).Contents (Elt F)),
    reshape main_v60 main_v61 rfl shapeCasts_S8x3136x768_S8x16x196x768 ]

set_option maxRecDepth 65536 in
theorem ops_eq : (ops (F := F)) = P0 ++ (P1 ++ (P2 ++ P3)) := rfl

/-! ## The attention stretches as functions of their operands -/

/-- The scaled scores. -/
def scS (q k : (⟨S128x6x196x64, .f32⟩ : BufTy).Contents (Elt F)) : (⟨S128x6x196x196, .f32⟩ : BufTy).Contents (Elt F) :=
  mulf (Host.dotGeneral dot_S128x6x196x64_S128x6x196x64_S128x6x196x196_3_3_2_2_01_01 none q k) (broadcastInDim S128x6x196x196 ![] bcast_S_S128x6x196x196 (constant (F := F) S_ .f32 0x3E000000#32))

/-- The exponentials of the scores shifted by their row's maximum. -/
def exS (q k : (⟨S128x6x196x64, .f32⟩ : BufTy).Contents (Elt F)) : (⟨S128x6x196x196, .f32⟩ : BufTy).Contents (Elt F) :=
  Host.exp (subf (scS q k) (broadcastInDim S128x6x196x196 ![0, 1, 2, 3] bcast_S128x6x196x1_S128x6x196x196_0_1_2_3 (broadcastInDim S128x6x196x1 ![0, 1, 2] bcast_S128x6x196_S128x6x196x1_0_1_2 (maximumf (broadcastInDim S128x6x196 ![] bcast_S_S128x6x196 (constant (F := F) S_ .f32 0xFF800000#32)) (Host.reduce FloatOps.maximumf (scS q k) (constant (F := F) S_ .f32 0xFF800000#32) reducesTo_S128x6x196x196_S128x6x196_d3 h_S_)))))

/-- The attention of three operand arrays: weights against values. -/
def attnS (q k v : (⟨S128x6x196x64, .f32⟩ : BufTy).Contents (Elt F)) : (⟨S128x6x196x64, .f32⟩ : BufTy).Contents (Elt F) :=
  Host.dotGeneral dot_S128x6x196x196_S128x6x196x64_S128x6x196x64_3_2_2_3_01_01 none (Host.divf (exS q k) (broadcastInDim S128x6x196x196 ![0, 1, 2, 3] bcast_S128x6x196x1_S128x6x196x196_0_1_2_3 (broadcastInDim S128x6x196x1 ![0, 1, 2] bcast_S128x6x196_S128x6x196x1_0_1_2 (Host.reduceAdd (exS q k) (constant (F := F) S_ .f32 0x00000000#32) reducesTo_S128x6x196x196_S128x6x196_d3 h_S_)))) v

/-- The scaled scores. -/
def scT (q k : (⟨S1568x6x16x64, .f32⟩ : BufTy).Contents (Elt F)) : (⟨S1568x6x16x16, .f32⟩ : BufTy).Contents (Elt F) :=
  mulf (Host.dotGeneral dot_S1568x6x16x64_S1568x6x16x64_S1568x6x16x16_3_3_2_2_01_01 none q k) (broadcastInDim S1568x6x16x16 ![] bcast_S_S1568x6x16x16 (constant (F := F) S_ .f32 0x3E000000#32))

/-- The exponentials of the scores shifted by their row's maximum. -/
def exT (q k : (⟨S1568x6x16x64, .f32⟩ : BufTy).Contents (Elt F)) : (⟨S1568x6x16x16, .f32⟩ : BufTy).Contents (Elt F) :=
  Host.exp (subf (scT q k) (broadcastInDim S1568x6x16x16 ![0, 1, 2, 3] bcast_S1568x6x16x1_S1568x6x16x16_0_1_2_3 (broadcastInDim S1568x6x16x1 ![0, 1, 2] bcast_S1568x6x16_S1568x6x16x1_0_1_2 (maximumf (broadcastInDim S1568x6x16 ![] bcast_S_S1568x6x16 (constant (F := F) S_ .f32 0xFF800000#32)) (Host.reduce FloatOps.maximumf (scT q k) (constant (F := F) S_ .f32 0xFF800000#32) reducesTo_S1568x6x16x16_S1568x6x16_d3 h_S_)))))

/-- The attention of three operand arrays: weights against values. -/
def attnT (q k v : (⟨S1568x6x16x64, .f32⟩ : BufTy).Contents (Elt F)) : (⟨S1568x6x16x64, .f32⟩ : BufTy).Contents (Elt F) :=
  Host.dotGeneral dot_S1568x6x16x16_S1568x6x16x64_S1568x6x16x64_3_2_2_3_01_01 none (Host.divf (exT q k) (broadcastInDim S1568x6x16x16 ![0, 1, 2, 3] bcast_S1568x6x16x1_S1568x6x16x16_0_1_2_3 (broadcastInDim S1568x6x16x1 ![0, 1, 2] bcast_S1568x6x16_S1568x6x16x1_0_1_2 (Host.reduceAdd (exT q k) (constant (F := F) S_ .f32 0x00000000#32) reducesTo_S1568x6x16x16_S1568x6x16_d3 h_S_)))) v

/-- The two attention results re-grouped, joined along the head axis, heads behind the positions, heads merged. -/
def mergeR (a : (⟨S128x6x196x64, .f32⟩ : BufTy).Contents (Elt F)) (b : (⟨S1568x6x16x64, .f32⟩ : BufTy).Contents (Elt F)) :
    (⟨S8x3136x768, .f32⟩ : BufTy).Contents (Elt F) :=
  shapeCast S8x3136x768 (transpose S8x3136x12x64 [0, 2, 1, 3]
    (concatenate S8x12x3136x64 1 [⟨S8x6x3136x64, shapeCast S8x6x3136x64 a shapeCasts_S128x6x196x64_S8x6x3136x64⟩,
        ⟨S8x6x3136x64, shapeCast S8x6x3136x64 b shapeCasts_S1568x6x16x64_S8x6x3136x64⟩]
      concatenates_S8x6x3136x64_S8x6x3136x64_S8x12x3136x64_d1)
    transposes_S8x12x3136x64_S8x3136x12x64_0_2_1_3) shapeCasts_S8x3136x12x64_S8x3136x768

/-- The output projection of a joined array, with its bias, re-grouped into frames. -/
def outR (w : (⟨S8x3136x768, .f32⟩ : BufTy).Contents (Elt F)) (x2 : (⟨S768x768, .f32⟩ : BufTy).Contents (Elt F))
    (x3 : (⟨S768, .f32⟩ : BufTy).Contents (Elt F)) : (⟨S8x16x196x768, .f32⟩ : BufTy).Contents (Elt F) :=
  shapeCast S8x16x196x768 (addf (Host.dotGeneral dot_S8x3136x768_S768x768_S8x3136x768_2_1_01_0_n_n none w x2)
    (broadcastInDim S8x3136x768 ![0, 1, 2] bcast_S1x1x768_S8x3136x768_0_1_2 (broadcastInDim S1x1x768 ![2] bcast_S768_S1x1x768_2 x3)))
    shapeCasts_S8x3136x768_S8x16x196x768

/-! ## The Read module's stages are these functions of earlier stages -/

theorem val33_eq (x0 : (⟨S8x16x196x768, .f32⟩ : BufTy).Contents (Elt F)) (x1 : (⟨S2304x768, .f32⟩ : BufTy).Contents (Elt F)) : val_main_v33 (F := F) x0 x1
    = attnS (val_main_v16 (F := F) x0 x1) (val_main_v17 (F := F) x0 x1) (val_main_v18 (F := F) x0 x1) := rfl

theorem val51_eq (x0 : (⟨S8x16x196x768, .f32⟩ : BufTy).Contents (Elt F)) (x1 : (⟨S2304x768, .f32⟩ : BufTy).Contents (Elt F)) : val_main_v51 (F := F) x0 x1
    = attnT (val_main_v34 (F := F) x0 x1) (val_main_v35 (F := F) x0 x1) (val_main_v36 (F := F) x0 x1) := rfl

theorem val56_eq (x0 : (⟨S8x16x196x768, .f32⟩ : BufTy).Contents (Elt F)) (x1 : (⟨S2304x768, .f32⟩ : BufTy).Contents (Elt F)) : val_main_v56 (F := F) x0 x1
    = mergeR (val_main_v33 (F := F) x0 x1) (val_main_v51 (F := F) x0 x1) := rfl

theorem val61_eq (x0 : (⟨S8x16x196x768, .f32⟩ : BufTy).Contents (Elt F)) (x1 : (⟨S2304x768, .f32⟩ : BufTy).Contents (Elt F)) (x2 : (⟨S768x768, .f32⟩ : BufTy).Contents (Elt F)) (x3 : (⟨S768, .f32⟩ : BufTy).Contents (Elt F)) :
    val_main_v61 (F := F) x0 x1 x2 x3 = outR (val_main_v56 (F := F) x0 x1) x2 x3 := rfl

/-! ## Each stretch, read -/

theorem head_v16 (W : Valuation τ sig (Elt F)) : after P0 W (Proc.devRef .tc main_v16)
    = val_main_v16 (F := F) (W (Proc.devRef .tc main_arg0)) (W (Proc.devRef .tc main_arg1)) := by
  after_results_simp
  rfl
theorem head_v17 (W : Valuation τ sig (Elt F)) : after P0 W (Proc.devRef .tc main_v17)
    = val_main_v17 (F := F) (W (Proc.devRef .tc main_arg0)) (W (Proc.devRef .tc main_arg1)) := by
  after_results_simp
  rfl
theorem head_v18 (W : Valuation τ sig (Elt F)) : after P0 W (Proc.devRef .tc main_v18)
    = val_main_v18 (F := F) (W (Proc.devRef .tc main_arg0)) (W (Proc.devRef .tc main_arg1)) := by
  after_results_simp
  rfl
theorem head_v11 (W : Valuation τ sig (Elt F)) : after P0 W (Proc.devRef .tc main_v11)
    = val_main_v11 (F := F) (W (Proc.devRef .tc main_arg0)) (W (Proc.devRef .tc main_arg1)) := by
  after_results_simp
  rfl
theorem head_v13 (W : Valuation τ sig (Elt F)) : after P0 W (Proc.devRef .tc main_v13)
    = val_main_v13 (F := F) (W (Proc.devRef .tc main_arg0)) (W (Proc.devRef .tc main_arg1)) := by
  after_results_simp
  rfl
theorem head_v15 (W : Valuation τ sig (Elt F)) : after P0 W (Proc.devRef .tc main_v15)
    = val_main_v15 (F := F) (W (Proc.devRef .tc main_arg0)) (W (Proc.devRef .tc main_arg1)) := by
  after_results_simp
  rfl
theorem head_arg2 (W : Valuation τ sig (Elt F)) : after P0 W (Proc.devRef .tc main_arg2) = W (Proc.devRef .tc main_arg2) := by
  after_results_simp
theorem head_arg3 (W : Valuation τ sig (Elt F)) : after P0 W (Proc.devRef .tc main_arg3) = W (Proc.devRef .tc main_arg3) := by
  after_results_simp

theorem spat_v33 (W : Valuation τ sig (Elt F)) : after P1 W (Proc.devRef .tc main_v33)
    = attnS (W (Proc.devRef .tc main_v16)) (W (Proc.devRef .tc main_v17)) (W (Proc.devRef .tc main_v18)) := by
  after_results_simp
  rfl
theorem spat_v11 (W : Valuation τ sig (Elt F)) : after P1 W (Proc.devRef .tc main_v11) = W (Proc.devRef .tc main_v11) := by
  after_results_simp
theorem spat_v13 (W : Valuation τ sig (Elt F)) : after P1 W (Proc.devRef .tc main_v13) = W (Proc.devRef .tc main_v13) := by
  after_results_simp
theorem spat_v15 (W : Valuation τ sig (Elt F)) : after P1 W (Proc.devRef .tc main_v15) = W (Proc.devRef .tc main_v15) := by
  after_results_simp
theorem spat_arg2 (W : Valuation τ sig (Elt F)) : after P1 W (Proc.devRef .tc main_arg2) = W (Proc.devRef .tc main_arg2) := by
  after_results_simp
theorem spat_arg3 (W : Valuation τ sig (Elt F)) : after P1 W (Proc.devRef .tc main_arg3) = W (Proc.devRef .tc main_arg3) := by
  after_results_simp

theorem temp_v51 (W : Valuation τ sig (Elt F)) : after P2 W (Proc.devRef .tc main_v51)
    = attnT (shapeCast S1568x6x16x64 (W (Proc.devRef .tc main_v11)) shapeCasts_S8x6x3136x64_S1568x6x16x64)
        (shapeCast S1568x6x16x64 (W (Proc.devRef .tc main_v13)) shapeCasts_S8x6x3136x64_S1568x6x16x64)
        (shapeCast S1568x6x16x64 (W (Proc.devRef .tc main_v15)) shapeCasts_S8x6x3136x64_S1568x6x16x64) := by
  after_results_simp
  rfl
theorem temp_v33 (W : Valuation τ sig (Elt F)) : after P2 W (Proc.devRef .tc main_v33) = W (Proc.devRef .tc main_v33) := by
  after_results_simp
theorem temp_arg2 (W : Valuation τ sig (Elt F)) : after P2 W (Proc.devRef .tc main_arg2) = W (Proc.devRef .tc main_arg2) := by
  after_results_simp
theorem temp_arg3 (W : Valuation τ sig (Elt F)) : after P2 W (Proc.devRef .tc main_arg3) = W (Proc.devRef .tc main_arg3) := by
  after_results_simp

theorem tail_v61 (W : Valuation τ sig (Elt F)) : after P3 W (Proc.devRef .tc main_v61)
    = outR (mergeR (W (Proc.devRef .tc main_v33)) (W (Proc.devRef .tc main_v51))) (W (Proc.devRef .tc main_arg2)) (W (Proc.devRef .tc main_arg3)) := by
  after_results_simp
  rfl

/-! ## The whole run's result -/

/-- After all 70 operations the result buffer holds the last stage of the contents the run started from. -/
theorem result (W : Valuation τ sig (Elt F)) : after (ops (F := F)) W (Proc.devRef .tc main_v61)
    = val_main_v61 (F := F) (W (Proc.devRef .tc main_arg0)) (W (Proc.devRef .tc main_arg1)) (W (Proc.devRef .tc main_arg2)) (W (Proc.devRef .tc main_arg3)) := by
  rw [ops_eq, after_append, after_append, after_append, tail_v61, val61_eq, val56_eq]
  -- what the last stretch reads, walked back to the stretch that wrote it
  rw [temp_v33, temp_arg2, temp_arg3, spat_arg2, spat_arg3, head_arg2, head_arg3]
  rw [spat_v33, head_v16, head_v17, head_v18, ← val33_eq]
  rw [temp_v51, spat_v11, spat_v13, spat_v15, head_v11, head_v13, head_v15, val51_eq]
  rfl

/-! ## The run -/

set_option maxRecDepth 65536 in
set_option maxHeartbeats 28000000 in
/-- Every weakly fair execution of the reference terminates with the result buffer at the last stage of the arguments'
    launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61)
          = val_main_v61 (F := Ideal) (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v61).trans (result (F := Ideal) (launchContents m c)),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.Stages

end
-- ==== Proof.KernelRun.lean ====
/-
  The kernel program's run with its result named. Every weakly fair execution of the four-launch program ends, without a
  fault, with each buffer at the last of the boundary contents: the launch memory carried through the host operations
  before the first launch, each launch's write-backs, and the host operations between and after the launches. The
  result buffer is read there, and the four argument buffers are read back through the same chain to the launch memory.
-/
import proofs.«178978_j19473381720281_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v34) = W9 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v34 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c)⟩)

end Cert.KernelIdeal.RunValue

end
-- ==== Proof.HostSide.lean ====
/-
  The host operations between the launches, read once. The kernel program re-lays its arrays with the same operations
  the reference uses: a 25088 × 768 projection is cut into 12 heads of 64 and the head axis moved in front of the
  3136 positions (`toHeads`); the first six heads are regrouped row-major into 128 × 6 × 196 × 64 (`lowS`), the last
  six into 1568 × 6 × 16 × 64 (`highT`); the two attention results are regrouped back, joined along the head axis and
  the head axis moved behind the positions again (`merge`). Each buffer a launch reads is such a chain applied to
  what an earlier launch left, and the result buffer is a regrouping of what the last launch left.
-/
import proofs.«178978_j19473381720281_2_alg».proof.Proof.Gen.KernelIdeal.Frame
import Idealize.ShloMosaic.Lib.StableHlo.Run
import Idealize.ShloMosaic.PureOps.Ideal

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo

/-! ## The layout chains -/

/-- Heads in front: (b·3136 + n, h·64 + d) ↦ (b, h, n, d). -/
def toHeads {α : Type} (x : S25088x768.Idx → α) : S8x12x3136x64.Idx → α :=
  transpose S8x12x3136x64 [0, 2, 1, 3] (shapeCast S8x3136x12x64 x shapeCasts_S25088x768_S8x3136x12x64)
    transposes_S8x3136x12x64_S8x12x3136x64_0_2_1_3

/-- The first six heads, regrouped row-major into 128 × 6 × 196 × 64. -/
def lowS {α : Type} (y : S8x12x3136x64.Idx → α) : S128x6x196x64.Idx → α :=
  shapeCast S128x6x196x64 (extractStridedSlice S8x6x3136x64 ![0, 0, 0, 0] y slices_S8x12x3136x64_S8x6x3136x64_0_0_0_0)
    shapeCasts_S8x6x3136x64_S128x6x196x64

/-- The last six heads, regrouped row-major into 1568 × 6 × 16 × 64. -/
def highT {α : Type} (y : S8x12x3136x64.Idx → α) : S1568x6x16x64.Idx → α :=
  shapeCast S1568x6x16x64 (extractStridedSlice S8x6x3136x64 ![0, 6, 0, 0] y slices_S8x12x3136x64_S8x6x3136x64_0_6_0_0)
    shapeCasts_S8x6x3136x64_S1568x6x16x64

/-- The two attention results regrouped, joined along the head axis, heads behind the positions, heads merged. -/
def merge {α : Type} (a : S128x6x196x64.Idx → α) (b : S1568x6x16x64.Idx → α) : S8x3136x768.Idx → α :=
  shapeCast S8x3136x768 (transpose S8x3136x12x64 [0, 2, 1, 3]
    (concatenate S8x12x3136x64 1 [⟨S8x6x3136x64, shapeCast S8x6x3136x64 a shapeCasts_S128x6x196x64_S8x6x3136x64⟩,
        ⟨S8x6x3136x64, shapeCast S8x6x3136x64 b shapeCasts_S1568x6x16x64_S8x6x3136x64⟩]
      concatenates_S8x6x3136x64_S8x6x3136x64_S8x12x3136x64_d1)
    transposes_S8x12x3136x64_S8x3136x12x64_0_2_1_3) shapeCasts_S8x3136x12x64_S8x3136x768

variable (m : (ℓ : Loc nD τ sig) → Buf (Elt Ideal) ℓ) (ρ : Dev nD → PrngReg)

/-! ## Before the first launch -/

theorem in_v0 (c : Dev nD) : (V1 m ρ c main_v0 : S25088x768.Idx → EReal)
    = shapeCast S25088x768 (m ((c : Thread nD τ).loc main_arg0)) shapeCasts_S8x16x196x768_S25088x768 := by
  dsimp only [V1, W1, hostOps0]
  after_results
  rfl

theorem in_v2 (c : Dev nD) : (V1 m ρ c main_v2 : S768x2304.Idx → EReal)
    = transpose S768x2304 [1, 0] (m ((c : Thread nD τ).loc main_arg1)) transposes_S2304x768_S768x2304_1_0 := by
  dsimp only [V1, W1, hostOps0]
  after_results
  rfl

/-! ## Between the first and the second launch, and the third's operands -/

theorem in_v16 (c : Dev nD) : (V3 m ρ c main_v16 : S128x6x196x64.Idx → EReal)
    = lowS (toHeads (W2 m ρ c (Proc.devRef .tc main_v3_0) : S25088x768.Idx → EReal)) := by
  dsimp only [V3, W3, hostOps1]
  after_results
  rfl

theorem in_v17 (c : Dev nD) : (V3 m ρ c main_v17 : S128x6x196x64.Idx → EReal)
    = lowS (toHeads (W2 m ρ c (Proc.devRef .tc main_v3_1) : S25088x768.Idx → EReal)) := by
  dsimp only [V3, W3, hostOps1]
  after_results
  rfl

theorem in_v18 (c : Dev nD) : (V3 m ρ c main_v18 : S128x6x196x64.Idx → EReal)
    = lowS (toHeads (W2 m ρ c (Proc.devRef .tc main_v3_2) : S25088x768.Idx → EReal)) := by
  dsimp only [V3, W3, hostOps1]
  after_results
  rfl

theorem in_v20 (c : Dev nD) : (V5 m ρ c main_v20 : S1568x6x16x64.Idx → EReal)
    = highT (toHeads (W2 m ρ c (Proc.devRef .tc main_v3_0) : S25088x768.Idx → EReal)) := by
  have e1 : (V5 m ρ c main_v20 : S1568x6x16x64.Idx → EReal)
      = shapeCast S1568x6x16x64 (W4 m ρ c (Proc.devRef .tc main_v11) : S8x6x3136x64.Idx → EReal) shapeCasts_S8x6x3136x64_S1568x6x16x64 := by
    dsimp only [V5, W5, hostOps2]
    after_results
    rfl
  have e2 : W4 m ρ c (Proc.devRef .tc main_v11) = W3 m ρ c (Proc.devRef .tc main_v11) := W4_of_ne m ρ c main_v11 (by decide)
  have e3 : (W3 m ρ c (Proc.devRef .tc main_v11) : S8x6x3136x64.Idx → EReal)
      = extractStridedSlice S8x6x3136x64 ![0, 6, 0, 0] (toHeads (W2 m ρ c (Proc.devRef .tc main_v3_0) : S25088x768.Idx → EReal)) slices_S8x12x3136x64_S8x6x3136x64_0_6_0_0 := by
    dsimp only [W3, hostOps1]
    after_results
    rfl
  rw [e1, e2, e3]
  rfl

theorem in_v21 (c : Dev nD) : (V5 m ρ c main_v21 : S1568x6x16x64.Idx → EReal)
    = highT (toHeads (W2 m ρ c (Proc.devRef .tc main_v3_1) : S25088x768.Idx → EReal)) := by
  have e1 : (V5 m ρ c main_v21 : S1568x6x16x64.Idx → EReal)
      = shapeCast S1568x6x16x64 (W4 m ρ c (Proc.devRef .tc main_v13) : S8x6x3136x64.Idx → EReal) shapeCasts_S8x6x3136x64_S1568x6x16x64 := by
    dsimp only [V5, W5, hostOps2]
    after_results
    rfl
  have e2 : W4 m ρ c (Proc.devRef .tc main_v13) = W3 m ρ c (Proc.devRef .tc main_v13) := W4_of_ne m ρ c main_v13 (by decide)
  have e3 : (W3 m ρ c (Proc.devRef .tc main_v13) : S8x6x3136x64.Idx → EReal)
      = extractStridedSlice S8x6x3136x64 ![0, 6, 0, 0] (toHeads (W2 m ρ c (Proc.devRef .tc main_v3_1) : S25088x768.Idx → EReal)) slices_S8x12x3136x64_S8x6x3136x64_0_6_0_0 := by
    dsimp only [W3, hostOps1]
    after_results
    rfl
  rw [e1, e2, e3]
  rfl

theorem in_v22 (c : Dev nD) : (V5 m ρ c main_v22 : S1568x6x16x64.Idx → EReal)
    = highT (toHeads (W2 m ρ c (Proc.devRef .tc main_v3_2) : S25088x768.Idx → EReal)) := by
  have e1 : (V5 m ρ c main_v22 : S1568x6x16x64.Idx → EReal)
      = shapeCast S1568x6x16x64 (W4 m ρ c (Proc.devRef .tc main_v15) : S8x6x3136x64.Idx → EReal) shapeCasts_S8x6x3136x64_S1568x6x16x64 := by
    dsimp only [V5, W5, hostOps2]
    after_results
    rfl
  have e2 : W4 m ρ c (Proc.devRef .tc main_v15) = W3 m ρ c (Proc.devRef .tc main_v15) := W4_of_ne m ρ c main_v15 (by decide)
  have e3 : (W3 m ρ c (Proc.devRef .tc main_v15) : S8x6x3136x64.Idx → EReal)
      = extractStridedSlice S8x6x3136x64 ![0, 6, 0, 0] (toHeads (W2 m ρ c (Proc.devRef .tc main_v3_2) : S25088x768.Idx → EReal)) slices_S8x12x3136x64_S8x6x3136x64_0_6_0_0 := by
    dsimp only [W3, hostOps1]
    after_results
    rfl
  rw [e1, e2, e3]
  rfl

/-! ## Before the last launch -/

theorem in_v29 (c : Dev nD) : (V7 m ρ c main_v29 : S25088x768.Idx → EReal)
    = shapeCast S25088x768 (merge (W4 m ρ c (Proc.devRef .tc main_v19) : S128x6x196x64.Idx → EReal)
        (W6 m ρ c (Proc.devRef .tc main_v23) : S1568x6x16x64.Idx → EReal)) shapeCasts_S8x3136x768_S25088x768 := by
  have e1 : (V7 m ρ c main_v29 : S25088x768.Idx → EReal)
      = shapeCast S25088x768 (merge (W6 m ρ c (Proc.devRef .tc main_v19) : S128x6x196x64.Idx → EReal)
          (W6 m ρ c (Proc.devRef .tc main_v23) : S1568x6x16x64.Idx → EReal)) shapeCasts_S8x3136x768_S25088x768 := by
    dsimp only [V7, W7, hostOps3]
    after_results
    rfl
  have e2 : W6 m ρ c (Proc.devRef .tc main_v19) = W5 m ρ c (Proc.devRef .tc main_v19) := W6_of_ne m ρ c main_v19 (by decide)
  have e3 : W5 m ρ c (Proc.devRef .tc main_v19) = W4 m ρ c (Proc.devRef .tc main_v19) := by
    dsimp only [W5, hostOps2]
    after_results
  rw [e1, e2, e3]

/-- The two arguments the last launch's operands are made from are still as launched. -/
theorem w6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := by dsimp only [W5, hostOps2]; after_results
    _ = W3 m ρ c (Proc.devRef .tc main_arg2) := W4_of_ne m ρ c main_arg2 (by decide)
    _ = W2 m ρ c (Proc.devRef .tc main_arg2) := by dsimp only [W3, hostOps1]; after_results
    _ = W1 m ρ c (Proc.devRef .tc main_arg2) := W2_of_ne m ρ c main_arg2 (by decide)
    _ = W0 m ρ c (Proc.devRef .tc main_arg2) := by dsimp only [W1, hostOps0]; after_results
    _ = m ((c : Thread nD τ).loc main_arg2) := rfl

theorem w6_arg3 (c : Dev nD) : W6 m ρ c (Proc.devRef .tc main_arg3) = m ((c : Thread nD τ).loc main_arg3) :=
  calc W6 m ρ c (Proc.devRef .tc main_arg3)
    _ = W5 m ρ c (Proc.devRef .tc main_arg3) := W6_of_ne m ρ c main_arg3 (by decide)
    _ = W4 m ρ c (Proc.devRef .tc main_arg3) := by dsimp only [W5, hostOps2]; after_results
    _ = W3 m ρ c (Proc.devRef .tc main_arg3) := W4_of_ne m ρ c main_arg3 (by decide)
    _ = W2 m ρ c (Proc.devRef .tc main_arg3) := by dsimp only [W3, hostOps1]; after_results
    _ = W1 m ρ c (Proc.devRef .tc main_arg3) := W2_of_ne m ρ c main_arg3 (by decide)
    _ = W0 m ρ c (Proc.devRef .tc main_arg3) := by dsimp only [W1, hostOps0]; after_results
    _ = m ((c : Thread nD τ).loc main_arg3) := rfl

theorem in_v31 (c : Dev nD) : (V7 m ρ c main_v31 : S768x768.Idx → EReal)
    = transpose S768x768 [1, 0] (m ((c : Thread nD τ).loc main_arg2)) transposes_S768x768_S768x768_1_0 := by
  have e1 : (V7 m ρ c main_v31 : S768x768.Idx → EReal)
      = transpose S768x768 [1, 0] (W6 m ρ c (Proc.devRef .tc main_arg2) : S768x768.Idx → EReal) transposes_S768x768_S768x768_1_0 := by
    dsimp only [V7, W7, hostOps3]
    after_results
    rfl
  rw [e1, w6_arg2]

theorem in_v32 (c : Dev nD) : (V7 m ρ c main_v32 : S1x768.Idx → EReal)
    = shapeCast S1x768 (m ((c : Thread nD τ).loc main_arg3)) shapeCasts_S768_S1x768 := by
  have e1 : (V7 m ρ c main_v32 : S1x768.Idx → EReal)
      = shapeCast S1x768 (W6 m ρ c (Proc.devRef .tc main_arg3) : S768.Idx → EReal) shapeCasts_S768_S1x768 := by
    dsimp only [V7, W7, hostOps3]
    after_results
    rfl
  rw [e1, w6_arg3]

/-! ## After the last launch -/

theorem out_v34 (c : Dev nD) : (W9 m ρ c (Proc.devRef .tc main_v34) : S8x16x196x768.Idx → EReal)
    = shapeCast S8x16x196x768 (W8 m ρ c (Proc.devRef .tc main_v33) : S25088x768.Idx → EReal) shapeCasts_S25088x768_S8x16x196x768 := by
  dsimp only [W9, hostOps4]
  after_results
  rfl

end Cert.KernelIdeal.HostSide

end
-- ==== Proof.LibPlainMatmul.lean ====
/-
  A plain matrix product `M × K` by `K × N` (the left operand contracted on its last axis, the right on its first, no
  batch axis) accumulated into the zero splat, read at coordinates at the ideal values: entry (p, q) of the product is
  `∑ k, lhs (p, k) · rhs (k, q)` over the `K` positions of the contracted axis, a sum indexed by `Fin K`. Nothing of
  real arithmetic is used beyond `0 + x = x`, so it holds at the infinities too.
-/
import Idealize.ShloMosaic.Lib.ValueIdx
import Idealize.ShloMosaic.PureOps.Ideal.Laws

namespace Cert.PlainMatmul

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- The left operand is read at (row of the result, contraction position). -/
theorem lhsIdx_plain (M K N : ℕ) (p : Fin M) (q : Fin N) (k : Fin K) :
    (DotDims.plain M K N).lhsIdx (ix2 p q) ((contrFin M K N).symm k) = ix2 p k := by
  funext a
  apply Fin.ext
  match a with
  | ⟨0, _⟩ => rfl
  | ⟨1, _⟩ => exact contrEquiv1_symm_val (DotDims.plain M K N) K rfl rfl k

/-- The right operand is read at (contraction position, column of the result). -/
theorem rhsIdx_plain (M K N : ℕ) (p : Fin M) (q : Fin N) (k : Fin K) :
    (DotDims.plain M K N).rhsIdx (ix2 p q) ((contrFin M K N).symm k) = ix2 k q := by
  funext a
  apply Fin.ext
  match a with
  | ⟨0, _⟩ => exact contrEquiv1_symm_val (DotDims.plain M K N) K rfl rfl k
  | ⟨1, _⟩ => rfl

/-- Entry (p, q) of a plain product into the zero splat is the sum over the contracted axis of the operands' products. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrFin M K N).symm]
  exact Finset.sum_congr rfl fun k _ => by rw [lhsIdx_plain, rhsIdx_plain]

end Cert.PlainMatmul
-- ==== Proof.Gemm0.lean ====
/-
  The projection launch as functions of its two operand arrays. The grid walks the 25088 rows in steps of 512; point `t`
  multiplies rows 512·t … 512·t + 511 of the left array by the whole right array (768 × 2304) into a zero accumulator
  and stores the product's three column ranges 0 … 767, 768 … 1535 and 1536 … 2303 into the same rows of its three
  results. So entry (i, e) of result j is ∑_k A (i, k) · B (k, 768·j + e), whichever point wrote it.
-/
import proofs.«178978_j19473381720281_2_alg».proof.Proof.Gen.KernelIdeal.Frame
import proofs.«178978_j19473381720281_2_alg».proof.Proof.LibPlainMatmul
import Idealize.ShloMosaic.Lib.ValueIdx
import Idealize.ShloMosaic.Lib.Pipeline.Value
import Idealize.ShloMosaic.PureOps.Ideal.Laws

set_option maxRecDepth 16384

noncomputable section

namespace Cert.KernelIdeal.Gemm0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem hN : cfg0.N = 49 := N_0

/-- Row `p` of point `t`'s block, in the array. -/
abbrev row (t : Fin cfg0.N) (p : Fin 512) : Fin 25088 :=
  ⟨512 * t.val + p.val, by have := lt_of_lt_of_eq t.isLt hN; have := p.isLt; omega⟩

/-- Column `off + e` of the 2304 columns of the product. -/
abbrev col (off : ℕ) (h : off + 768 ≤ 2304) (e : Fin 768) : Fin 2304 := ⟨off + e.val, by have := e.isLt; omega⟩

/-! ## The product of a block -/

/-- The product of the loaded blocks at (p, e): the sum over the 768 contracted positions. -/
theorem prod_apply (x0 : FVec Ideal S512x768 .f32) (x1 : FVec Ideal S768x2304 .bf16) (p : Fin 512) (e : Fin 2304) :
    (k0_pay1 (F := Ideal) x0 x1 : S512x2304.Idx → EReal) (ix2 p e) = ∑ k : Fin 768, x0 (ix2 p k) * x1 (ix2 k e) := by
  unfold k0_pay1
  refine (truncf_apply (s := S512x2304) (φ := .f32) (ψ := .bf16) _ bitsLt_bf16_f32 (ix2 p e)).trans ?_
  refine (Cert.PlainMatmul.matmul_zero_apply 512 768 2304 none _ _ p e).trans ?_
  exact Finset.sum_congr rfl fun k _ => by rw [shapeCast_self, shapeCast_self]; rfl

/-! ## The index maps over the grid, and the operand blocks -/

theorem idx_rows_0 : ∀ t : Fin cfg0.N, win0_0.index t 0 = t.val ∧ win0_0.index t 1 = 0 :=
  (by decide +kernel : ∀ t : Fin grid0.N, _)
theorem idx_rows_2 : ∀ t : Fin cfg0.N, win0_2.index t 0 = t.val ∧ win0_2.index t 1 = 0 :=
  (by decide +kernel : ∀ t : Fin grid0.N, _)
theorem idx_rows_3 : ∀ t : Fin cfg0.N, win0_3.index t 0 = t.val ∧ win0_3.index t 1 = 0 :=
  (by decide +kernel : ∀ t : Fin grid0.N, _)
theorem idx_rows_4 : ∀ t : Fin cfg0.N, win0_4.index t 0 = t.val ∧ win0_4.index t 1 = 0 :=
  (by decide +kernel : ∀ t : Fin grid0.N, _)
theorem idx_zero_1 : ∀ t : Fin cfg0.N, win0_1.index t 0 = 0 ∧ win0_1.index t 1 = 0 :=
  (by decide +kernel : ∀ t : Fin grid0.N, _)

/-- Window 0's block at point `t` is rows 512·t … 512·t + 511 of its array. -/
theorem blockA (c : Dev nD) (t : Fin cfg0.N) (p : Fin 512) (k : Fin 768) :
    (iblk0 V c 0 t : FVec Ideal S512x768 .f32) (ix2 p k) = (V c main_v0 : S25088x768.Idx → EReal) (ix2 (row t p) k) := by
  obtain ⟨e0, e1⟩ := idx_rows_0 t
  unfold iblk0
  rw [View.read_apply]
  show V c main_v0 _ = V c main_v0 _
  refine congrArg (V c main_v0) (funext fun a => Fin.ext ?_)
  match a with
  | ⟨0, _⟩ => show win0_0.index t 0 * 512 + 1 * p.val = 512 * t.val + p.val; rw [e0]; omega
  | ⟨1, _⟩ => show win0_0.index t 1 * 768 + 1 * k.val = k.val; rw [e1]; omega

/-- Window 1's block at every point is its whole array. -/
theorem blockB (c : Dev nD) (t : Fin cfg0.N) (a : Fin 768) (b : Fin 2304) :
    (iblk0 V c 1 t : FVec Ideal S768x2304 .bf16) (ix2 a b) = (V c main_v2 : S768x2304.Idx → EReal) (ix2 a b) := by
  obtain ⟨e0, e1⟩ := idx_zero_1 t
  unfold iblk0
  rw [View.read_apply]
  show V c main_v2 _ = V c main_v2 _
  refine congrArg (V c main_v2) (funext fun x => Fin.ext ?_)
  match x with
  | ⟨0, _⟩ => show win0_1.index t 0 * 768 + 1 * a.val = a.val; rw [e0]; omega
  | ⟨1, _⟩ => show win0_1.index t 1 * 2304 + 1 * b.val = b.val; rw [e1]; omega

/-! ## Output window 2: columns 0 … 767 of the product -/

/-- The stored block: the product's columns 0 … 767. -/
theorem pay2_apply (x0 : FVec Ideal S512x768 .f32) (x1 : FVec Ideal S768x2304 .bf16) (p : Fin 512) (e : Fin 768) :
    (k0_pay2 (F := Ideal) x0 x1 : S512x768.Idx → EReal) (ix2 p e) = ∑ k : Fin 768, x0 (ix2 p k) * x1 (ix2 k (col 0 (by decide) e)) := by
  unfold k0_pay2
  refine (extractStridedSlice_apply _ _ slices_S512x2304_o0_0_S512x768 (ix2 p e) (ix2 p (col 0 (by decide) e)) fun a => ?_).trans (prod_apply x0 x1 p _)
  match a with
  | ⟨0, _⟩ => show p.val = 0 + p.val; omega
  | ⟨1, _⟩ => show 0 + e.val = 0 + e.val; rfl

/-- The whole result of window 2: entry (i, e) is ∑_k A (i, k) · B (k, 0 + e). -/
def whole2 (A : S25088x768.Idx → EReal) (B : S768x2304.Idx → EReal) : S25088x768.Idx → EReal := fun i =>
  ∑ k : Fin 768, A (ix2 (⟨(i 0).val, (i 0).isLt⟩ : Fin 25088) k) * B (ix2 k (col 0 (by decide) (⟨(i 1).val, (i 1).isLt⟩ : Fin 768)))

theorem flushed_eq_2 (c : Dev nD) (t : Fin cfg0.N) :
    (dat0 (F := Ideal) V c).flushed 2 t = ((cfg0.win 2).blk t).view.read (Elt Ideal) (whole2 (V c main_v0) (V c main_v2)) := by
  show (cfg0.win 2).cut (grid0.coords t) ((dat0 (F := Ideal) V c).after 2 t) = _
  rw [after0_2]
  unfold out0_2
  rw [View.canon_unit_zero hz]
  simp only [View.ld_unit_zero (S := S512x768) hz, View.ld_unit_zero (S := S768x2304) hz]
  obtain ⟨e0, e1⟩ := idx_rows_2 t
  funext y
  show k0_pay2 (iblk0 V c 0 t) (iblk0 V c 1 t) y = whole2 (V c main_v0) (V c main_v2) (((cfg0.win 2).blk t).view.emb y)
  obtain ⟨p, e, rfl⟩ : ∃ (p : Fin 512) (e : Fin 768), y = ix2 p e := ⟨y 0, y 1, eq_ix2 y⟩
  refine (pay2_apply (iblk0 V c 0 t) (iblk0 V c 1 t) p e).trans ?_
  have hemb : ((cfg0.win 2).blk t).view.emb (ix2 p e) = (ix2 (row t p) e : S25088x768.Idx) := funext fun a => Fin.ext (by
    match a with
    | ⟨0, _⟩ => show win0_2.index t 0 * 512 + 1 * p.val = 512 * t.val + p.val; rw [e0]; omega
    | ⟨1, _⟩ => show win0_2.index t 1 * 768 + 1 * e.val = e.val; rw [e1]; omega)
  rw [hemb]
  unfold whole2
  exact Finset.sum_congr rfl fun k _ => by rw [blockA V c t p k, blockB V c t k _]

/-- Point `t` writes back block `t` (rows 512·t … 512·t + 511) of the whole result of window 2. -/
theorem mem_blk_2 (t : Fin cfg0.N) (i : S25088x768.Idx) :
    i ∈ ((cfg0.win 2).blk t).view.set ↔ ∀ a : Fin 2, win0_2.index t a * S512x768.size a ≤ (i a).val ∧ (i a).val < win0_2.index t a * S512x768.size a + S512x768.size a := by
  show i ∈ ((View.whole main_v3_0).slice (win0_2.rect t)).set ↔ _
  rw [View.set_slice_whole, Rect.mem_set_unit]
  exact Iff.rfl

theorem cover_2 (i : S25088x768.Idx) : ∃ t : Fin cfg0.N, (cfg0.win 2).flush t = true ∧ i ∈ ((cfg0.win 2).blk t).view.set := by
  have hi0 : (i 0).val < 25088 := (i 0).isLt
  have hi1 : (i 1).val < 768 := (i 1).isLt
  have ht : (i 0).val / 512 < cfg0.N := by rw [hN]; omega
  obtain ⟨e0, e1⟩ := idx_rows_2 ⟨(i 0).val / 512, ht⟩
  refine ⟨⟨(i 0).val / 512, ht⟩, flush0_2 _, ?_⟩
  rw [mem_blk_2]
  intro a
  match a with
  | ⟨0, _⟩ =>
    show win0_2.index ⟨(i 0).val / 512, ht⟩ 0 * 512 ≤ (i 0).val ∧ (i 0).val < win0_2.index ⟨(i 0).val / 512, ht⟩ 0 * 512 + 512
    rw [e0]; show (i 0).val / 512 * 512 ≤ (i 0).val ∧ (i 0).val < (i 0).val / 512 * 512 + 512; omega
  | ⟨1, _⟩ =>
    show win0_2.index ⟨(i 0).val / 512, ht⟩ 1 * 768 ≤ (i 1).val ∧ (i 1).val < win0_2.index ⟨(i 0).val / 512, ht⟩ 1 * 768 + 768
    rw [e1]; omega

/-- After the launch the array of window 2 holds its whole result. -/
theorem final2 (c : Dev nD) : (dat0 (F := Ideal) V c).arrAt 2 cfg0.N = whole2 (V c main_v0) (V c main_v2) :=
  (dat0 (F := Ideal) V c).arrAt_eq_of_cover 2 (whole2 (V c main_v0) (V c main_v2)) (fun t _ => flushed_eq_2 V c t) cover_2

/-! ## Output window 3: columns 768 … 1535 of the product -/

/-- The stored block: the product's columns 768 … 1535. -/
theorem pay3_apply (x0 : FVec Ideal S512x768 .f32) (x1 : FVec Ideal S768x2304 .bf16) (p : Fin 512) (e : Fin 768) :
    (k0_pay3 (F := Ideal) x0 x1 : S512x768.Idx → EReal) (ix2 p e) = ∑ k : Fin 768, x0 (ix2 p k) * x1 (ix2 k (col 768 (by decide) e)) := by
  unfold k0_pay3
  refine (extractStridedSlice_apply _ _ slices_S512x2304_o0_768_S512x768 (ix2 p e) (ix2 p (col 768 (by decide) e)) fun a => ?_).trans (prod_apply x0 x1 p _)
  match a with
  | ⟨0, _⟩ => show p.val = 0 + p.val; omega
  | ⟨1, _⟩ => show 768 + e.val = 768 + e.val; rfl

/-- The whole result of window 3: entry (i, e) is ∑_k A (i, k) · B (k, 768 + e). -/
def whole3 (A : S25088x768.Idx → EReal) (B : S768x2304.Idx → EReal) : S25088x768.Idx → EReal := fun i =>
  ∑ k : Fin 768, A (ix2 (⟨(i 0).val, (i 0).isLt⟩ : Fin 25088) k) * B (ix2 k (col 768 (by decide) (⟨(i 1).val, (i 1).isLt⟩ : Fin 768)))

theorem flushed_eq_3 (c : Dev nD) (t : Fin cfg0.N) :
    (dat0 (F := Ideal) V c).flushed 3 t = ((cfg0.win 3).blk t).view.read (Elt Ideal) (whole3 (V c main_v0) (V c main_v2)) := by
  show (cfg0.win 3).cut (grid0.coords t) ((dat0 (F := Ideal) V c).after 3 t) = _
  rw [after0_3]
  unfold out0_3
  rw [View.canon_unit_zero hz]
  simp only [View.ld_unit_zero (S := S512x768) hz, View.ld_unit_zero (S := S768x2304) hz]
  obtain ⟨e0, e1⟩ := idx_rows_3 t
  funext y
  show k0_pay3 (iblk0 V c 0 t) (iblk0 V c 1 t) y = whole3 (V c main_v0) (V c main_v2) (((cfg0.win 3).blk t).view.emb y)
  obtain ⟨p, e, rfl⟩ : ∃ (p : Fin 512) (e : Fin 768), y = ix2 p e := ⟨y 0, y 1, eq_ix2 y⟩
  refine (pay3_apply (iblk0 V c 0 t) (iblk0 V c 1 t) p e).trans ?_
  have hemb : ((cfg0.win 3).blk t).view.emb (ix2 p e) = (ix2 (row t p) e : S25088x768.Idx) := funext fun a => Fin.ext (by
    match a with
    | ⟨0, _⟩ => show win0_3.index t 0 * 512 + 1 * p.val = 512 * t.val + p.val; rw [e0]; omega
    | ⟨1, _⟩ => show win0_3.index t 1 * 768 + 1 * e.val = e.val; rw [e1]; omega)
  rw [hemb]
  unfold whole3
  exact Finset.sum_congr rfl fun k _ => by rw [blockA V c t p k, blockB V c t k _]

/-- Point `t` writes back block `t` (rows 512·t … 512·t + 511) of the whole result of window 3. -/
theorem mem_blk_3 (t : Fin cfg0.N) (i : S25088x768.Idx) :
    i ∈ ((cfg0.win 3).blk t).view.set ↔ ∀ a : Fin 2, win0_3.index t a * S512x768.size a ≤ (i a).val ∧ (i a).val < win0_3.index t a * S512x768.size a + S512x768.size a := by
  show i ∈ ((View.whole main_v3_1).slice (win0_3.rect t)).set ↔ _
  rw [View.set_slice_whole, Rect.mem_set_unit]
  exact Iff.rfl

theorem cover_3 (i : S25088x768.Idx) : ∃ t : Fin cfg0.N, (cfg0.win 3).flush t = true ∧ i ∈ ((cfg0.win 3).blk t).view.set := by
  have hi0 : (i 0).val < 25088 := (i 0).isLt
  have hi1 : (i 1).val < 768 := (i 1).isLt
  have ht : (i 0).val / 512 < cfg0.N := by rw [hN]; omega
  obtain ⟨e0, e1⟩ := idx_rows_3 ⟨(i 0).val / 512, ht⟩
  refine ⟨⟨(i 0).val / 512, ht⟩, flush0_3 _, ?_⟩
  rw [mem_blk_3]
  intro a
  match a with
  | ⟨0, _⟩ =>
    show win0_3.index ⟨(i 0).val / 512, ht⟩ 0 * 512 ≤ (i 0).val ∧ (i 0).val < win0_3.index ⟨(i 0).val / 512, ht⟩ 0 * 512 + 512
    rw [e0]; show (i 0).val / 512 * 512 ≤ (i 0).val ∧ (i 0).val < (i 0).val / 512 * 512 + 512; omega
  | ⟨1, _⟩ =>
    show win0_3.index ⟨(i 0).val / 512, ht⟩ 1 * 768 ≤ (i 1).val ∧ (i 1).val < win0_3.index ⟨(i 0).val / 512, ht⟩ 1 * 768 + 768
    rw [e1]; omega

/-- After the launch the array of window 3 holds its whole result. -/
theorem final3 (c : Dev nD) : (dat0 (F := Ideal) V c).arrAt 3 cfg0.N = whole3 (V c main_v0) (V c main_v2) :=
  (dat0 (F := Ideal) V c).arrAt_eq_of_cover 3 (whole3 (V c main_v0) (V c main_v2)) (fun t _ => flushed_eq_3 V c t) cover_3

/-! ## Output window 4: columns 1536 … 2303 of the product -/

/-- The stored block: the product's columns 1536 … 2303. -/
theorem pay4_apply (x0 : FVec Ideal S512x768 .f32) (x1 : FVec Ideal S768x2304 .bf16) (p : Fin 512) (e : Fin 768) :
    (k0_pay4 (F := Ideal) x0 x1 : S512x768.Idx → EReal) (ix2 p e) = ∑ k : Fin 768, x0 (ix2 p k) * x1 (ix2 k (col 1536 (by decide) e)) := by
  unfold k0_pay4
  refine (extractStridedSlice_apply _ _ slices_S512x2304_o0_1536_S512x768 (ix2 p e) (ix2 p (col 1536 (by decide) e)) fun a => ?_).trans (prod_apply x0 x1 p _)
  match a with
  | ⟨0, _⟩ => show p.val = 0 + p.val; omega
  | ⟨1, _⟩ => show 1536 + e.val = 1536 + e.val; rfl

/-- The whole result of window 4: entry (i, e) is ∑_k A (i, k) · B (k, 1536 + e). -/
def whole4 (A : S25088x768.Idx → EReal) (B : S768x2304.Idx → EReal) : S25088x768.Idx → EReal := fun i =>
  ∑ k : Fin 768, A (ix2 (⟨(i 0).val, (i 0).isLt⟩ : Fin 25088) k) * B (ix2 k (col 1536 (by decide) (⟨(i 1).val, (i 1).isLt⟩ : Fin 768)))

theorem flushed_eq_4 (c : Dev nD) (t : Fin cfg0.N) :
    (dat0 (F := Ideal) V c).flushed 4 t = ((cfg0.win 4).blk t).view.read (Elt Ideal) (whole4 (V c main_v0) (V c main_v2)) := by
  show (cfg0.win 4).cut (grid0.coords t) ((dat0 (F := Ideal) V c).after 4 t) = _
  rw [after0_4]
  unfold out0_4
  rw [View.canon_unit_zero hz]
  simp only [View.ld_unit_zero (S := S512x768) hz, View.ld_unit_zero (S := S768x2304) hz]
  obtain ⟨e0, e1⟩ := idx_rows_4 t
  funext y
  show k0_pay4 (iblk0 V c 0 t) (iblk0 V c 1 t) y = whole4 (V c main_v0) (V c main_v2) (((cfg0.win 4).blk t).view.emb y)
  obtain ⟨p, e, rfl⟩ : ∃ (p : Fin 512) (e : Fin 768), y = ix2 p e := ⟨y 0, y 1, eq_ix2 y⟩
  refine (pay4_apply (iblk0 V c 0 t) (iblk0 V c 1 t) p e).trans ?_
  have hemb : ((cfg0.win 4).blk t).view.emb (ix2 p e) = (ix2 (row t p) e : S25088x768.Idx) := funext fun a => Fin.ext (by
    match a with
    | ⟨0, _⟩ => show win0_4.index t 0 * 512 + 1 * p.val = 512 * t.val + p.val; rw [e0]; omega
    | ⟨1, _⟩ => show win0_4.index t 1 * 768 + 1 * e.val = e.val; rw [e1]; omega)
  rw [hemb]
  unfold whole4
  exact Finset.sum_congr rfl fun k _ => by rw [blockA V c t p k, blockB V c t k _]

/-- Point `t` writes back block `t` (rows 512·t … 512·t + 511) of the whole result of window 4. -/
theorem mem_blk_4 (t : Fin cfg0.N) (i : S25088x768.Idx) :
    i ∈ ((cfg0.win 4).blk t).view.set ↔ ∀ a : Fin 2, win0_4.index t a * S512x768.size a ≤ (i a).val ∧ (i a).val < win0_4.index t a * S512x768.size a + S512x768.size a := by
  show i ∈ ((View.whole main_v3_2).slice (win0_4.rect t)).set ↔ _
  rw [View.set_slice_whole, Rect.mem_set_unit]
  exact Iff.rfl

theorem cover_4 (i : S25088x768.Idx) : ∃ t : Fin cfg0.N, (cfg0.win 4).flush t = true ∧ i ∈ ((cfg0.win 4).blk t).view.set := by
  have hi0 : (i 0).val < 25088 := (i 0).isLt
  have hi1 : (i 1).val < 768 := (i 1).isLt
  have ht : (i 0).val / 512 < cfg0.N := by rw [hN]; omega
  obtain ⟨e0, e1⟩ := idx_rows_4 ⟨(i 0).val / 512, ht⟩
  refine ⟨⟨(i 0).val / 512, ht⟩, flush0_4 _, ?_⟩
  rw [mem_blk_4]
  intro a
  match a with
  | ⟨0, _⟩ =>
    show win0_4.index ⟨(i 0).val / 512, ht⟩ 0 * 512 ≤ (i 0).val ∧ (i 0).val < win0_4.index ⟨(i 0).val / 512, ht⟩ 0 * 512 + 512
    rw [e0]; show (i 0).val / 512 * 512 ≤ (i 0).val ∧ (i 0).val < (i 0).val / 512 * 512 + 512; omega
  | ⟨1, _⟩ =>
    show win0_4.index ⟨(i 0).val / 512, ht⟩ 1 * 768 ≤ (i 1).val ∧ (i 1).val < win0_4.index ⟨(i 0).val / 512, ht⟩ 1 * 768 + 768
    rw [e1]; omega

/-- After the launch the array of window 4 holds its whole result. -/
theorem final4 (c : Dev nD) : (dat0 (F := Ideal) V c).arrAt 4 cfg0.N = whole4 (V c main_v0) (V c main_v2) :=
  (dat0 (F := Ideal) V c).arrAt_eq_of_cover 4 (whole4 (V c main_v0) (V c main_v2)) (fun t _ => flushed_eq_4 V c t) cover_4

end Cert.KernelIdeal.Gemm0

end
-- ==== Proof.LibRowBroadcast.lean ====
/-
  Two broadcasts along an axis of length one, read at coordinates: a 1 × b row laid along the rows of an a × b matrix,
  and a 1 × 1 cell laid along an a × 1 column. Entry (p, d) of the first is entry (0, d) of the row; every entry of the
  second is the cell: a broadcast reads position 0 of each unit axis of its operand and the result's own coordinate on
  the others.
-/
import Idealize.ShloMosaic.Lib.ValueIdx
import Idealize.ShloMosaic.Lib.Pipeline.Value

namespace Cert.Lib.RowBroadcast

open Idealize.ShloMosaic Idealize.ShloMosaic.ValueIdx

variable {α : Type}

/-- A 1 × b row laid along every row of an a × b matrix (b ≠ 1): entry (p, d) is entry (0, d) of the row. -/
theorem broadcastTo_1b_ab_apply {a b : ℕ} (hb : b ≠ 1) (v : (⟨2, ![1, b]⟩ : Shape).Idx → α)
    (h : (⟨2, ![1, b]⟩ : Shape).Broadcasts ⟨2, ![a, b]⟩) (p : Fin a) (d : Fin b) :
    broadcastTo ⟨2, ![a, b]⟩ v h (ix2 p d) = v (ix2 (0 : Fin 1) d) := by
  refine broadcastTo_apply v h (ix2 p d) (ix2 (0 : Fin 1) d) fun ax => ?_
  match ax with
  | ⟨0, _⟩ => rfl
  | ⟨1, _⟩ =>
    show d.val = if b = 1 then 0 else d.val
    rw [if_neg hb]

/-- A 1 × 1 cell laid along an a × 1 column: every entry is the cell. -/
theorem broadcastTo_11_a1_apply {a : ℕ} (v : (⟨2, ![1, 1]⟩ : Shape).Idx → α)
    (h : (⟨2, ![1, 1]⟩ : Shape).Broadcasts ⟨2, ![a, 1]⟩) (p : Fin a) :
    broadcastTo ⟨2, ![a, 1]⟩ v h (ix2 p (0 : Fin 1)) = v (ix2 (0 : Fin 1) (0 : Fin 1)) := by
  refine broadcastTo_apply v h (ix2 p (0 : Fin 1)) (ix2 (0 : Fin 1) (0 : Fin 1)) fun ax => ?_
  match ax with
  | ⟨0, _⟩ => rfl
  | ⟨1, _⟩ => rfl

end Cert.Lib.RowBroadcast
-- ==== Proof.Gemm3.lean ====
/-
  The output-projection launch as a function of its three operand arrays. The grid walks the 25088 rows in steps of 512;
  point `t` multiplies rows 512·t … 512·t + 511 of the left array by the whole 768 × 768 right array into a zero
  accumulator, adds the 1 × 768 bias row to every row and stores the result into the same rows. So entry (i, e) of the
  result is ∑_k A (i, k) · B (k, e) + b (0, e), whichever point wrote it.
-/
import proofs.«178978_j19473381720281_2_alg».proof.Proof.Gen.KernelIdeal.Frame
import proofs.«178978_j19473381720281_2_alg».proof.Proof.LibPlainMatmul
import proofs.«178978_j19473381720281_2_alg».proof.Proof.LibRowBroadcast
import Idealize.ShloMosaic.Lib.ValueIdx
import Idealize.ShloMosaic.Lib.Pipeline.Value
import Idealize.ShloMosaic.PureOps.Ideal.Laws

set_option maxRecDepth 16384

noncomputable section

namespace Cert.KernelIdeal.Gemm3

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

theorem hN : cfg3.N = 49 := N_3

/-- Row `p` of point `t`'s block, in the array. -/
abbrev row (t : Fin cfg3.N) (p : Fin 512) : Fin 25088 :=
  ⟨512 * t.val + p.val, by have := lt_of_lt_of_eq t.isLt hN; have := p.isLt; omega⟩

/-! ## The stored block at an index -/

/-- The product of the loaded blocks plus the bias row, at (p, e). -/
theorem pay_apply (x0 : FVec Ideal S512x768 .bf16) (x1 : FVec Ideal S768x768 .bf16) (x2 : FVec Ideal S1x768 .f32) (p : Fin 512) (e : Fin 768) :
    (k3_pay1 (F := Ideal) x0 x1 x2 : S512x768.Idx → EReal) (ix2 p e)
      = (∑ k : Fin 768, x0 (ix2 p k) * x1 (ix2 k e)) + x2 (ix2 (0 : Fin 1) e) := by
  unfold k3_pay1
  refine (addf_apply _ _ _).trans ?_
  refine congrArg₂ (· + ·) ?_ ?_
  · refine (Cert.PlainMatmul.matmul_zero_apply 512 768 768 none _ _ p e).trans ?_
    exact Finset.sum_congr rfl fun k _ => by rw [shapeCast_self, shapeCast_self]
  · refine (Cert.Lib.RowBroadcast.broadcastTo_1b_ab_apply (a := 512) (b := 768) (by decide) _ broadcasts_S1x768_S512x768 p e).trans ?_
    rw [shapeCast_self]

/-- The whole result: entry (i, e) is ∑_k A (i, k) · B (k, e) + b (0, e). -/
def whole (A : S25088x768.Idx → EReal) (B : S768x768.Idx → EReal) (b : S1x768.Idx → EReal) : S25088x768.Idx → EReal := fun i =>
  (∑ k : Fin 768, A (ix2 (⟨(i 0).val, (i 0).isLt⟩ : Fin 25088) k) * B (ix2 k (⟨(i 1).val, (i 1).isLt⟩ : Fin 768)))
    + b (ix2 (0 : Fin 1) (⟨(i 1).val, (i 1).isLt⟩ : Fin 768))

/-! ## The index maps over the grid, and the operand blocks -/

theorem idx_rows_0 : ∀ t : Fin cfg3.N, win3_0.index t 0 = t.val ∧ win3_0.index t 1 = 0 :=
  (by decide +kernel : ∀ t : Fin grid3.N, _)
theorem idx_rows_3 : ∀ t : Fin cfg3.N, win3_3.index t 0 = t.val ∧ win3_3.index t 1 = 0 :=
  (by decide +kernel : ∀ t : Fin grid3.N, _)
theorem idx_zero_1 : ∀ t : Fin cfg3.N, win3_1.index t 0 = 0 ∧ win3_1.index t 1 = 0 :=
  (by decide +kernel : ∀ t : Fin grid3.N, _)
theorem idx_zero_2 : ∀ t : Fin cfg3.N, win3_2.index t 0 = 0 ∧ win3_2.index t 1 = 0 :=
  (by decide +kernel : ∀ t : Fin grid3.N, _)

/-- Window 0's block at point `t` is rows 512·t … 512·t + 511 of its array. -/
theorem blockA (c : Dev nD) (t : Fin cfg3.N) (p : Fin 512) (k : Fin 768) :
    (iblk3 V c 0 t : FVec Ideal S512x768 .bf16) (ix2 p k) = (V c main_v29 : S25088x768.Idx → EReal) (ix2 (row t p) k) := by
  obtain ⟨e0, e1⟩ := idx_rows_0 t
  unfold iblk3
  rw [View.read_apply]
  show V c main_v29 _ = V c main_v29 _
  refine congrArg (V c main_v29) (funext fun a => Fin.ext ?_)
  match a with
  | ⟨0, _⟩ => show win3_0.index t 0 * 512 + 1 * p.val = 512 * t.val + p.val; rw [e0]; omega
  | ⟨1, _⟩ => show win3_0.index t 1 * 768 + 1 * k.val = k.val; rw [e1]; omega

/-- Window 1's block at every point is its whole array. -/
theorem blockB (c : Dev nD) (t : Fin cfg3.N) (a : Fin 768) (b : Fin 768) :
    (iblk3 V c 1 t : FVec Ideal S768x768 .bf16) (ix2 a b) = (V c main_v31 : S768x768.Idx → EReal) (ix2 a b) := by
  obtain ⟨e0, e1⟩ := idx_zero_1 t
  unfold iblk3
  rw [View.read_apply]
  show V c main_v31 _ = V c main_v31 _
  refine congrArg (V c main_v31) (funext fun x => Fin.ext ?_)
  match x with
  | ⟨0, _⟩ => show win3_1.index t 0 * 768 + 1 * a.val = a.val; rw [e0]; omega
  | ⟨1, _⟩ => show win3_1.index t 1 * 768 + 1 * b.val = b.val; rw [e1]; omega

/-- Window 2's block at every point is its whole array. -/
theorem blockC (c : Dev nD) (t : Fin cfg3.N) (a : Fin 1) (b : Fin 768) :
    (iblk3 V c 2 t : FVec Ideal S1x768 .f32) (ix2 a b) = (V c main_v32 : S1x768.Idx → EReal) (ix2 a b) := by
  obtain ⟨e0, e1⟩ := idx_zero_2 t
  unfold iblk3
  rw [View.read_apply]
  show V c main_v32 _ = V c main_v32 _
  refine congrArg (V c main_v32) (funext fun x => Fin.ext ?_)
  match x with
  | ⟨0, _⟩ => show win3_2.index t 0 * 1 + 1 * a.val = a.val; rw [e0]; omega
  | ⟨1, _⟩ => show win3_2.index t 1 * 768 + 1 * b.val = b.val; rw [e1]; omega

/-! ## What a point writes back, the cover, the array -/

theorem flushed_eq_3 (c : Dev nD) (t : Fin cfg3.N) :
    (dat3 (F := Ideal) V c).flushed 3 t = ((cfg3.win 3).blk t).view.read (Elt Ideal) (whole (V c main_v29) (V c main_v31) (V c main_v32)) := by
  show (cfg3.win 3).cut (grid3.coords t) ((dat3 (F := Ideal) V c).after 3 t) = _
  rw [after3_3]
  unfold out3_3
  rw [View.canon_unit_zero hz]
  simp only [View.ld_unit_zero (S := S512x768) hz, View.ld_unit_zero (S := S768x768) hz, View.ld_unit_zero (S := S1x768) hz]
  obtain ⟨e0, e1⟩ := idx_rows_3 t
  funext y
  show k3_pay1 (iblk3 V c 0 t) (iblk3 V c 1 t) (iblk3 V c 2 t) y = whole (V c main_v29) (V c main_v31) (V c main_v32) (((cfg3.win 3).blk t).view.emb y)
  obtain ⟨p, e, rfl⟩ : ∃ (p : Fin 512) (e : Fin 768), y = ix2 p e := ⟨y 0, y 1, eq_ix2 y⟩
  refine (pay_apply (iblk3 V c 0 t) (iblk3 V c 1 t) (iblk3 V c 2 t) p e).trans ?_
  have hemb : ((cfg3.win 3).blk t).view.emb (ix2 p e) = (ix2 (row t p) e : S25088x768.Idx) := funext fun a => Fin.ext (by
    match a with
    | ⟨0, _⟩ => show win3_3.index t 0 * 512 + 1 * p.val = 512 * t.val + p.val; rw [e0]; omega
    | ⟨1, _⟩ => show win3_3.index t 1 * 768 + 1 * e.val = e.val; rw [e1]; omega)
  rw [hemb]
  unfold whole
  refine congrArg₂ (· + ·) (Finset.sum_congr rfl fun k _ => ?_) ?_
  · rw [blockA V c t p k, blockB V c t k e]
  · rw [blockC V c t 0 e]

/-- Point `t` writes back block `t` (rows 512·t … 512·t + 511) of the whole result of window 3. -/
theorem mem_blk_3 (t : Fin cfg3.N) (i : S25088x768.Idx) :
    i ∈ ((cfg3.win 3).blk t).view.set ↔ ∀ a : Fin 2, win3_3.index t a * S512x768.size a ≤ (i a).val ∧ (i a).val < win3_3.index t a * S512x768.size a + S512x768.size a := by
  show i ∈ ((View.whole main_v33).slice (win3_3.rect t)).set ↔ _
  rw [View.set_slice_whole, Rect.mem_set_unit]
  exact Iff.rfl

theorem cover_3 (i : S25088x768.Idx) : ∃ t : Fin cfg3.N, (cfg3.win 3).flush t = true ∧ i ∈ ((cfg3.win 3).blk t).view.set := by
  have hi0 : (i 0).val < 25088 := (i 0).isLt
  have hi1 : (i 1).val < 768 := (i 1).isLt
  have ht : (i 0).val / 512 < cfg3.N := by rw [hN]; omega
  obtain ⟨e0, e1⟩ := idx_rows_3 ⟨(i 0).val / 512, ht⟩
  refine ⟨⟨(i 0).val / 512, ht⟩, flush3_3 _, ?_⟩
  rw [mem_blk_3]
  intro a
  match a with
  | ⟨0, _⟩ =>
    show win3_3.index ⟨(i 0).val / 512, ht⟩ 0 * 512 ≤ (i 0).val ∧ (i 0).val < win3_3.index ⟨(i 0).val / 512, ht⟩ 0 * 512 + 512
    rw [e0]; show (i 0).val / 512 * 512 ≤ (i 0).val ∧ (i 0).val < (i 0).val / 512 * 512 + 512; omega
  | ⟨1, _⟩ =>
    show win3_3.index ⟨(i 0).val / 512, ht⟩ 1 * 768 ≤ (i 1).val ∧ (i 1).val < win3_3.index ⟨(i 0).val / 512, ht⟩ 1 * 768 + 768
    rw [e1]; omega

/-- After the launch the result array holds the whole result. -/
theorem final (c : Dev nD) : (dat3 (F := Ideal) V c).arrAt 3 cfg3.N = whole (V c main_v29) (V c main_v31) (V c main_v32) :=
  (dat3 (F := Ideal) V c).arrAt_eq_of_cover 3 (whole (V c main_v29) (V c main_v31) (V c main_v32)) (fun t _ => flushed_eq_3 V c t) cover_3

end Cert.KernelIdeal.Gemm3

end
-- ==== Proof.Spec.lean ====
/-
  One entry of a softmax-attention output, on the extended reals.

  For a query row `Q` (`dh` numbers), `n` key rows `K k` and one column `V k` of the values, the entry is
      ∑ₖ (eₖ / ∑ₖ' eₖ') · V k,      eₖ = exp (sₖ − M),   sₖ = (∑_d Q d · K k d) · scale,
  where `M` is the row maximum taken as the programs take it: the larger of `ninf` and the fold of `max` from `ninf`
  over the scores. Nothing is simplified: `ninf` and `scale` stay parameters, so the same two words on both sides of
  a comparison are never evaluated, and the expression keeps its meaning at the infinities.
-/
import Idealize.ShloMosaic.PureOps.Ideal

noncomputable section

namespace Cert.Attn

open Idealize.ShloMosaic

/-- The scaled score of a query row against one key row. -/
def score {dh : ℕ} (scale : EReal) (Q Kk : Fin dh → EReal) : EReal := (∑ d : Fin dh, Q d * Kk d) * scale

/-- The row maximum: the larger of `ninf` and the running maximum of the scores started from `ninf`. -/
def rowMax {n : ℕ} (ninf : EReal) (s : Fin n → EReal) : EReal :=
  max ninf ((Finset.univ : Finset (Fin n)).fold max ninf s)

/-- The exponential of a score shifted by the row maximum. -/
def expRow {n : ℕ} (ninf : EReal) (s : Fin n → EReal) (k : Fin n) : EReal := Ideal.exp (s k - rowMax ninf s)

/-- One entry of the attention output: the normalised weights against one column of the values. -/
def attnOut {n dh : ℕ} (ninf scale : EReal) (Q : Fin dh → EReal) (K : Fin n → Fin dh → EReal) (V : Fin n → EReal) : EReal :=
  ∑ k : Fin n, Ideal.div (expRow ninf (fun k' => score scale Q (K k')) k)
      (∑ k' : Fin n, expRow ninf (fun k'' => score scale Q (K k'')) k') * V k

end Cert.Attn

end
-- ==== Proof.AttnKS.lean ====
/-
  One launch of the attention kernel, read at an index. A block holds 4 leading positions of 6 heads; the body merges
  the two into 24 batch positions (position tb · 6 + h), takes per batch position the 196 × 196 scores
  (∑_d q · k) · scale, subtracts each row's maximum, exponentiates, divides by the row's sum, multiplies by the values
  and splits the batch positions again. Entry (tb, h, q, d) of what the body stores is therefore the attention entry
  of query row (tb, h, q) against the key rows (tb, h, ·) and the value column (tb, h, ·, d): `pay_apply`.
  A change of float format is the identity on the extended reals, so the roundings to the narrow format disappear.
-/
import proofs.«178978_j19473381720281_2_alg».proof.Proof.Gen.KernelIdeal.Skeleton
import proofs.«178978_j19473381720281_2_alg».proof.Proof.Spec
import Idealize.ShloMosaic.Lib.ValueIdx
import Idealize.ShloMosaic.Lib.Pipeline.Value
import Idealize.ShloMosaic.PureOps.Ideal.Laws

noncomputable section

namespace Cert.KernelIdeal.AttnKS

open Cert.KernelIdeal Cert.KernelIdeal.Gen Idealize.ShloMosaic Idealize.ShloMosaic.ValueIdx Cert.Attn

/-- The merged batch position of leading position `tb` and head `h`. -/
abbrev mg (tb : Fin 4) (h : Fin 6) : Fin 24 := ⟨tb.val * 6 + h.val, by have := tb.isLt; have := h.isLt; omega⟩

/-! ## The two re-groupings of the leading axes -/

/-- Merging (tb, h) into one axis keeps the row-major position: entry (tb · 6 + h, q, d) is entry (tb, h, q, d). -/
theorem castIn {α : Type} (x : S4x6x196x64.Idx → α) (hc : S4x6x196x64.ShapeCasts S24x196x64) (tb : Fin 4) (h : Fin 6) (q : Fin 196) (d : Fin 64) :
    shapeCast S24x196x64 x hc (ix3 (mg tb h) q d) = x (ix4 tb h q d) :=
  shapeCast_apply x hc (ix3 (mg tb h) q d) (ix4 tb h q d) (by
    rw [Shape.rowMajor_val_four, Shape.rowMajor_val_three]
    show ((tb.val * 6 + h.val) * 196 + q.val) * 64 + d.val = ((tb.val * 6 + h.val) * 196 + q.val) * 64 + d.val
    rfl)

/-- Splitting the merged axis again: entry (tb, h, q, d) is entry (tb · 6 + h, q, d). -/
theorem castOut {α : Type} (v : S24x196x64.Idx → α) (hc : S24x196x64.ShapeCasts S4x6x196x64) (tb : Fin 4) (h : Fin 6) (q : Fin 196) (d : Fin 64) :
    shapeCast S4x6x196x64 v hc (ix4 tb h q d) = v (ix3 (mg tb h) q d) :=
  shapeCast_apply v hc (ix4 tb h q d) (ix3 (mg tb h) q d) (by
    rw [Shape.rowMajor_val_four, Shape.rowMajor_val_three]
    show ((tb.val * 6 + h.val) * 196 + q.val) * 64 + d.val = ((tb.val * 6 + h.val) * 196 + q.val) * 64 + d.val
    rfl)

/-! ## The two batched products -/

/-- Where the two products read their operands, axis by axis. -/
theorem d1l0 (i : S24x196x196.Idx) (c : dot_S24x196x64_S24x196x64_S24x196x196_2_2_1_1_0_0.contr.Idx) : (dot_S24x196x64_S24x196x64_S24x196x196_2_2_1_1_0_0.lhsIdx i c 0).val = (i 0).val := by
  unfold DotDims.lhsIdx
  rw [dif_pos (show (0 : Fin S24x196x64.rank) ∈ dot_S24x196x64_S24x196x64_S24x196x196_2_2_1_1_0_0.lhsBatch by decide)]
  rfl
theorem d1l1 (i : S24x196x196.Idx) (c : dot_S24x196x64_S24x196x64_S24x196x196_2_2_1_1_0_0.contr.Idx) : (dot_S24x196x64_S24x196x64_S24x196x196_2_2_1_1_0_0.lhsIdx i c 1).val = (i 1).val := by
  unfold DotDims.lhsIdx
  rw [dif_neg (show ¬(1 : Fin S24x196x64.rank) ∈ dot_S24x196x64_S24x196x64_S24x196x196_2_2_1_1_0_0.lhsBatch by decide), dif_pos (show (1 : Fin S24x196x64.rank) ∈ dot_S24x196x64_S24x196x64_S24x196x196_2_2_1_1_0_0.lhsNonContracting by decide)]
  rfl
theorem d1l2 (i : S24x196x196.Idx) (c : dot_S24x196x64_S24x196x64_S24x196x196_2_2_1_1_0_0.contr.Idx) : (dot_S24x196x64_S24x196x64_S24x196x196_2_2_1_1_0_0.lhsIdx i c 2).val = (c ⟨0, by decide⟩).val :=
  dot_S24x196x64_S24x196x64_S24x196x196_2_2_1_1_0_0.lhsIdx_val_of_single rfl i c
theorem d1r0 (i : S24x196x196.Idx) (c : dot_S24x196x64_S24x196x64_S24x196x196_2_2_1_1_0_0.contr.Idx) : (dot_S24x196x64_S24x196x64_S24x196x196_2_2_1_1_0_0.rhsIdx i c 0).val = (i 0).val := by
  unfold DotDims.rhsIdx
  rw [dif_pos (show (0 : Fin S24x196x64.rank) ∈ dot_S24x196x64_S24x196x64_S24x196x196_2_2_1_1_0_0.rhsBatch by decide)]
  rfl
theorem d1r1 (i : S24x196x196.Idx) (c : dot_S24x196x64_S24x196x64_S24x196x196_2_2_1_1_0_0.contr.Idx) : (dot_S24x196x64_S24x196x64_S24x196x196_2_2_1_1_0_0.rhsIdx i c 1).val = (i 2).val := by
  unfold DotDims.rhsIdx
  rw [dif_neg (show ¬(1 : Fin S24x196x64.rank) ∈ dot_S24x196x64_S24x196x64_S24x196x196_2_2_1_1_0_0.rhsBatch by decide), dif_pos (show (1 : Fin S24x196x64.rank) ∈ dot_S24x196x64_S24x196x64_S24x196x196_2_2_1_1_0_0.rhsNonContracting by decide)]
  rfl
theorem d1r2 (i : S24x196x196.Idx) (c : dot_S24x196x64_S24x196x64_S24x196x196_2_2_1_1_0_0.contr.Idx) : (dot_S24x196x64_S24x196x64_S24x196x196_2_2_1_1_0_0.rhsIdx i c 2).val = (c ⟨0, by decide⟩).val :=
  dot_S24x196x64_S24x196x64_S24x196x196_2_2_1_1_0_0.rhsIdx_val_of_single rfl i c
theorem d2l0 (i : S24x196x64.Idx) (c : dot_S24x196x196_S24x196x64_S24x196x64_2_1_1_2_0_0.contr.Idx) : (dot_S24x196x196_S24x196x64_S24x196x64_2_1_1_2_0_0.lhsIdx i c 0).val = (i 0).val := by
  unfold DotDims.lhsIdx
  rw [dif_pos (show (0 : Fin S24x196x196.rank) ∈ dot_S24x196x196_S24x196x64_S24x196x64_2_1_1_2_0_0.lhsBatch by decide)]
  rfl
theorem d2l1 (i : S24x196x64.Idx) (c : dot_S24x196x196_S24x196x64_S24x196x64_2_1_1_2_0_0.contr.Idx) : (dot_S24x196x196_S24x196x64_S24x196x64_2_1_1_2_0_0.lhsIdx i c 1).val = (i 1).val := by
  unfold DotDims.lhsIdx
  rw [dif_neg (show ¬(1 : Fin S24x196x196.rank) ∈ dot_S24x196x196_S24x196x64_S24x196x64_2_1_1_2_0_0.lhsBatch by decide), dif_pos (show (1 : Fin S24x196x196.rank) ∈ dot_S24x196x196_S24x196x64_S24x196x64_2_1_1_2_0_0.lhsNonContracting by decide)]
  rfl
theorem d2l2 (i : S24x196x64.Idx) (c : dot_S24x196x196_S24x196x64_S24x196x64_2_1_1_2_0_0.contr.Idx) : (dot_S24x196x196_S24x196x64_S24x196x64_2_1_1_2_0_0.lhsIdx i c 2).val = (c ⟨0, by decide⟩).val :=
  dot_S24x196x196_S24x196x64_S24x196x64_2_1_1_2_0_0.lhsIdx_val_of_single rfl i c
theorem d2r0 (i : S24x196x64.Idx) (c : dot_S24x196x196_S24x196x64_S24x196x64_2_1_1_2_0_0.contr.Idx) : (dot_S24x196x196_S24x196x64_S24x196x64_2_1_1_2_0_0.rhsIdx i c 0).val = (i 0).val := by
  unfold DotDims.rhsIdx
  rw [dif_pos (show (0 : Fin S24x196x64.rank) ∈ dot_S24x196x196_S24x196x64_S24x196x64_2_1_1_2_0_0.rhsBatch by decide)]
  rfl
theorem d2r1 (i : S24x196x64.Idx) (c : dot_S24x196x196_S24x196x64_S24x196x64_2_1_1_2_0_0.contr.Idx) : (dot_S24x196x196_S24x196x64_S24x196x64_2_1_1_2_0_0.rhsIdx i c 1).val = (c ⟨0, by decide⟩).val :=
  dot_S24x196x196_S24x196x64_S24x196x64_2_1_1_2_0_0.rhsIdx_val_of_single rfl i c
theorem d2r2 (i : S24x196x64.Idx) (c : dot_S24x196x196_S24x196x64_S24x196x64_2_1_1_2_0_0.contr.Idx) : (dot_S24x196x196_S24x196x64_S24x196x64_2_1_1_2_0_0.rhsIdx i c 2).val = (i 2).val := by
  unfold DotDims.rhsIdx
  rw [dif_neg (show ¬(2 : Fin S24x196x64.rank) ∈ dot_S24x196x196_S24x196x64_S24x196x64_2_1_1_2_0_0.rhsBatch by decide), dif_pos (show (2 : Fin S24x196x64.rank) ∈ dot_S24x196x196_S24x196x64_S24x196x64_2_1_1_2_0_0.rhsNonContracting by decide)]
  rfl

/-- Scores: entry (g, q, k) of the product of queries and keys, both contracted on their last axis, is ∑_d l (g, q, d) · r (g, k, d). -/
theorem dot1_apply (l r : FVec Ideal S24x196x64 .bf16) (g : Fin 24) (q k : Fin 196) :
    matmul dot_S24x196x64_S24x196x64_S24x196x196_2_2_1_1_0_0 none l r (constant S24x196x196 .f32 0x00000000#32) (ix3 g q k)
      = ∑ dd : Fin 64, l (ix3 g q dd) * r (ix3 g k dd) := by
  show FloatOps.matmul dot_S24x196x64_S24x196x64_S24x196x196_2_2_1_1_0_0 none l r (constant S24x196x196 .f32 0x00000000#32) (ix3 g q k) = _
  rw [Ideal.matmul_constant_zero_apply, ← Equiv.sum_comp (contrEquiv1 dot_S24x196x64_S24x196x64_S24x196x196_2_2_1_1_0_0 64 rfl rfl).symm]
  refine Finset.sum_congr rfl fun dd _ => ?_
  have hk := contrEquiv1_symm_val dot_S24x196x64_S24x196x64_S24x196x196_2_2_1_1_0_0 64 rfl rfl dd
  have el : dot_S24x196x64_S24x196x64_S24x196x196_2_2_1_1_0_0.lhsIdx (ix3 g q k) ((contrEquiv1 dot_S24x196x64_S24x196x64_S24x196x196_2_2_1_1_0_0 64 rfl rfl).symm dd) = ix3 g q dd := funext fun a => Fin.ext (by
    match a with
    | ⟨0, _⟩ => exact d1l0 _ _
    | ⟨1, _⟩ => exact d1l1 _ _
    | ⟨2, _⟩ => exact (d1l2 _ _).trans hk)
  have er : dot_S24x196x64_S24x196x64_S24x196x196_2_2_1_1_0_0.rhsIdx (ix3 g q k) ((contrEquiv1 dot_S24x196x64_S24x196x64_S24x196x196_2_2_1_1_0_0 64 rfl rfl).symm dd) = ix3 g k dd := funext fun a => Fin.ext (by
    match a with
    | ⟨0, _⟩ => exact d1r0 _ _
    | ⟨1, _⟩ => exact d1r1 _ _
    | ⟨2, _⟩ => exact (d1r2 _ _).trans hk)
  rw [el, er]

/-- Output: entry (g, q, d) of the product of weights and values is ∑_k l (g, q, k) · r (g, k, d). -/
theorem dot2_apply (l : FVec Ideal S24x196x196 .bf16) (r : FVec Ideal S24x196x64 .bf16) (g : Fin 24) (q : Fin 196) (d : Fin 64) :
    matmul dot_S24x196x196_S24x196x64_S24x196x64_2_1_1_2_0_0 none l r (constant S24x196x64 .f32 0x00000000#32) (ix3 g q d)
      = ∑ k : Fin 196, l (ix3 g q k) * r (ix3 g k d) := by
  show FloatOps.matmul dot_S24x196x196_S24x196x64_S24x196x64_2_1_1_2_0_0 none l r (constant S24x196x64 .f32 0x00000000#32) (ix3 g q d) = _
  rw [Ideal.matmul_constant_zero_apply, ← Equiv.sum_comp (contrEquiv1 dot_S24x196x196_S24x196x64_S24x196x64_2_1_1_2_0_0 196 rfl rfl).symm]
  refine Finset.sum_congr rfl fun k _ => ?_
  have hk := contrEquiv1_symm_val dot_S24x196x196_S24x196x64_S24x196x64_2_1_1_2_0_0 196 rfl rfl k
  have el : dot_S24x196x196_S24x196x64_S24x196x64_2_1_1_2_0_0.lhsIdx (ix3 g q d) ((contrEquiv1 dot_S24x196x196_S24x196x64_S24x196x64_2_1_1_2_0_0 196 rfl rfl).symm k) = ix3 g q k := funext fun a => Fin.ext (by
    match a with
    | ⟨0, _⟩ => exact d2l0 _ _
    | ⟨1, _⟩ => exact d2l1 _ _
    | ⟨2, _⟩ => exact (d2l2 _ _).trans hk)
  have er : dot_S24x196x196_S24x196x64_S24x196x64_2_1_1_2_0_0.rhsIdx (ix3 g q d) ((contrEquiv1 dot_S24x196x196_S24x196x64_S24x196x64_2_1_1_2_0_0 196 rfl rfl).symm k) = ix3 g k d := funext fun a => Fin.ext (by
    match a with
    | ⟨0, _⟩ => exact d2r0 _ _
    | ⟨1, _⟩ => exact (d2r1 _ _).trans hk
    | ⟨2, _⟩ => exact d2r2 _ _)
  rw [el, er]

/-! ## A row statistic kept as a column and laid back along the row -/

/-- The reduced index (g, q) with position k of the reduced axis put back is (g, q, k). -/
theorem lift_row (hr : S24x196x196.Reduces [2] S24x196) (g : Fin 24) (q : Fin 196) (k : Fin (S24x196x196.size 2)) :
    hr.lift (ix2 g q) k = ix3 g q (⟨k.val, k.isLt⟩ : Fin 196) := by
  funext c; apply Fin.ext
  fin_cases c <;> rfl

/-- A per-row value kept as a trailing unit axis and broadcast along the row is that value at every position of the row. -/
theorem column_apply {α : Type} (v : S24x196.Idx → α) (hc : S24x196.ShapeCasts S24x196x1) (hb : S24x196x1.Broadcasts S24x196x196)
    (g : Fin 24) (q k : Fin 196) : broadcastTo S24x196x196 (shapeCast S24x196x1 v hc) hb (ix3 g q k) = v (ix2 g q) := by
  refine (broadcastTo_apply (shapeCast S24x196x1 v hc) hb (ix3 g q k) (ix3 g q (0 : Fin 1)) fun a => ?_).trans ?_
  · match a with
    | ⟨0, _⟩ => rfl
    | ⟨1, _⟩ => rfl
    | ⟨2, _⟩ => rfl
  · exact shapeCast_apply v hc (ix3 g q (0 : Fin 1)) (ix2 g q) (by
      rw [Shape.rowMajor_val_two, Shape.rowMajor_val_three]
      show g.val * 196 + q.val = (g.val * 196 + q.val) * 1 + 0
      omega)

/-! ## The body's stages, as the payload spells them -/

/-- The scaled scores of a block. -/
def scoresK (qv kv : FVec Ideal S24x196x64 .bf16) : FVec Ideal S24x196x196 .f32 :=
  mulf (matmul dot_S24x196x64_S24x196x64_S24x196x196_2_2_1_1_0_0 none qv kv (constant S24x196x196 .f32 0x00000000#32))
    (broadcast S24x196x196 (Scalar.ofBits (F := Ideal) .f32 0x3E000000#32))

/-- The rows' maxima. -/
def rowMaxK (s : FVec Ideal S24x196x196 .f32) : FVec Ideal S24x196 .f32 :=
  maximumf (broadcast S24x196 (Scalar.ofBits (F := Ideal) .f32 0xFF800000#32))
    (multiReduction .maximumf [2] S24x196 s 0xFF800000#32 reduces_S24x196x196_S24x196 (.inl rfl) rfl)

/-- The exponentials of the scores shifted by their row's maximum. -/
def expK (s : FVec Ideal S24x196x196 .f32) : FVec Ideal S24x196x196 .f32 :=
  exp (subf s (broadcastTo S24x196x196 (shapeCast S24x196x1 (rowMaxK s) shapeCasts_S24x196_S24x196x1) broadcasts_S24x196x1_S24x196x196))

/-- The normalised weights. -/
def probK (e : FVec Ideal S24x196x196 .f32) : FVec Ideal S24x196x196 .f32 :=
  divf e (broadcastTo S24x196x196 (shapeCast S24x196x1 (multiReduction .add [2] S24x196 e 0x00000000#32 reduces_S24x196x196_S24x196 (.inl rfl) rfl)
    shapeCasts_S24x196_S24x196x1) broadcasts_S24x196x1_S24x196x196)

/-- The payload is these stages composed between the two re-groupings. -/
theorem pay_eq (x0 x1 x2 : FVec Ideal S4x6x196x64 .bf16) :
    k1_pay1 (F := Ideal) x0 x1 x2 = truncf .bf16 (shapeCast S4x6x196x64 (matmul dot_S24x196x196_S24x196x64_S24x196x64_2_1_1_2_0_0 none
      (truncf .bf16 (probK (expK (scoresK
        (shapeCast S24x196x64 (shapeCast S4x6x196x64 x0 shapeCasts_S4x6x196x64_S4x6x196x64) shapeCasts_S4x6x196x64_S24x196x64)
        (shapeCast S24x196x64 (shapeCast S4x6x196x64 x1 shapeCasts_S4x6x196x64_S4x6x196x64) shapeCasts_S4x6x196x64_S24x196x64)))) bitsLt_bf16_f32)
      (shapeCast S24x196x64 (shapeCast S4x6x196x64 x2 shapeCasts_S4x6x196x64_S4x6x196x64) shapeCasts_S4x6x196x64_S24x196x64)
      (constant S24x196x64 .f32 0x00000000#32)) shapeCasts_S24x196x64_S4x6x196x64) bitsLt_bf16_f32 := rfl

/-! ## Each stage at an index -/

theorem scoresK_apply (qv kv : FVec Ideal S24x196x64 .bf16) (g : Fin 24) (q k : Fin 196) :
    scoresK qv kv (ix3 g q k)
      = score (Ideal.ofBits .f32 0x3E000000#32) (fun dd => qv (ix3 g q dd)) (fun dd => kv (ix3 g k dd)) := by
  unfold scoresK score
  refine (mulf_apply _ _ _).trans ?_
  rw [dot1_apply]
  rfl

theorem rowMaxK_apply (s : FVec Ideal S24x196x196 .f32) (g : Fin 24) (q : Fin 196) :
    rowMaxK s (ix2 g q) = rowMax (Ideal.ofBits .f32 0xFF800000#32) (fun k => s (ix3 g q k)) := by
  unfold rowMaxK rowMax
  refine (maximumf_apply _ _ _).trans ?_
  refine congrArg (max (Ideal.ofBits .f32 0xFF800000#32)) ?_
  refine (Ideal.multiReduction_maximumf_single s 0xFF800000#32 reduces_S24x196x196_S24x196 (.inl rfl) rfl (ix2 g q)).trans ?_
  have hf : (s ∘ reduces_S24x196x196_S24x196.lift (ix2 g q)) = fun k : Fin 196 => s (ix3 g q k) :=
    funext fun k => congrArg s (lift_row reduces_S24x196x196_S24x196 g q k)
  rw [hf]
  rfl

theorem expK_apply (s : FVec Ideal S24x196x196 .f32) (g : Fin 24) (q k : Fin 196) :
    expK s (ix3 g q k) = expRow (Ideal.ofBits .f32 0xFF800000#32) (fun k' => s (ix3 g q k')) k := by
  unfold expK expRow
  show Ideal.exp (s (ix3 g q k) - broadcastTo S24x196x196 (shapeCast S24x196x1 (rowMaxK s) shapeCasts_S24x196_S24x196x1) broadcasts_S24x196x1_S24x196x196 (ix3 g q k)) = _
  rw [column_apply, rowMaxK_apply]

theorem probK_apply (e : FVec Ideal S24x196x196 .f32) (g : Fin 24) (q k : Fin 196) :
    probK e (ix3 g q k) = Ideal.div (e (ix3 g q k)) (∑ k' : Fin 196, e (ix3 g q k')) := by
  unfold probK
  refine (divf_apply _ _ _).trans ?_
  refine congrArg (Ideal.div (e (ix3 g q k))) ?_
  refine (column_apply _ _ _ g q k).trans ?_
  refine (Ideal.multiReduction_add_single e 0x00000000#32 reduces_S24x196x196_S24x196 (.inl rfl) rfl (ix2 g q)).trans ?_
  exact Finset.sum_congr rfl fun k' _ => congrArg e (lift_row reduces_S24x196x196_S24x196 g q k')

/-! ## The stored block at an index -/

/-- Entry (tb, h, q, d) of what the body stores is the attention entry of query row (tb, h, q) against the key rows
    (tb, h, ·) and the value column (tb, h, ·, d) of the three loaded blocks. -/
theorem pay_apply (x0 x1 x2 : FVec Ideal S4x6x196x64 .bf16) (tb : Fin 4) (h : Fin 6) (q : Fin 196) (d : Fin 64) :
    (k1_pay1 (F := Ideal) x0 x1 x2 : S4x6x196x64.Idx → EReal) (ix4 tb h q d)
      = attnOut (Ideal.ofBits .f32 0xFF800000#32) (Ideal.ofBits .f32 0x3E000000#32)
          (fun dd => x0 (ix4 tb h q dd)) (fun k dd => x1 (ix4 tb h k dd)) (fun k => x2 (ix4 tb h k d)) := by
  rw [pay_eq]
  refine (truncf_apply (s := S4x6x196x64) (φ := .f32) (ψ := .bf16) _ bitsLt_bf16_f32 (ix4 tb h q d)).trans ?_
  refine (castOut _ _ tb h q d).trans ?_
  refine (dot2_apply _ _ (mg tb h) q d).trans ?_
  unfold attnOut
  refine Finset.sum_congr rfl fun k _ => ?_
  have hs : ∀ k' : Fin 196, scoresK
        (shapeCast S24x196x64 (shapeCast S4x6x196x64 x0 shapeCasts_S4x6x196x64_S4x6x196x64) shapeCasts_S4x6x196x64_S24x196x64)
        (shapeCast S24x196x64 (shapeCast S4x6x196x64 x1 shapeCasts_S4x6x196x64_S4x6x196x64) shapeCasts_S4x6x196x64_S24x196x64) (ix3 (mg tb h) q k')
      = score (Ideal.ofBits .f32 0x3E000000#32) (fun dd => x0 (ix4 tb h q dd)) (fun dd => x1 (ix4 tb h k' dd)) := fun k' => by
    rw [scoresK_apply]
    refine congrArg₂ (score (Ideal.ofBits .f32 0x3E000000#32)) (funext fun dd => ?_) (funext fun dd => ?_)
    · rw [shapeCast_self]; exact castIn x0 _ tb h q dd
    · rw [shapeCast_self]; exact castIn x1 _ tb h k' dd
  have he : ∀ k' : Fin 196, expK (scoresK
        (shapeCast S24x196x64 (shapeCast S4x6x196x64 x0 shapeCasts_S4x6x196x64_S4x6x196x64) shapeCasts_S4x6x196x64_S24x196x64)
        (shapeCast S24x196x64 (shapeCast S4x6x196x64 x1 shapeCasts_S4x6x196x64_S4x6x196x64) shapeCasts_S4x6x196x64_S24x196x64)) (ix3 (mg tb h) q k')
      = expRow (Ideal.ofBits .f32 0xFF800000#32)
          (fun k'' => score (Ideal.ofBits .f32 0x3E000000#32) (fun dd => x0 (ix4 tb h q dd)) (fun dd => x1 (ix4 tb h k'' dd))) k' := fun k' => by
    rw [expK_apply]
    exact congrArg (fun s => expRow (Ideal.ofBits .f32 0xFF800000#32) s k') (funext hs)
  refine congrArg₂ (· * ·) ?_ ?_
  · refine (truncf_apply (s := S24x196x196) (φ := .f32) (ψ := .bf16) _ bitsLt_bf16_f32 (ix3 (mg tb h) q k)).trans ?_
    rw [probK_apply, he k]
    exact congrArg (Ideal.div _) (Finset.sum_congr rfl fun k' _ => he k')
  · rw [shapeCast_self]; exact castIn x2 _ tb h k d

end Cert.KernelIdeal.AttnKS

end
-- ==== Proof.RegionS.lean ====
/-
  The attention launch as one function of its three operand arrays. The grid walks the leading axis in steps of 4:
  point `t` reads leading positions 4·t … 4·t + 3 of each operand (all heads, rows and columns) and writes the same
  positions of the result, so the 32 points' blocks tile the result and each entry (n, h, q, d) is written once, by point
  n / 4, with the attention entry of query row (n, h, q) against key rows (n, h, ·) and value column (n, h, ·, d).
-/
import proofs.«178978_j19473381720281_2_alg».proof.Proof.Gen.KernelIdeal.Frame
import proofs.«178978_j19473381720281_2_alg».proof.Proof.AttnKS
import Idealize.ShloMosaic.Lib.Pipeline.Value

set_option maxRecDepth 16384

noncomputable section

namespace Cert.KernelIdeal.RegionS

open Cert.KernelIdeal Cert.KernelIdeal.Gen Idealize.ShloMosaic Idealize.ShloMosaic.TcCoe Idealize.ShloMosaic.ValueIdx Idealize.SL.Sem Cert.Attn
open Idealize.ShloMosaic.Pipeline (Dat)

variable (V : (c : Dev nD) → (b : Ref sig .tc) → Buf (Elt Ideal) ((c : Thread nD τ).loc b))

theorem hz : (![0, 0, 0, 0] : Fin 4 → Nat) = fun _ => 0 := funext fun a => by fin_cases a <;> rfl

theorem hN : cfg1.N = 32 := N_1

/-- The leading position of entry `tb` of point `t`'s block. -/
abbrev lead (t : Fin cfg1.N) (tb : Fin 4) : Fin 128 :=
  ⟨4 * t.val + tb.val, by have := lt_of_lt_of_eq t.isLt hN; have := tb.isLt; omega⟩

/-- The whole result: the attention entry at every index, of the three operand arrays. -/
def whole (A0 A1 A2 : S128x6x196x64.Idx → EReal) : S128x6x196x64.Idx → EReal := fun i =>
  attnOut (Ideal.ofBits .f32 0xFF800000#32) (Ideal.ofBits .f32 0x3E000000#32)
    (fun dd => A0 (ix4 (⟨(i 0).val, (i 0).isLt⟩ : Fin 128) (⟨(i 1).val, (i 1).isLt⟩ : Fin 6) (⟨(i 2).val, (i 2).isLt⟩ : Fin 196) dd))
    (fun k dd => A1 (ix4 (⟨(i 0).val, (i 0).isLt⟩ : Fin 128) (⟨(i 1).val, (i 1).isLt⟩ : Fin 6) k dd))
    (fun k => A2 (ix4 (⟨(i 0).val, (i 0).isLt⟩ : Fin 128) (⟨(i 1).val, (i 1).isLt⟩ : Fin 6) k (⟨(i 3).val, (i 3).isLt⟩ : Fin 64)))

/-! ## The index maps over the grid -/

theorem idx_facts_0 : ∀ t : Fin cfg1.N, win1_0.index t 0 = t.val ∧ win1_0.index t 1 = 0 ∧ win1_0.index t 2 = 0 ∧ win1_0.index t 3 = 0 :=
  (by decide +kernel : ∀ t : Fin grid1.N, _)
theorem idx_facts_1 : ∀ t : Fin cfg1.N, win1_1.index t 0 = t.val ∧ win1_1.index t 1 = 0 ∧ win1_1.index t 2 = 0 ∧ win1_1.index t 3 = 0 :=
  (by decide +kernel : ∀ t : Fin grid1.N, _)
theorem idx_facts_2 : ∀ t : Fin cfg1.N, win1_2.index t 0 = t.val ∧ win1_2.index t 1 = 0 ∧ win1_2.index t 2 = 0 ∧ win1_2.index t 3 = 0 :=
  (by decide +kernel : ∀ t : Fin grid1.N, _)
theorem idx_facts_3 : ∀ t : Fin cfg1.N, win1_3.index t 0 = t.val ∧ win1_3.index t 1 = 0 ∧ win1_3.index t 2 = 0 ∧ win1_3.index t 3 = 0 :=
  (by decide +kernel : ∀ t : Fin grid1.N, _)

/-! ## The operand blocks -/

/-- Input window 0's block at point `t` is leading positions 4·t … 4·t + 3 of its array. -/
theorem iblk_0_apply (c : Dev nD) (t : Fin cfg1.N) (tb : Fin 4) (h : Fin 6) (q : Fin 196) (d : Fin 64) :
    (iblk1 V c 0 t : FVec Ideal S4x6x196x64 .bf16) (ix4 tb h q d)
      = (V c main_v16 : S128x6x196x64.Idx → EReal) (ix4 (lead t tb) h q d) := by
  obtain ⟨e0, e1, e2, e3⟩ := idx_facts_0 t
  unfold iblk1
  rw [View.read_apply]
  show V c main_v16 _ = V c main_v16 _
  refine congrArg (V c main_v16) (funext fun a => Fin.ext ?_)
  match a with
  | ⟨0, _⟩ => show win1_0.index t 0 * 4 + 1 * tb.val = 4 * t.val + tb.val; rw [e0]; omega
  | ⟨1, _⟩ => show win1_0.index t 1 * 6 + 1 * h.val = h.val; rw [e1]; omega
  | ⟨2, _⟩ => show win1_0.index t 2 * 196 + 1 * q.val = q.val; rw [e2]; omega
  | ⟨3, _⟩ => show win1_0.index t 3 * 64 + 1 * d.val = d.val; rw [e3]; omega

/-- Input window 1's block at point `t` is leading positions 4·t … 4·t + 3 of its array. -/
theorem iblk_1_apply (c : Dev nD) (t : Fin cfg1.N) (tb : Fin 4) (h : Fin 6) (q : Fin 196) (d : Fin 64) :
    (iblk1 V c 1 t : FVec Ideal S4x6x196x64 .bf16) (ix4 tb h q d)
      = (V c main_v17 : S128x6x196x64.Idx → EReal) (ix4 (lead t tb) h q d) := by
  obtain ⟨e0, e1, e2, e3⟩ := idx_facts_1 t
  unfold iblk1
  rw [View.read_apply]
  show V c main_v17 _ = V c main_v17 _
  refine congrArg (V c main_v17) (funext fun a => Fin.ext ?_)
  match a with
  | ⟨0, _⟩ => show win1_1.index t 0 * 4 + 1 * tb.val = 4 * t.val + tb.val; rw [e0]; omega
  | ⟨1, _⟩ => show win1_1.index t 1 * 6 + 1 * h.val = h.val; rw [e1]; omega
  | ⟨2, _⟩ => show win1_1.index t 2 * 196 + 1 * q.val = q.val; rw [e2]; omega
  | ⟨3, _⟩ => show win1_1.index t 3 * 64 + 1 * d.val = d.val; rw [e3]; omega

/-- Input window 2's block at point `t` is leading positions 4·t … 4·t + 3 of its array. -/
theorem iblk_2_apply (c : Dev nD) (t : Fin cfg1.N) (tb : Fin 4) (h : Fin 6) (q : Fin 196) (d : Fin 64) :
    (iblk1 V c 2 t : FVec Ideal S4x6x196x64 .bf16) (ix4 tb h q d)
      = (V c main_v18 : S128x6x196x64.Idx → EReal) (ix4 (lead t tb) h q d) := by
  obtain ⟨e0, e1, e2, e3⟩ := idx_facts_2 t
  unfold iblk1
  rw [View.read_apply]
  show V c main_v18 _ = V c main_v18 _
  refine congrArg (V c main_v18) (funext fun a => Fin.ext ?_)
  match a with
  | ⟨0, _⟩ => show win1_2.index t 0 * 4 + 1 * tb.val = 4 * t.val + tb.val; rw [e0]; omega
  | ⟨1, _⟩ => show win1_2.index t 1 * 6 + 1 * h.val = h.val; rw [e1]; omega
  | ⟨2, _⟩ => show win1_2.index t 2 * 196 + 1 * q.val = q.val; rw [e2]; omega
  | ⟨3, _⟩ => show win1_2.index t 3 * 64 + 1 * d.val = d.val; rw [e3]; omega

/-! ## What a point writes back, the cover, the array -/

/-- Point `t` writes back block `t` of the whole result. -/
theorem flushed_eq (c : Dev nD) (t : Fin cfg1.N) :
    (dat1 (F := Ideal) V c).flushed 3 t
      = ((cfg1.win 3).blk t).view.read (Elt Ideal) (whole (V c main_v16) (V c main_v17) (V c main_v18)) := by
  show (cfg1.win 3).cut (grid1.coords t) ((dat1 (F := Ideal) V c).after 3 t) = _
  rw [after1_3]
  unfold out1_3
  rw [View.canon_unit_zero hz]
  simp only [View.ld_unit_zero (S := S4x6x196x64) hz]
  obtain ⟨e0, e1, e2, e3⟩ := idx_facts_3 t
  funext y
  show k1_pay1 (iblk1 V c 0 t) (iblk1 V c 1 t) (iblk1 V c 2 t) y
    = whole (V c main_v16) (V c main_v17) (V c main_v18) (((cfg1.win 3).blk t).view.emb y)
  obtain ⟨tb, h, q, d, rfl⟩ : ∃ (tb : Fin 4) (h : Fin 6) (q : Fin 196) (d : Fin 64), y = ix4 tb h q d :=
    ⟨y 0, y 1, y 2, y 3, eq_ix4 y⟩
  refine (AttnKS.pay_apply (iblk1 V c 0 t) (iblk1 V c 1 t) (iblk1 V c 2 t) tb h q d).trans ?_
  have hemb : ((cfg1.win 3).blk t).view.emb (ix4 tb h q d) = (ix4 (lead t tb) h q d : S128x6x196x64.Idx) := funext fun a => Fin.ext (by
    match a with
    | ⟨0, _⟩ => show win1_3.index t 0 * 4 + 1 * tb.val = 4 * t.val + tb.val; rw [e0]; omega
    | ⟨1, _⟩ => show win1_3.index t 1 * 6 + 1 * h.val = h.val; rw [e1]; omega
    | ⟨2, _⟩ => show win1_3.index t 2 * 196 + 1 * q.val = q.val; rw [e2]; omega
    | ⟨3, _⟩ => show win1_3.index t 3 * 64 + 1 * d.val = d.val; rw [e3]; omega)
  rw [hemb]
  unfold whole
  have q0 : (fun dd => (iblk1 V c 0 t : FVec Ideal S4x6x196x64 .bf16) (ix4 tb h q dd))
      = fun dd => (V c main_v16 : S128x6x196x64.Idx → EReal) (ix4 (lead t tb) h q dd) := funext fun dd => iblk_0_apply V c t tb h q dd
  have q1 : (fun k dd => (iblk1 V c 1 t : FVec Ideal S4x6x196x64 .bf16) (ix4 tb h k dd))
      = fun k dd => (V c main_v17 : S128x6x196x64.Idx → EReal) (ix4 (lead t tb) h k dd) := funext fun k => funext fun dd => iblk_1_apply V c t tb h k dd
  have q2 : (fun k => (iblk1 V c 2 t : FVec Ideal S4x6x196x64 .bf16) (ix4 tb h k d))
      = fun k => (V c main_v18 : S128x6x196x64.Idx → EReal) (ix4 (lead t tb) h k d) := funext fun k => iblk_2_apply V c t tb h k d
  rw [q0, q1, q2]

/-- An index of the result is in point `t`'s block iff each coordinate is in the block's range on its axis. -/
theorem mem_blk (t : Fin cfg1.N) (i : S128x6x196x64.Idx) :
    i ∈ ((cfg1.win 3).blk t).view.set ↔ ∀ a : Fin 4, win1_3.index t a * S4x6x196x64.size a ≤ (i a).val ∧ (i a).val < win1_3.index t a * S4x6x196x64.size a + S4x6x196x64.size a := by
  show i ∈ ((View.whole main_v19).slice (win1_3.rect t)).set ↔ _
  rw [View.set_slice_whole, Rect.mem_set_unit]
  exact Iff.rfl

/-- Every index of the result is in the block of the point that owns its leading position. -/
theorem cover (i : S128x6x196x64.Idx) : ∃ t : Fin cfg1.N, (cfg1.win 3).flush t = true ∧ i ∈ ((cfg1.win 3).blk t).view.set := by
  have hi0 : (i 0).val < 128 := (i 0).isLt
  have hi1 : (i 1).val < 6 := (i 1).isLt
  have hi2 : (i 2).val < 196 := (i 2).isLt
  have hi3 : (i 3).val < 64 := (i 3).isLt
  have ht : (i 0).val / 4 < cfg1.N := by rw [hN]; omega
  obtain ⟨e0, e1, e2, e3⟩ := idx_facts_3 ⟨(i 0).val / 4, ht⟩
  refine ⟨⟨(i 0).val / 4, ht⟩, flush1_3 _, ?_⟩
  rw [mem_blk]
  intro a
  match a with
  | ⟨0, _⟩ =>
    show win1_3.index ⟨(i 0).val / 4, ht⟩ 0 * 4 ≤ (i 0).val ∧ (i 0).val < win1_3.index ⟨(i 0).val / 4, ht⟩ 0 * 4 + 4
    rw [e0]; show (i 0).val / 4 * 4 ≤ (i 0).val ∧ (i 0).val < (i 0).val / 4 * 4 + 4; omega
  | ⟨1, _⟩ =>
    show win1_3.index ⟨(i 0).val / 4, ht⟩ 1 * 6 ≤ (i 1).val ∧ (i 1).val < win1_3.index ⟨(i 0).val / 4, ht⟩ 1 * 6 + 6
    rw [e1]; omega
  | ⟨2, _⟩ =>
    show win1_3.index ⟨(i 0).val / 4, ht⟩ 2 * 196 ≤ (i 2).val ∧ (i 2).val < win1_3.index ⟨(i 0).val / 4, ht⟩ 2 * 196 + 196
    rw [e2]; omega
  | ⟨3, _⟩ =>
    show win1_3.index ⟨(i 0).val / 4, ht⟩ 3 * 64 ≤ (i 3).val ∧ (i 3).val < win1_3.index ⟨(i 0).val / 4, ht⟩ 3 * 64 + 64
    rw [e3]; omega

/-- After the launch the result array holds the whole result of the operand arrays as the launch found them. -/
theorem final (c : Dev nD) :
    (dat1 (F := Ideal) V c).arrAt 3 cfg1.N = whole (V c main_v16) (V c main_v17) (V c main_v18) :=
  (dat1 (F := Ideal) V c).arrAt_eq_of_cover 3 (whole (V c main_v16) (V c main_v17) (V c main_v18))
    (fun t _ => flushed_eq V c t) cover

end Cert.KernelIdeal.RegionS

end
-- ==== Proof.AttnKT.lean ====
/-
  One launch of the attention kernel, read at an index. A block holds 56 leading positions of 6 heads; the body merges
  the two into 336 batch positions (position tb · 6 + h), takes per batch position the 16 × 16 scores
  (∑_d q · k) · scale, subtracts each row's maximum, exponentiates, divides by the row's sum, multiplies by the values
  and splits the batch positions again. Entry (tb, h, q, d) of what the body stores is therefore the attention entry
  of query row (tb, h, q) against the key rows (tb, h, ·) and the value column (tb, h, ·, d): `pay_apply`.
  A change of float format is the identity on the extended reals, so the roundings to the narrow format disappear.
-/
import proofs.«178978_j19473381720281_2_alg».proof.Proof.Gen.KernelIdeal.Skeleton
import proofs.«178978_j19473381720281_2_alg».proof.Proof.Spec
import Idealize.ShloMosaic.Lib.ValueIdx
import Idealize.ShloMosaic.Lib.Pipeline.Value
import Idealize.ShloMosaic.PureOps.Ideal.Laws

noncomputable section

namespace Cert.KernelIdeal.AttnKT

open Cert.KernelIdeal Cert.KernelIdeal.Gen Idealize.ShloMosaic Idealize.ShloMosaic.ValueIdx Cert.Attn

/-- The merged batch position of leading position `tb` and head `h`. -/
abbrev mg (tb : Fin 56) (h : Fin 6) : Fin 336 := ⟨tb.val * 6 + h.val, by have := tb.isLt; have := h.isLt; omega⟩

/-! ## The two re-groupings of the leading axes -/

/-- Merging (tb, h) into one axis keeps the row-major position: entry (tb · 6 + h, q, d) is entry (tb, h, q, d). -/
theorem castIn {α : Type} (x : S56x6x16x64.Idx → α) (hc : S56x6x16x64.ShapeCasts S336x16x64) (tb : Fin 56) (h : Fin 6) (q : Fin 16) (d : Fin 64) :
    shapeCast S336x16x64 x hc (ix3 (mg tb h) q d) = x (ix4 tb h q d) :=
  shapeCast_apply x hc (ix3 (mg tb h) q d) (ix4 tb h q d) (by
    rw [Shape.rowMajor_val_four, Shape.rowMajor_val_three]
    show ((tb.val * 6 + h.val) * 16 + q.val) * 64 + d.val = ((tb.val * 6 + h.val) * 16 + q.val) * 64 + d.val
    rfl)

/-- Splitting the merged axis again: entry (tb, h, q, d) is entry (tb · 6 + h, q, d). -/
theorem castOut {α : Type} (v : S336x16x64.Idx → α) (hc : S336x16x64.ShapeCasts S56x6x16x64) (tb : Fin 56) (h : Fin 6) (q : Fin 16) (d : Fin 64) :
    shapeCast S56x6x16x64 v hc (ix4 tb h q d) = v (ix3 (mg tb h) q d) :=
  shapeCast_apply v hc (ix4 tb h q d) (ix3 (mg tb h) q d) (by
    rw [Shape.rowMajor_val_four, Shape.rowMajor_val_three]
    show ((tb.val * 6 + h.val) * 16 + q.val) * 64 + d.val = ((tb.val * 6 + h.val) * 16 + q.val) * 64 + d.val
    rfl)

/-! ## The two batched products -/

/-- Where the two products read their operands, axis by axis. -/
theorem d1l0 (i : S336x16x16.Idx) (c : dot_S336x16x64_S336x16x64_S336x16x16_2_2_1_1_0_0.contr.Idx) : (dot_S336x16x64_S336x16x64_S336x16x16_2_2_1_1_0_0.lhsIdx i c 0).val = (i 0).val := by
  unfold DotDims.lhsIdx
  rw [dif_pos (show (0 : Fin S336x16x64.rank) ∈ dot_S336x16x64_S336x16x64_S336x16x16_2_2_1_1_0_0.lhsBatch by decide)]
  rfl
theorem d1l1 (i : S336x16x16.Idx) (c : dot_S336x16x64_S336x16x64_S336x16x16_2_2_1_1_0_0.contr.Idx) : (dot_S336x16x64_S336x16x64_S336x16x16_2_2_1_1_0_0.lhsIdx i c 1).val = (i 1).val := by
  unfold DotDims.lhsIdx
  rw [dif_neg (show ¬(1 : Fin S336x16x64.rank) ∈ dot_S336x16x64_S336x16x64_S336x16x16_2_2_1_1_0_0.lhsBatch by decide), dif_pos (show (1 : Fin S336x16x64.rank) ∈ dot_S336x16x64_S336x16x64_S336x16x16_2_2_1_1_0_0.lhsNonContracting by decide)]
  rfl
theorem d1l2 (i : S336x16x16.Idx) (c : dot_S336x16x64_S336x16x64_S336x16x16_2_2_1_1_0_0.contr.Idx) : (dot_S336x16x64_S336x16x64_S336x16x16_2_2_1_1_0_0.lhsIdx i c 2).val = (c ⟨0, by decide⟩).val :=
  dot_S336x16x64_S336x16x64_S336x16x16_2_2_1_1_0_0.lhsIdx_val_of_single rfl i c
theorem d1r0 (i : S336x16x16.Idx) (c : dot_S336x16x64_S336x16x64_S336x16x16_2_2_1_1_0_0.contr.Idx) : (dot_S336x16x64_S336x16x64_S336x16x16_2_2_1_1_0_0.rhsIdx i c 0).val = (i 0).val := by
  unfold DotDims.rhsIdx
  rw [dif_pos (show (0 : Fin S336x16x64.rank) ∈ dot_S336x16x64_S336x16x64_S336x16x16_2_2_1_1_0_0.rhsBatch by decide)]
  rfl
theorem d1r1 (i : S336x16x16.Idx) (c : dot_S336x16x64_S336x16x64_S336x16x16_2_2_1_1_0_0.contr.Idx) : (dot_S336x16x64_S336x16x64_S336x16x16_2_2_1_1_0_0.rhsIdx i c 1).val = (i 2).val := by
  unfold DotDims.rhsIdx
  rw [dif_neg (show ¬(1 : Fin S336x16x64.rank) ∈ dot_S336x16x64_S336x16x64_S336x16x16_2_2_1_1_0_0.rhsBatch by decide), dif_pos (show (1 : Fin S336x16x64.rank) ∈ dot_S336x16x64_S336x16x64_S336x16x16_2_2_1_1_0_0.rhsNonContracting by decide)]
  rfl
theorem d1r2 (i : S336x16x16.Idx) (c : dot_S336x16x64_S336x16x64_S336x16x16_2_2_1_1_0_0.contr.Idx) : (dot_S336x16x64_S336x16x64_S336x16x16_2_2_1_1_0_0.rhsIdx i c 2).val = (c ⟨0, by decide⟩).val :=
  dot_S336x16x64_S336x16x64_S336x16x16_2_2_1_1_0_0.rhsIdx_val_of_single rfl i c
theorem d2l0 (i : S336x16x64.Idx) (c : dot_S336x16x16_S336x16x64_S336x16x64_2_1_1_2_0_0.contr.Idx) : (dot_S336x16x16_S336x16x64_S336x16x64_2_1_1_2_0_0.lhsIdx i c 0).val = (i 0).val := by
  unfold DotDims.lhsIdx
  rw [dif_pos (show (0 : Fin S336x16x16.rank) ∈ dot_S336x16x16_S336x16x64_S336x16x64_2_1_1_2_0_0.lhsBatch by decide)]
  rfl
theorem d2l1 (i : S336x16x64.Idx) (c : dot_S336x16x16_S336x16x64_S336x16x64_2_1_1_2_0_0.contr.Idx) : (dot_S336x16x16_S336x16x64_S336x16x64_2_1_1_2_0_0.lhsIdx i c 1).val = (i 1).val := by
  unfold DotDims.lhsIdx
  rw [dif_neg (show ¬(1 : Fin S336x16x16.rank) ∈ dot_S336x16x16_S336x16x64_S336x16x64_2_1_1_2_0_0.lhsBatch by decide), dif_pos (show (1 : Fin S336x16x16.rank) ∈ dot_S336x16x16_S336x16x64_S336x16x64_2_1_1_2_0_0.lhsNonContracting by decide)]
  rfl
theorem d2l2 (i : S336x16x64.Idx) (c : dot_S336x16x16_S336x16x64_S336x16x64_2_1_1_2_0_0.contr.Idx) : (dot_S336x16x16_S336x16x64_S336x16x64_2_1_1_2_0_0.lhsIdx i c 2).val = (c ⟨0, by decide⟩).val :=
  dot_S336x16x16_S336x16x64_S336x16x64_2_1_1_2_0_0.lhsIdx_val_of_single rfl i c
theorem d2r0 (i : S336x16x64.Idx) (c : dot_S336x16x16_S336x16x64_S336x16x64_2_1_1_2_0_0.contr.Idx) : (dot_S336x16x16_S336x16x64_S336x16x64_2_1_1_2_0_0.rhsIdx i c 0).val = (i 0).val := by
  unfold DotDims.rhsIdx
  rw [dif_pos (show (0 : Fin S336x16x64.rank) ∈ dot_S336x16x16_S336x16x64_S336x16x64_2_1_1_2_0_0.rhsBatch by decide)]
  rfl
theorem d2r1 (i : S336x16x64.Idx) (c : dot_S336x16x16_S336x16x64_S336x16x64_2_1_1_2_0_0.contr.Idx) : (dot_S336x16x16_S336x16x64_S336x16x64_2_1_1_2_0_0.rhsIdx i c 1).val = (c ⟨0, by decide⟩).val :=
  dot_S336x16x16_S336x16x64_S336x16x64_2_1_1_2_0_0.rhsIdx_val_of_single rfl i c
theorem d2r2 (i : S336x16x64.Idx) (c : dot_S336x16x16_S336x16x64_S336x16x64_2_1_1_2_0_0.contr.Idx) : (dot_S336x16x16_S336x16x64_S336x16x64_2_1_1_2_0_0.rhsIdx i c 2).val = (i 2).val := by
  unfold DotDims.rhsIdx
  rw [dif_neg (show ¬(2 : Fin S336x16x64.rank) ∈ dot_S336x16x16_S336x16x64_S336x16x64_2_1_1_2_0_0.rhsBatch by decide), dif_pos (show (2 : Fin S336x16x64.rank) ∈ dot_S336x16x16_S336x16x64_S336x16x64_2_1_1_2_0_0.rhsNonContracting by decide)]
  rfl

/-- Scores: entry (g, q, k) of the product of queries and keys, both contracted on their last axis, is ∑_d l (g, q, d) · r (g, k, d). -/
theorem dot1_apply (l r : FVec Ideal S336x16x64 .bf16) (g : Fin 336) (q k : Fin 16) :
    matmul dot_S336x16x64_S336x16x64_S336x16x16_2_2_1_1_0_0 none l r (constant S336x16x16 .f32 0x00000000#32) (ix3 g q k)
      = ∑ dd : Fin 64, l (ix3 g q dd) * r (ix3 g k dd) := by
  show FloatOps.matmul dot_S336x16x64_S336x16x64_S336x16x16_2_2_1_1_0_0 none l r (constant S336x16x16 .f32 0x00000000#32) (ix3 g q k) = _
  rw [Ideal.matmul_constant_zero_apply, ← Equiv.sum_comp (contrEquiv1 dot_S336x16x64_S336x16x64_S336x16x16_2_2_1_1_0_0 64 rfl rfl).symm]
  refine Finset.sum_congr rfl fun dd _ => ?_
  have hk := contrEquiv1_symm_val dot_S336x16x64_S336x16x64_S336x16x16_2_2_1_1_0_0 64 rfl rfl dd
  have el : dot_S336x16x64_S336x16x64_S336x16x16_2_2_1_1_0_0.lhsIdx (ix3 g q k) ((contrEquiv1 dot_S336x16x64_S336x16x64_S336x16x16_2_2_1_1_0_0 64 rfl rfl).symm dd) = ix3 g q dd := funext fun a => Fin.ext (by
    match a with
    | ⟨0, _⟩ => exact d1l0 _ _
    | ⟨1, _⟩ => exact d1l1 _ _
    | ⟨2, _⟩ => exact (d1l2 _ _).trans hk)
  have er : dot_S336x16x64_S336x16x64_S336x16x16_2_2_1_1_0_0.rhsIdx (ix3 g q k) ((contrEquiv1 dot_S336x16x64_S336x16x64_S336x16x16_2_2_1_1_0_0 64 rfl rfl).symm dd) = ix3 g k dd := funext fun a => Fin.ext (by
    match a with
    | ⟨0, _⟩ => exact d1r0 _ _
    | ⟨1, _⟩ => exact d1r1 _ _
    | ⟨2, _⟩ => exact (d1r2 _ _).trans hk)
  rw [el, er]

/-- Output: entry (g, q, d) of the product of weights and values is ∑_k l (g, q, k) · r (g, k, d). -/
theorem dot2_apply (l : FVec Ideal S336x16x16 .bf16) (r : FVec Ideal S336x16x64 .bf16) (g : Fin 336) (q : Fin 16) (d : Fin 64) :
    matmul dot_S336x16x16_S336x16x64_S336x16x64_2_1_1_2_0_0 none l r (constant S336x16x64 .f32 0x00000000#32) (ix3 g q d)
      = ∑ k : Fin 16, l (ix3 g q k) * r (ix3 g k d) := by
  show FloatOps.matmul dot_S336x16x16_S336x16x64_S336x16x64_2_1_1_2_0_0 none l r (constant S336x16x64 .f32 0x00000000#32) (ix3 g q d) = _
  rw [Ideal.matmul_constant_zero_apply, ← Equiv.sum_comp (contrEquiv1 dot_S336x16x16_S336x16x64_S336x16x64_2_1_1_2_0_0 16 rfl rfl).symm]
  refine Finset.sum_congr rfl fun k _ => ?_
  have hk := contrEquiv1_symm_val dot_S336x16x16_S336x16x64_S336x16x64_2_1_1_2_0_0 16 rfl rfl k
  have el : dot_S336x16x16_S336x16x64_S336x16x64_2_1_1_2_0_0.lhsIdx (ix3 g q d) ((contrEquiv1 dot_S336x16x16_S336x16x64_S336x16x64_2_1_1_2_0_0 16 rfl rfl).symm k) = ix3 g q k := funext fun a => Fin.ext (by
    match a with
    | ⟨0, _⟩ => exact d2l0 _ _
    | ⟨1, _⟩ => exact d2l1 _ _
    | ⟨2, _⟩ => exact (d2l2 _ _).trans hk)
  have er : dot_S336x16x16_S336x16x64_S336x16x64_2_1_1_2_0_0.rhsIdx (ix3 g q d) ((contrEquiv1 dot_S336x16x16_S336x16x64_S336x16x64_2_1_1_2_0_0 16 rfl rfl).symm k) = ix3 g k d := funext fun a => Fin.ext (by
    match a with
    | ⟨0, _⟩ => exact d2r0 _ _
    | ⟨1, _⟩ => exact (d2r1 _ _).trans hk
    | ⟨2, _⟩ => exact d2r2 _ _)
  rw [el, er]

/-! ## A row statistic kept as a column and laid back along the row -/

/-- The reduced index (g, q) with position k of the reduced axis put back is (g, q, k). -/
theorem lift_row (hr : S336x16x16.Reduces [2] S336x16) (g : Fin 336) (q : Fin 16) (k : Fin (S336x16x16.size 2)) :
    hr.lift (ix2 g q) k = ix3 g q (⟨k.val, k.isLt⟩ : Fin 16) := by
  funext c; apply Fin.ext
  fin_cases c <;> rfl

/-- A per-row value kept as a trailing unit axis and broadcast along the row is that value at every position of the row. -/
theorem column_apply {α : Type} (v : S336x16.Idx → α) (hc : S336x16.ShapeCasts S336x16x1) (hb : S336x16x1.Broadcasts S336x16x16)
    (g : Fin 336) (q k : Fin 16) : broadcastTo S336x16x16 (shapeCast S336x16x1 v hc) hb (ix3 g q k) = v (ix2 g q) := by
  refine (broadcastTo_apply (shapeCast S336x16x1 v hc) hb (ix3 g q k) (ix3 g q (0 : Fin 1)) fun a => ?_).trans ?_
  · match a with
    | ⟨0, _⟩ => rfl
    | ⟨1, _⟩ => rfl
    | ⟨2, _⟩ => rfl
  · exact shapeCast_apply v hc (ix3 g q (0 : Fin 1)) (ix2 g q) (by
      rw [Shape.rowMajor_val_two, Shape.rowMajor_val_three]
      show g.val * 16 + q.val = (g.val * 16 + q.val) * 1 + 0
      omega)

/-! ## The body's stages, as the payload spells them -/

/-- The scaled scores of a block. -/
def scoresK (qv kv : FVec Ideal S336x16x64 .bf16) : FVec Ideal S336x16x16 .f32 :=
  mulf (matmul dot_S336x16x64_S336x16x64_S336x16x16_2_2_1_1_0_0 none qv kv (constant S336x16x16 .f32 0x00000000#32))
    (broadcast S336x16x16 (Scalar.ofBits (F := Ideal) .f32 0x3E000000#32))

/-- The rows' maxima. -/
def rowMaxK (s : FVec Ideal S336x16x16 .f32) : FVec Ideal S336x16 .f32 :=
  maximumf (broadcast S336x16 (Scalar.ofBits (F := Ideal) .f32 0xFF800000#32))
    (multiReduction .maximumf [2] S336x16 s 0xFF800000#32 reduces_S336x16x16_S336x16 (.inl rfl) rfl)

/-- The exponentials of the scores shifted by their row's maximum. -/
def expK (s : FVec Ideal S336x16x16 .f32) : FVec Ideal S336x16x16 .f32 :=
  exp (subf s (broadcastTo S336x16x16 (shapeCast S336x16x1 (rowMaxK s) shapeCasts_S336x16_S336x16x1) broadcasts_S336x16x1_S336x16x16))

/-- The normalised weights. -/
def probK (e : FVec Ideal S336x16x16 .f32) : FVec Ideal S336x16x16 .f32 :=
  divf e (broadcastTo S336x16x16 (shapeCast S336x16x1 (multiReduction .add [2] S336x16 e 0x00000000#32 reduces_S336x16x16_S336x16 (.inl rfl) rfl)
    shapeCasts_S336x16_S336x16x1) broadcasts_S336x16x1_S336x16x16)

/-- The payload is these stages composed between the two re-groupings. -/
theorem pay_eq (x0 x1 x2 : FVec Ideal S56x6x16x64 .bf16) :
    k2_pay1 (F := Ideal) x0 x1 x2 = truncf .bf16 (shapeCast S56x6x16x64 (matmul dot_S336x16x16_S336x16x64_S336x16x64_2_1_1_2_0_0 none
      (truncf .bf16 (probK (expK (scoresK
        (shapeCast S336x16x64 (shapeCast S56x6x16x64 x0 shapeCasts_S56x6x16x64_S56x6x16x64) shapeCasts_S56x6x16x64_S336x16x64)
        (shapeCast S336x16x64 (shapeCast S56x6x16x64 x1 shapeCasts_S56x6x16x64_S56x6x16x64) shapeCasts_S56x6x16x64_S336x16x64)))) bitsLt_bf16_f32)
      (shapeCast S336x16x64 (shapeCast S56x6x16x64 x2 shapeCasts_S56x6x16x64_S56x6x16x64) shapeCasts_S56x6x16x64_S336x16x64)
      (constant S336x16x64 .f32 0x00000000#32)) shapeCasts_S336x16x64_S56x6x16x64) bitsLt_bf16_f32 := rfl

/-! ## Each stage at an index -/

theorem scoresK_apply (qv kv : FVec Ideal S336x16x64 .bf16) (g : Fin 336) (q k : Fin 16) :
    scoresK qv kv (ix3 g q k)
      = score (Ideal.ofBits .f32 0x3E000000#32) (fun dd => qv (ix3 g q dd)) (fun dd => kv (ix3 g k dd)) := by
  unfold scoresK score
  refine (mulf_apply _ _ _).trans ?_
  rw [dot1_apply]
  rfl

theorem rowMaxK_apply (s : FVec Ideal S336x16x16 .f32) (g : Fin 336) (q : Fin 16) :
    rowMaxK s (ix2 g q) = rowMax (Ideal.ofBits .f32 0xFF800000#32) (fun k => s (ix3 g q k)) := by
  unfold rowMaxK rowMax
  refine (maximumf_apply _ _ _).trans ?_
  refine congrArg (max (Ideal.ofBits .f32 0xFF800000#32)) ?_
  refine (Ideal.multiReduction_maximumf_single s 0xFF800000#32 reduces_S336x16x16_S336x16 (.inl rfl) rfl (ix2 g q)).trans ?_
  have hf : (s ∘ reduces_S336x16x16_S336x16.lift (ix2 g q)) = fun k : Fin 16 => s (ix3 g q k) :=
    funext fun k => congrArg s (lift_row reduces_S336x16x16_S336x16 g q k)
  rw [hf]
  rfl

theorem expK_apply (s : FVec Ideal S336x16x16 .f32) (g : Fin 336) (q k : Fin 16) :
    expK s (ix3 g q k) = expRow (Ideal.ofBits .f32 0xFF800000#32) (fun k' => s (ix3 g q k')) k := by
  unfold expK expRow
  show Ideal.exp (s (ix3 g q k) - broadcastTo S336x16x16 (shapeCast S336x16x1 (rowMaxK s) shapeCasts_S336x16_S336x16x1) broadcasts_S336x16x1_S336x16x16 (ix3 g q k)) = _
  rw [column_apply, rowMaxK_apply]

theorem probK_apply (e : FVec Ideal S336x16x16 .f32) (g : Fin 336) (q k : Fin 16) :
    probK e (ix3 g q k) = Ideal.div (e (ix3 g q k)) (∑ k' : Fin 16, e (ix3 g q k')) := by
  unfold probK
  refine (divf_apply _ _ _).trans ?_
  refine congrArg (Ideal.div (e (ix3 g q k))) ?_
  refine (column_apply _ _ _ g q k).trans ?_
  refine (Ideal.multiReduction_add_single e 0x00000000#32 reduces_S336x16x16_S336x16 (.inl rfl) rfl (ix2 g q)).trans ?_
  exact Finset.sum_congr rfl fun k' _ => congrArg e (lift_row reduces_S336x16x16_S336x16 g q k')

/-! ## The stored block at an index -/

/-- Entry (tb, h, q, d) of what the body stores is the attention entry of query row (tb, h, q) against the key rows
    (tb, h, ·) and the value column (tb, h, ·, d) of the three loaded blocks. -/
theorem pay_apply (x0 x1 x2 : FVec Ideal S56x6x16x64 .bf16) (tb : Fin 56) (h : Fin 6) (q : Fin 16) (d : Fin 64) :
    (k2_pay1 (F := Ideal) x0 x1 x2 : S56x6x16x64.Idx → EReal) (ix4 tb h q d)
      = attnOut (Ideal.ofBits .f32 0xFF800000#32) (Ideal.ofBits .f32 0x3E000000#32)
          (fun dd => x0 (ix4 tb h q dd)) (fun k dd => x1 (ix4 tb h k dd)) (fun k => x2 (ix4 tb h k d)) := by
  rw [pay_eq]
  refine (truncf_apply (s := S56x6x16x64) (φ := .f32) (ψ := .bf16) _ bitsLt_bf16_f32 (ix4 tb h q d)).trans ?_
  refine (castOut _ _ tb h q d).trans ?_
  refine (dot2_apply _ _ (mg tb h) q d).trans ?_
  unfold attnOut
  refine Finset.sum_congr rfl fun k _ => ?_
  have hs : ∀ k' : Fin 16, scoresK
        (shapeCast S336x16x64 (shapeCast S56x6x16x64 x0 shapeCasts_S56x6x16x64_S56x6x16x64) shapeCasts_S56x6x16x64_S336x16x64)
        (shapeCast S336x16x64 (shapeCast S56x6x16x64 x1 shapeCasts_S56x6x16x64_S56x6x16x64) shapeCasts_S56x6x16x64_S336x16x64) (ix3 (mg tb h) q k')
      = score (Ideal.ofBits .f32 0x3E000000#32) (fun dd => x0 (ix4 tb h q dd)) (fun dd => x1 (ix4 tb h k' dd)) := fun k' => by
    rw [scoresK_apply]
    refine congrArg₂ (score (Ideal.ofBits .f32 0x3E000000#32)) (funext fun dd => ?_) (funext fun dd => ?_)
    · rw [shapeCast_self]; exact castIn x0 _ tb h q dd
    · rw [shapeCast_self]; exact castIn x1 _ tb h k' dd
  have he : ∀ k' : Fin 16, expK (scoresK
        (shapeCast S336x16x64 (shapeCast S56x6x16x64 x0 shapeCasts_S56x6x16x64_S56x6x16x64) shapeCasts_S56x6x16x64_S336x16x64)
        (shapeCast S336x16x64 (shapeCast S56x6x16x64 x1 shapeCasts_S56x6x16x64_S56x6x16x64) shapeCasts_S56x6x16x64_S336x16x64)) (ix3 (mg tb h) q k')
      = expRow (Ideal.ofBits .f32 0xFF800000#32)
          (fun k'' => score (Ideal.ofBits .f32 0x3E000000#32) (fun dd => x0 (ix4 tb h q dd)) (fun dd => x1 (ix4 tb h k'' dd))) k' := fun k' => by
    rw [expK_apply]
    exact congrArg (fun s => expRow (Ideal.ofBits .f32 0xFF800000#32) s k') (funext hs)
  refine congrArg₂ (· * ·) ?_ ?_
  · refine (truncf_apply (s := S336x16x16) (φ := .f32) (ψ := .bf16) _ bitsLt_bf16_f32 (ix3 (mg tb h) q k)).trans ?_
    rw [probK_apply, he k]
    exact congrArg (Ideal.div _) (Finset.sum_congr rfl fun k' _ => he k')
  · rw [shapeCast_self]; exact castIn x2 _ tb h k d

end Cert.KernelIdeal.AttnKT

end
-- ==== Proof.RegionT.lean ====
/-
  The attention launch as one function of its three operand arrays. The grid walks the leading axis in steps of 56:
  point `t` reads leading positions 56·t … 56·t + 55 of each operand (all heads, rows and columns) and writes the same
  positions of the result, so the 28 points' blocks tile the result and each entry (n, h, q, d) is written once, by point
  n / 56, with the attention entry of query row (n, h, q) against key rows (n, h, ·) and value column (n, h, ·, d).
-/
import proofs.«178978_j19473381720281_2_alg».proof.Proof.Gen.KernelIdeal.Frame
import proofs.«178978_j19473381720281_2_alg».proof.Proof.AttnKT
import Idealize.ShloMosaic.Lib.Pipeline.Value

set_option maxRecDepth 16384

noncomputable section

namespace Cert.KernelIdeal.RegionT

open Cert.KernelIdeal Cert.KernelIdeal.Gen Idealize.ShloMosaic Idealize.ShloMosaic.TcCoe Idealize.ShloMosaic.ValueIdx Idealize.SL.Sem Cert.Attn
open Idealize.ShloMosaic.Pipeline (Dat)

variable (V : (c : Dev nD) → (b : Ref sig .tc) → Buf (Elt Ideal) ((c : Thread nD τ).loc b))

theorem hz : (![0, 0, 0, 0] : Fin 4 → Nat) = fun _ => 0 := funext fun a => by fin_cases a <;> rfl

theorem hN : cfg2.N = 28 := N_2

/-- The leading position of entry `tb` of point `t`'s block. -/
abbrev lead (t : Fin cfg2.N) (tb : Fin 56) : Fin 1568 :=
  ⟨56 * t.val + tb.val, by have := lt_of_lt_of_eq t.isLt hN; have := tb.isLt; omega⟩

/-- The whole result: the attention entry at every index, of the three operand arrays. -/
def whole (A0 A1 A2 : S1568x6x16x64.Idx → EReal) : S1568x6x16x64.Idx → EReal := fun i =>
  attnOut (Ideal.ofBits .f32 0xFF800000#32) (Ideal.ofBits .f32 0x3E000000#32)
    (fun dd => A0 (ix4 (⟨(i 0).val, (i 0).isLt⟩ : Fin 1568) (⟨(i 1).val, (i 1).isLt⟩ : Fin 6) (⟨(i 2).val, (i 2).isLt⟩ : Fin 16) dd))
    (fun k dd => A1 (ix4 (⟨(i 0).val, (i 0).isLt⟩ : Fin 1568) (⟨(i 1).val, (i 1).isLt⟩ : Fin 6) k dd))
    (fun k => A2 (ix4 (⟨(i 0).val, (i 0).isLt⟩ : Fin 1568) (⟨(i 1).val, (i 1).isLt⟩ : Fin 6) k (⟨(i 3).val, (i 3).isLt⟩ : Fin 64)))

/-! ## The index maps over the grid -/

theorem idx_facts_0 : ∀ t : Fin cfg2.N, win2_0.index t 0 = t.val ∧ win2_0.index t 1 = 0 ∧ win2_0.index t 2 = 0 ∧ win2_0.index t 3 = 0 :=
  (by decide +kernel : ∀ t : Fin grid2.N, _)
theorem idx_facts_1 : ∀ t : Fin cfg2.N, win2_1.index t 0 = t.val ∧ win2_1.index t 1 = 0 ∧ win2_1.index t 2 = 0 ∧ win2_1.index t 3 = 0 :=
  (by decide +kernel : ∀ t : Fin grid2.N, _)
theorem idx_facts_2 : ∀ t : Fin cfg2.N, win2_2.index t 0 = t.val ∧ win2_2.index t 1 = 0 ∧ win2_2.index t 2 = 0 ∧ win2_2.index t 3 = 0 :=
  (by decide +kernel : ∀ t : Fin grid2.N, _)
theorem idx_facts_3 : ∀ t : Fin cfg2.N, win2_3.index t 0 = t.val ∧ win2_3.index t 1 = 0 ∧ win2_3.index t 2 = 0 ∧ win2_3.index t 3 = 0 :=
  (by decide +kernel : ∀ t : Fin grid2.N, _)

/-! ## The operand blocks -/

/-- Input window 0's block at point `t` is leading positions 56·t … 56·t + 55 of its array. -/
theorem iblk_0_apply (c : Dev nD) (t : Fin cfg2.N) (tb : Fin 56) (h : Fin 6) (q : Fin 16) (d : Fin 64) :
    (iblk2 V c 0 t : FVec Ideal S56x6x16x64 .bf16) (ix4 tb h q d)
      = (V c main_v20 : S1568x6x16x64.Idx → EReal) (ix4 (lead t tb) h q d) := by
  obtain ⟨e0, e1, e2, e3⟩ := idx_facts_0 t
  unfold iblk2
  rw [View.read_apply]
  show V c main_v20 _ = V c main_v20 _
  refine congrArg (V c main_v20) (funext fun a => Fin.ext ?_)
  match a with
  | ⟨0, _⟩ => show win2_0.index t 0 * 56 + 1 * tb.val = 56 * t.val + tb.val; rw [e0]; omega
  | ⟨1, _⟩ => show win2_0.index t 1 * 6 + 1 * h.val = h.val; rw [e1]; omega
  | ⟨2, _⟩ => show win2_0.index t 2 * 16 + 1 * q.val = q.val; rw [e2]; omega
  | ⟨3, _⟩ => show win2_0.index t 3 * 64 + 1 * d.val = d.val; rw [e3]; omega

/-- Input window 1's block at point `t` is leading positions 56·t … 56·t + 55 of its array. -/
theorem iblk_1_apply (c : Dev nD) (t : Fin cfg2.N) (tb : Fin 56) (h : Fin 6) (q : Fin 16) (d : Fin 64) :
    (iblk2 V c 1 t : FVec Ideal S56x6x16x64 .bf16) (ix4 tb h q d)
      = (V c main_v21 : S1568x6x16x64.Idx → EReal) (ix4 (lead t tb) h q d) := by
  obtain ⟨e0, e1, e2, e3⟩ := idx_facts_1 t
  unfold iblk2
  rw [View.read_apply]
  show V c main_v21 _ = V c main_v21 _
  refine congrArg (V c main_v21) (funext fun a => Fin.ext ?_)
  match a with
  | ⟨0, _⟩ => show win2_1.index t 0 * 56 + 1 * tb.val = 56 * t.val + tb.val; rw [e0]; omega
  | ⟨1, _⟩ => show win2_1.index t 1 * 6 + 1 * h.val = h.val; rw [e1]; omega
  | ⟨2, _⟩ => show win2_1.index t 2 * 16 + 1 * q.val = q.val; rw [e2]; omega
  | ⟨3, _⟩ => show win2_1.index t 3 * 64 + 1 * d.val = d.val; rw [e3]; omega

/-- Input window 2's block at point `t` is leading positions 56·t … 56·t + 55 of its array. -/
theorem iblk_2_apply (c : Dev nD) (t : Fin cfg2.N) (tb : Fin 56) (h : Fin 6) (q : Fin 16) (d : Fin 64) :
    (iblk2 V c 2 t : FVec Ideal S56x6x16x64 .bf16) (ix4 tb h q d)
      = (V c main_v22 : S1568x6x16x64.Idx → EReal) (ix4 (lead t tb) h q d) := by
  obtain ⟨e0, e1, e2, e3⟩ := idx_facts_2 t
  unfold iblk2
  rw [View.read_apply]
  show V c main_v22 _ = V c main_v22 _
  refine congrArg (V c main_v22) (funext fun a => Fin.ext ?_)
  match a with
  | ⟨0, _⟩ => show win2_2.index t 0 * 56 + 1 * tb.val = 56 * t.val + tb.val; rw [e0]; omega
  | ⟨1, _⟩ => show win2_2.index t 1 * 6 + 1 * h.val = h.val; rw [e1]; omega
  | ⟨2, _⟩ => show win2_2.index t 2 * 16 + 1 * q.val = q.val; rw [e2]; omega
  | ⟨3, _⟩ => show win2_2.index t 3 * 64 + 1 * d.val = d.val; rw [e3]; omega

/-! ## What a point writes back, the cover, the array -/

/-- Point `t` writes back block `t` of the whole result. -/
theorem flushed_eq (c : Dev nD) (t : Fin cfg2.N) :
    (dat2 (F := Ideal) V c).flushed 3 t
      = ((cfg2.win 3).blk t).view.read (Elt Ideal) (whole (V c main_v20) (V c main_v21) (V c main_v22)) := by
  show (cfg2.win 3).cut (grid2.coords t) ((dat2 (F := Ideal) V c).after 3 t) = _
  rw [after2_3]
  unfold out2_3
  rw [View.canon_unit_zero hz]
  simp only [View.ld_unit_zero (S := S56x6x16x64) hz]
  obtain ⟨e0, e1, e2, e3⟩ := idx_facts_3 t
  funext y
  show k2_pay1 (iblk2 V c 0 t) (iblk2 V c 1 t) (iblk2 V c 2 t) y
    = whole (V c main_v20) (V c main_v21) (V c main_v22) (((cfg2.win 3).blk t).view.emb y)
  obtain ⟨tb, h, q, d, rfl⟩ : ∃ (tb : Fin 56) (h : Fin 6) (q : Fin 16) (d : Fin 64), y = ix4 tb h q d :=
    ⟨y 0, y 1, y 2, y 3, eq_ix4 y⟩
  refine (AttnKT.pay_apply (iblk2 V c 0 t) (iblk2 V c 1 t) (iblk2 V c 2 t) tb h q d).trans ?_
  have hemb : ((cfg2.win 3).blk t).view.emb (ix4 tb h q d) = (ix4 (lead t tb) h q d : S1568x6x16x64.Idx) := funext fun a => Fin.ext (by
    match a with
    | ⟨0, _⟩ => show win2_3.index t 0 * 56 + 1 * tb.val = 56 * t.val + tb.val; rw [e0]; omega
    | ⟨1, _⟩ => show win2_3.index t 1 * 6 + 1 * h.val = h.val; rw [e1]; omega
    | ⟨2, _⟩ => show win2_3.index t 2 * 16 + 1 * q.val = q.val; rw [e2]; omega
    | ⟨3, _⟩ => show win2_3.index t 3 * 64 + 1 * d.val = d.val; rw [e3]; omega)
  rw [hemb]
  unfold whole
  have q0 : (fun dd => (iblk2 V c 0 t : FVec Ideal S56x6x16x64 .bf16) (ix4 tb h q dd))
      = fun dd => (V c main_v20 : S1568x6x16x64.Idx → EReal) (ix4 (lead t tb) h q dd) := funext fun dd => iblk_0_apply V c t tb h q dd
  have q1 : (fun k dd => (iblk2 V c 1 t : FVec Ideal S56x6x16x64 .bf16) (ix4 tb h k dd))
      = fun k dd => (V c main_v21 : S1568x6x16x64.Idx → EReal) (ix4 (lead t tb) h k dd) := funext fun k => funext fun dd => iblk_1_apply V c t tb h k dd
  have q2 : (fun k => (iblk2 V c 2 t : FVec Ideal S56x6x16x64 .bf16) (ix4 tb h k d))
      = fun k => (V c main_v22 : S1568x6x16x64.Idx → EReal) (ix4 (lead t tb) h k d) := funext fun k => iblk_2_apply V c t tb h k d
  rw [q0, q1, q2]

/-- An index of the result is in point `t`'s block iff each coordinate is in the block's range on its axis. -/
theorem mem_blk (t : Fin cfg2.N) (i : S1568x6x16x64.Idx) :
    i ∈ ((cfg2.win 3).blk t).view.set ↔ ∀ a : Fin 4, win2_3.index t a * S56x6x16x64.size a ≤ (i a).val ∧ (i a).val < win2_3.index t a * S56x6x16x64.size a + S56x6x16x64.size a := by
  show i ∈ ((View.whole main_v23).slice (win2_3.rect t)).set ↔ _
  rw [View.set_slice_whole, Rect.mem_set_unit]
  exact Iff.rfl

/-- Every index of the result is in the block of the point that owns its leading position. -/
theorem cover (i : S1568x6x16x64.Idx) : ∃ t : Fin cfg2.N, (cfg2.win 3).flush t = true ∧ i ∈ ((cfg2.win 3).blk t).view.set := by
  have hi0 : (i 0).val < 1568 := (i 0).isLt
  have hi1 : (i 1).val < 6 := (i 1).isLt
  have hi2 : (i 2).val < 16 := (i 2).isLt
  have hi3 : (i 3).val < 64 := (i 3).isLt
  have ht : (i 0).val / 56 < cfg2.N := by rw [hN]; omega
  obtain ⟨e0, e1, e2, e3⟩ := idx_facts_3 ⟨(i 0).val / 56, ht⟩
  refine ⟨⟨(i 0).val / 56, ht⟩, flush2_3 _, ?_⟩
  rw [mem_blk]
  intro a
  match a with
  | ⟨0, _⟩ =>
    show win2_3.index ⟨(i 0).val / 56, ht⟩ 0 * 56 ≤ (i 0).val ∧ (i 0).val < win2_3.index ⟨(i 0).val / 56, ht⟩ 0 * 56 + 56
    rw [e0]; show (i 0).val / 56 * 56 ≤ (i 0).val ∧ (i 0).val < (i 0).val / 56 * 56 + 56; omega
  | ⟨1, _⟩ =>
    show win2_3.index ⟨(i 0).val / 56, ht⟩ 1 * 6 ≤ (i 1).val ∧ (i 1).val < win2_3.index ⟨(i 0).val / 56, ht⟩ 1 * 6 + 6
    rw [e1]; omega
  | ⟨2, _⟩ =>
    show win2_3.index ⟨(i 0).val / 56, ht⟩ 2 * 16 ≤ (i 2).val ∧ (i 2).val < win2_3.index ⟨(i 0).val / 56, ht⟩ 2 * 16 + 16
    rw [e2]; omega
  | ⟨3, _⟩ =>
    show win2_3.index ⟨(i 0).val / 56, ht⟩ 3 * 64 ≤ (i 3).val ∧ (i 3).val < win2_3.index ⟨(i 0).val / 56, ht⟩ 3 * 64 + 64
    rw [e3]; omega

/-- After the launch the result array holds the whole result of the operand arrays as the launch found them. -/
theorem final (c : Dev nD) :
    (dat2 (F := Ideal) V c).arrAt 3 cfg2.N = whole (V c main_v20) (V c main_v21) (V c main_v22) :=
  (dat2 (F := Ideal) V c).arrAt_eq_of_cover 3 (whole (V c main_v20) (V c main_v21) (V c main_v22))
    (fun t _ => flushed_eq V c t) cover

end Cert.KernelIdeal.RegionT

end
-- ==== Proof.AttnRS.lean ====
/-
  The reference's attention, read at an index: scores (∑_d q · k) · scale over a 128 × 6 batch, each row's maximum
  subtracted, the exponentials divided by their row's sum, the weights against the values. Entry (n, h, q, d) of the
  result is the attention entry of query row (n, h, q) against the key rows (n, h, ·) and the value column (n, h, ·, d)
  of the three operand arrays: `out_apply`. The reference's sum starts from the zero word, which adds nothing.
-/
import proofs.«178978_j19473381720281_2_alg».proof.Proof.RefRead
import proofs.«178978_j19473381720281_2_alg».proof.Proof.Spec
import Idealize.ShloMosaic.Lib.ValueIdx
import Idealize.ShloMosaic.PureOps.Ideal.Laws

noncomputable section

namespace Cert.ReferenceIdeal.AttnRS

open Cert.ReferenceIdeal Cert.ReferenceIdeal.Gen Cert.ReferenceIdeal.Read Idealize.ShloMosaic Idealize.ShloMosaic.ValueIdx Cert.Attn

/-! ## The operations' index maps at coordinates -/

theorem l1 (n : Fin 128) (h : Fin 6) (q k : Fin 196) (dd : Fin 64) : lidx_main_v19 (ix4 n h q k) dd = ix4 n h q dd := funext fun a => Fin.ext (by match a with | ⟨0, _⟩ => rfl | ⟨1, _⟩ => rfl | ⟨2, _⟩ => rfl | ⟨3, _⟩ => rfl)
theorem r1 (n : Fin 128) (h : Fin 6) (q k : Fin 196) (dd : Fin 64) : ridx_main_v19 (ix4 n h q k) dd = ix4 n h k dd := funext fun a => Fin.ext (by match a with | ⟨0, _⟩ => rfl | ⟨1, _⟩ => rfl | ⟨2, _⟩ => rfl | ⟨3, _⟩ => rfl)
theorem l2 (n : Fin 128) (h : Fin 6) (q : Fin 196) (d : Fin 64) (k : Fin 196) : lidx_main_v33 (ix4 n h q d) k = ix4 n h q k := funext fun a => Fin.ext (by match a with | ⟨0, _⟩ => rfl | ⟨1, _⟩ => rfl | ⟨2, _⟩ => rfl | ⟨3, _⟩ => rfl)
theorem r2 (n : Fin 128) (h : Fin 6) (q : Fin 196) (d : Fin 64) (k : Fin 196) : ridx_main_v33 (ix4 n h q d) k = ix4 n h k d := funext fun a => Fin.ext (by match a with | ⟨0, _⟩ => rfl | ⟨1, _⟩ => rfl | ⟨2, _⟩ => rfl | ⟨3, _⟩ => rfl)
theorem colM (n : Fin 128) (h : Fin 6) (q k : Fin 196) : idx_main_v25 (idx_main_v26 (ix4 n h q k)) = ix3 n h q := funext fun a => Fin.ext (by match a with | ⟨0, _⟩ => rfl | ⟨1, _⟩ => rfl | ⟨2, _⟩ => rfl)
theorem colS (n : Fin 128) (h : Fin 6) (q k : Fin 196) : idx_main_v30 (idx_main_v31 (ix4 n h q k)) = ix3 n h q := funext fun a => Fin.ext (by match a with | ⟨0, _⟩ => rfl | ⟨1, _⟩ => rfl | ⟨2, _⟩ => rfl)
theorem sumI (n : Fin 128) (h : Fin 6) (q k : Fin 196) : idx_main_v29 (ix3 n h q) k = ix4 n h q k := funext fun a => Fin.ext (by match a with | ⟨0, _⟩ => rfl | ⟨1, _⟩ => rfl | ⟨2, _⟩ => rfl | ⟨3, _⟩ => rfl)

/-- The reduced index (n, h, q) with position k of the reduced axis put back is (n, h, q, k). -/
theorem lift_row (hr : S128x6x196x196.Reduces [3] S128x6x196) (n : Fin 128) (h : Fin 6) (q : Fin 196) (k : Fin (S128x6x196x196.size 3)) :
    hr.lift (ix3 n h q) k = ix4 n h q (⟨k.val, k.isLt⟩ : Fin 196) := by
  funext c; apply Fin.ext
  fin_cases c <;> rfl

/-! ## Each stage at an index -/

theorem scores_apply (x0 : (⟨S8x16x196x768, .f32⟩ : BufTy).Contents (Elt Ideal)) (x1 : (⟨S2304x768, .f32⟩ : BufTy).Contents (Elt Ideal)) (n : Fin 128) (h : Fin 6) (q k : Fin 196) :
    val_main_v21 (F := Ideal) x0 x1 (ix4 n h q k)
      = score (Ideal.ofBits .f32 0x3E000000#32) (fun dd => val_main_v16 (F := Ideal) x0 x1 (ix4 n h q dd)) (fun dd => val_main_v17 (F := Ideal) x0 x1 (ix4 n h k dd)) := by
  rw [val_main_v21_apply, val_main_v19_apply, val_main_v20_apply, val_main_cst_apply]
  unfold score
  refine congrArg₂ (· * ·) (Finset.sum_congr rfl fun dd _ => ?_) rfl
  rw [l1, r1]

theorem rowMax_apply (x0 : (⟨S8x16x196x768, .f32⟩ : BufTy).Contents (Elt Ideal)) (x1 : (⟨S2304x768, .f32⟩ : BufTy).Contents (Elt Ideal)) (n : Fin 128) (h : Fin 6) (q : Fin 196) :
    val_main_v24 (F := Ideal) x0 x1 (ix3 n h q)
      = rowMax (Ideal.ofBits .f32 0xFF800000#32) (fun k => val_main_v21 (F := Ideal) x0 x1 (ix4 n h q k)) := by
  rw [val_main_v24_apply, val_main_v23_apply, val_main_cst_1_apply]
  unfold rowMax
  refine congrArg (max (Ideal.ofBits .f32 0xFF800000#32)) ?_
  unfold val_main_v22
  generalize val_main_v21 (F := Ideal) x0 x1 = y
  have hr : S128x6x196x196.Reduces [3] S128x6x196 := by decide
  refine (Host.reduce_eq_fold_single (α := Ideal .f32) (FloatOps.maximumf (F := Ideal) (φ := .f32)) y _ reducesTo_S128x6x196x196_S128x6x196_d3 hr h_S_ (ix3 n h q)).trans ?_
  have hf : (y ∘ hr.lift (ix3 n h q)) = fun k : Fin 196 => y (ix4 n h q k) :=
    funext fun k => congrArg y (lift_row hr n h q k)
  rw [hf]
  rfl

theorem exp_apply (x0 : (⟨S8x16x196x768, .f32⟩ : BufTy).Contents (Elt Ideal)) (x1 : (⟨S2304x768, .f32⟩ : BufTy).Contents (Elt Ideal)) (n : Fin 128) (h : Fin 6) (q k : Fin 196) :
    val_main_v28 (F := Ideal) x0 x1 (ix4 n h q k)
      = expRow (Ideal.ofBits .f32 0xFF800000#32) (fun k' => val_main_v21 (F := Ideal) x0 x1 (ix4 n h q k')) k := by
  rw [val_main_v28_apply, val_main_v27_apply, val_main_v26_apply, val_main_v25_apply, colM, rowMax_apply]
  rfl

theorem sum_apply (x0 : (⟨S8x16x196x768, .f32⟩ : BufTy).Contents (Elt Ideal)) (x1 : (⟨S2304x768, .f32⟩ : BufTy).Contents (Elt Ideal)) (n : Fin 128) (h : Fin 6) (q : Fin 196) :
    val_main_v29 (F := Ideal) x0 x1 (ix3 n h q) = ∑ k : Fin 196, val_main_v28 (F := Ideal) x0 x1 (ix4 n h q k) := by
  rw [val_main_v29_apply, val_main_cst_2_apply]
  show Ideal.ofBits .f32 0x00000000#32 + _ = _
  rw [Ideal.ofBits_zero_f32, zero_add]
  exact Finset.sum_congr rfl fun k _ => by rw [sumI]

theorem prob_apply (x0 : (⟨S8x16x196x768, .f32⟩ : BufTy).Contents (Elt Ideal)) (x1 : (⟨S2304x768, .f32⟩ : BufTy).Contents (Elt Ideal)) (n : Fin 128) (h : Fin 6) (q k : Fin 196) :
    val_main_v32 (F := Ideal) x0 x1 (ix4 n h q k)
      = Ideal.div (val_main_v28 (F := Ideal) x0 x1 (ix4 n h q k)) (∑ k' : Fin 196, val_main_v28 (F := Ideal) x0 x1 (ix4 n h q k')) := by
  rw [val_main_v32_apply, val_main_v31_apply, val_main_v30_apply, colS, sum_apply]
  rfl

/-- Entry (n, h, q, d) of the reference's attention is the attention entry of query row (n, h, q) against the key rows
    (n, h, ·) and the value column (n, h, ·, d). -/
theorem out_apply (x0 : (⟨S8x16x196x768, .f32⟩ : BufTy).Contents (Elt Ideal)) (x1 : (⟨S2304x768, .f32⟩ : BufTy).Contents (Elt Ideal)) (n : Fin 128) (h : Fin 6) (q : Fin 196) (d : Fin 64) :
    val_main_v33 (F := Ideal) x0 x1 (ix4 n h q d)
      = attnOut (Ideal.ofBits .f32 0xFF800000#32) (Ideal.ofBits .f32 0x3E000000#32)
          (fun dd => val_main_v16 (F := Ideal) x0 x1 (ix4 n h q dd)) (fun k dd => val_main_v17 (F := Ideal) x0 x1 (ix4 n h k dd))
          (fun k => val_main_v18 (F := Ideal) x0 x1 (ix4 n h k d)) := by
  rw [val_main_v33_apply]
  unfold attnOut
  refine Finset.sum_congr rfl fun k _ => ?_
  rw [l2, r2, prob_apply]
  have he : ∀ k' : Fin 196, val_main_v28 (F := Ideal) x0 x1 (ix4 n h q k')
      = expRow (Ideal.ofBits .f32 0xFF800000#32)
          (fun k'' => score (Ideal.ofBits .f32 0x3E000000#32) (fun dd => val_main_v16 (F := Ideal) x0 x1 (ix4 n h q dd)) (fun dd => val_main_v17 (F := Ideal) x0 x1 (ix4 n h k'' dd))) k' := fun k' => by
    rw [exp_apply]
    exact congrArg (fun s => expRow (Ideal.ofBits .f32 0xFF800000#32) s k') (funext fun k'' => scores_apply x0 x1 n h q k'')
  rw [he k]
  exact congrArg (fun z => Ideal.div _ z * _) (Finset.sum_congr rfl fun k' _ => he k')

end Cert.ReferenceIdeal.AttnRS

end
-- ==== Proof.AttnRT.lean ====
/-
  The reference's attention, read at an index: scores (∑_d q · k) · scale over a 1568 × 6 batch, each row's maximum
  subtracted, the exponentials divided by their row's sum, the weights against the values. Entry (n, h, q, d) of the
  result is the attention entry of query row (n, h, q) against the key rows (n, h, ·) and the value column (n, h, ·, d)
  of the three operand arrays: `out_apply`. The reference's sum starts from the zero word, which adds nothing.
-/
import proofs.«178978_j19473381720281_2_alg».proof.Proof.RefRead
import proofs.«178978_j19473381720281_2_alg».proof.Proof.Spec
import Idealize.ShloMosaic.Lib.ValueIdx
import Idealize.ShloMosaic.PureOps.Ideal.Laws

noncomputable section

namespace Cert.ReferenceIdeal.AttnRT

open Cert.ReferenceIdeal Cert.ReferenceIdeal.Gen Cert.ReferenceIdeal.Read Idealize.ShloMosaic Idealize.ShloMosaic.ValueIdx Cert.Attn

/-! ## The operations' index maps at coordinates -/

theorem l1 (n : Fin 1568) (h : Fin 6) (q k : Fin 16) (dd : Fin 64) : lidx_main_v37 (ix4 n h q k) dd = ix4 n h q dd := funext fun a => Fin.ext (by match a with | ⟨0, _⟩ => rfl | ⟨1, _⟩ => rfl | ⟨2, _⟩ => rfl | ⟨3, _⟩ => rfl)
theorem r1 (n : Fin 1568) (h : Fin 6) (q k : Fin 16) (dd : Fin 64) : ridx_main_v37 (ix4 n h q k) dd = ix4 n h k dd := funext fun a => Fin.ext (by match a with | ⟨0, _⟩ => rfl | ⟨1, _⟩ => rfl | ⟨2, _⟩ => rfl | ⟨3, _⟩ => rfl)
theorem l2 (n : Fin 1568) (h : Fin 6) (q : Fin 16) (d : Fin 64) (k : Fin 16) : lidx_main_v51 (ix4 n h q d) k = ix4 n h q k := funext fun a => Fin.ext (by match a with | ⟨0, _⟩ => rfl | ⟨1, _⟩ => rfl | ⟨2, _⟩ => rfl | ⟨3, _⟩ => rfl)
theorem r2 (n : Fin 1568) (h : Fin 6) (q : Fin 16) (d : Fin 64) (k : Fin 16) : ridx_main_v51 (ix4 n h q d) k = ix4 n h k d := funext fun a => Fin.ext (by match a with | ⟨0, _⟩ => rfl | ⟨1, _⟩ => rfl | ⟨2, _⟩ => rfl | ⟨3, _⟩ => rfl)
theorem colM (n : Fin 1568) (h : Fin 6) (q k : Fin 16) : idx_main_v43 (idx_main_v44 (ix4 n h q k)) = ix3 n h q := funext fun a => Fin.ext (by match a with | ⟨0, _⟩ => rfl | ⟨1, _⟩ => rfl | ⟨2, _⟩ => rfl)
theorem colS (n : Fin 1568) (h : Fin 6) (q k : Fin 16) : idx_main_v48 (idx_main_v49 (ix4 n h q k)) = ix3 n h q := funext fun a => Fin.ext (by match a with | ⟨0, _⟩ => rfl | ⟨1, _⟩ => rfl | ⟨2, _⟩ => rfl)
theorem sumI (n : Fin 1568) (h : Fin 6) (q k : Fin 16) : idx_main_v47 (ix3 n h q) k = ix4 n h q k := funext fun a => Fin.ext (by match a with | ⟨0, _⟩ => rfl | ⟨1, _⟩ => rfl | ⟨2, _⟩ => rfl | ⟨3, _⟩ => rfl)

/-- The reduced index (n, h, q) with position k of the reduced axis put back is (n, h, q, k). -/
theorem lift_row (hr : S1568x6x16x16.Reduces [3] S1568x6x16) (n : Fin 1568) (h : Fin 6) (q : Fin 16) (k : Fin (S1568x6x16x16.size 3)) :
    hr.lift (ix3 n h q) k = ix4 n h q (⟨k.val, k.isLt⟩ : Fin 16) := by
  funext c; apply Fin.ext
  fin_cases c <;> rfl

/-! ## Each stage at an index -/

theorem scores_apply (x0 : (⟨S8x16x196x768, .f32⟩ : BufTy).Contents (Elt Ideal)) (x1 : (⟨S2304x768, .f32⟩ : BufTy).Contents (Elt Ideal)) (n : Fin 1568) (h : Fin 6) (q k : Fin 16) :
    val_main_v39 (F := Ideal) x0 x1 (ix4 n h q k)
      = score (Ideal.ofBits .f32 0x3E000000#32) (fun dd => val_main_v34 (F := Ideal) x0 x1 (ix4 n h q dd)) (fun dd => val_main_v35 (F := Ideal) x0 x1 (ix4 n h k dd)) := by
  rw [val_main_v39_apply, val_main_v37_apply, val_main_v38_apply, val_main_cst_3_apply]
  unfold score
  refine congrArg₂ (· * ·) (Finset.sum_congr rfl fun dd _ => ?_) rfl
  rw [l1, r1]

theorem rowMax_apply (x0 : (⟨S8x16x196x768, .f32⟩ : BufTy).Contents (Elt Ideal)) (x1 : (⟨S2304x768, .f32⟩ : BufTy).Contents (Elt Ideal)) (n : Fin 1568) (h : Fin 6) (q : Fin 16) :
    val_main_v42 (F := Ideal) x0 x1 (ix3 n h q)
      = rowMax (Ideal.ofBits .f32 0xFF800000#32) (fun k => val_main_v39 (F := Ideal) x0 x1 (ix4 n h q k)) := by
  rw [val_main_v42_apply, val_main_v41_apply, val_main_cst_5_apply]
  unfold rowMax
  refine congrArg (max (Ideal.ofBits .f32 0xFF800000#32)) ?_
  unfold val_main_v40
  generalize val_main_v39 (F := Ideal) x0 x1 = y
  have hr : S1568x6x16x16.Reduces [3] S1568x6x16 := by decide
  refine (Host.reduce_eq_fold_single (α := Ideal .f32) (FloatOps.maximumf (F := Ideal) (φ := .f32)) y _ reducesTo_S1568x6x16x16_S1568x6x16_d3 hr h_S_ (ix3 n h q)).trans ?_
  have hf : (y ∘ hr.lift (ix3 n h q)) = fun k : Fin 16 => y (ix4 n h q k) :=
    funext fun k => congrArg y (lift_row hr n h q k)
  rw [hf]
  rfl

theorem exp_apply (x0 : (⟨S8x16x196x768, .f32⟩ : BufTy).Contents (Elt Ideal)) (x1 : (⟨S2304x768, .f32⟩ : BufTy).Contents (Elt Ideal)) (n : Fin 1568) (h : Fin 6) (q k : Fin 16) :
    val_main_v46 (F := Ideal) x0 x1 (ix4 n h q k)
      = expRow (Ideal.ofBits .f32 0xFF800000#32) (fun k' => val_main_v39 (F := Ideal) x0 x1 (ix4 n h q k')) k := by
  rw [val_main_v46_apply, val_main_v45_apply, val_main_v44_apply, val_main_v43_apply, colM, rowMax_apply]
  rfl

theorem sum_apply (x0 : (⟨S8x16x196x768, .f32⟩ : BufTy).Contents (Elt Ideal)) (x1 : (⟨S2304x768, .f32⟩ : BufTy).Contents (Elt Ideal)) (n : Fin 1568) (h : Fin 6) (q : Fin 16) :
    val_main_v47 (F := Ideal) x0 x1 (ix3 n h q) = ∑ k : Fin 16, val_main_v46 (F := Ideal) x0 x1 (ix4 n h q k) := by
  rw [val_main_v47_apply, val_main_cst_6_apply]
  show Ideal.ofBits .f32 0x00000000#32 + _ = _
  rw [Ideal.ofBits_zero_f32, zero_add]
  exact Finset.sum_congr rfl fun k _ => by rw [sumI]

theorem prob_apply (x0 : (⟨S8x16x196x768, .f32⟩ : BufTy).Contents (Elt Ideal)) (x1 : (⟨S2304x768, .f32⟩ : BufTy).Contents (Elt Ideal)) (n : Fin 1568) (h : Fin 6) (q k : Fin 16) :
    val_main_v50 (F := Ideal) x0 x1 (ix4 n h q k)
      = Ideal.div (val_main_v46 (F := Ideal) x0 x1 (ix4 n h q k)) (∑ k' : Fin 16, val_main_v46 (F := Ideal) x0 x1 (ix4 n h q k')) := by
  rw [val_main_v50_apply, val_main_v49_apply, val_main_v48_apply, colS, sum_apply]
  rfl

/-- Entry (n, h, q, d) of the reference's attention is the attention entry of query row (n, h, q) against the key rows
    (n, h, ·) and the value column (n, h, ·, d). -/
theorem out_apply (x0 : (⟨S8x16x196x768, .f32⟩ : BufTy).Contents (Elt Ideal)) (x1 : (⟨S2304x768, .f32⟩ : BufTy).Contents (Elt Ideal)) (n : Fin 1568) (h : Fin 6) (q : Fin 16) (d : Fin 64) :
    val_main_v51 (F := Ideal) x0 x1 (ix4 n h q d)
      = attnOut (Ideal.ofBits .f32 0xFF800000#32) (Ideal.ofBits .f32 0x3E000000#32)
          (fun dd => val_main_v34 (F := Ideal) x0 x1 (ix4 n h q dd)) (fun k dd => val_main_v35 (F := Ideal) x0 x1 (ix4 n h k dd))
          (fun k => val_main_v36 (F := Ideal) x0 x1 (ix4 n h k d)) := by
  rw [val_main_v51_apply]
  unfold attnOut
  refine Finset.sum_congr rfl fun k _ => ?_
  rw [l2, r2, prob_apply]
  have he : ∀ k' : Fin 16, val_main_v46 (F := Ideal) x0 x1 (ix4 n h q k')
      = expRow (Ideal.ofBits .f32 0xFF800000#32)
          (fun k'' => score (Ideal.ofBits .f32 0x3E000000#32) (fun dd => val_main_v34 (F := Ideal) x0 x1 (ix4 n h q dd)) (fun dd => val_main_v35 (F := Ideal) x0 x1 (ix4 n h k'' dd))) k' := fun k' => by
    rw [exp_apply]
    exact congrArg (fun s => expRow (Ideal.ofBits .f32 0xFF800000#32) s k') (funext fun k'' => scores_apply x0 x1 n h q k'')
  rw [he k]
  exact congrArg (fun z => Ideal.div _ z * _) (Finset.sum_congr rfl fun k' _ => he k')

end Cert.ReferenceIdeal.AttnRT

end
-- ==== Proof.LibReshape.lean ====
/-
  Re-groupings of an array's axes that keep the row-major order of its elements (reshapes).

  A reshape reads its operand at the index with the same row-major position. So two reshapes of one array agree at any
  two indices, of their two result shapes, that have the same row-major position; and a reshape of a reshape is the
  reshape straight to the last shape.
-/
import Idealize.ShloMosaic.PureOps.ShapeOps

namespace Cert.Lib.Reshape

open Idealize.ShloMosaic

variable {α : Type} {s t u : Shape}

/-- Two reshapes of one array agree at indices with the same row-major position. -/
theorem shapeCast_eq_shapeCast (x : s.Idx → α) (ht : s.ShapeCasts t) (hu : s.ShapeCasts u) (j : t.Idx) (k : u.Idx)
    (e : (t.rowMajor j : Nat) = u.rowMajor k) : shapeCast t x ht j = shapeCast u x hu k := by
  unfold shapeCast
  refine congrArg x (Shape.reshapeEquiv_eq_of_rowMajor _ ?_)
  rw [Shape.rowMajor_reshapeEquiv]
  exact e.symm

/-- A reshape of a reshape is the reshape straight to the last shape. -/
theorem shapeCast_comp (x : s.Idx → α) (ht : s.ShapeCasts t) (htu : t.ShapeCasts u) (hu : s.ShapeCasts u) :
    shapeCast u (shapeCast t x ht) htu = shapeCast u x hu := by
  funext k
  unfold shapeCast
  exact congrArg x (Shape.reshapeEquiv_reshapeEquiv _ _ k)

end Cert.Lib.Reshape
-- ==== Proof.BridgeQKV.lean ====
/-
  The projection, both ways. The kernel program multiplies the input, re-grouped to 25088 × 768, by the transposed
  weight and keeps column range j (j = 0, 1, 2 for queries, keys, values) of the 2304 columns, then cuts the 768 columns
  into 12 heads of 64 and moves the head axis in front of the 3136 positions. The reference multiplies the input,
  re-grouped to 8 × 3136 × 768, by the weight contracted on its second axis, splits the 2304 columns into
  3 × 12 × 64, moves the split axes in front and takes part j. At (b, h, n, d) both are
      ∑_k x[b, n, k] · w[768·j + 64·h + d, k],
  the input read at the same row-major position (b·3136 + n)·768 + k on both sides.
-/
import proofs.«178978_j19473381720281_2_alg».proof.Proof.RefRead
import proofs.«178978_j19473381720281_2_alg».proof.Proof.Gemm0
import proofs.«178978_j19473381720281_2_alg».proof.Proof.HostSide
import proofs.«178978_j19473381720281_2_alg».proof.Proof.LibReshape
import Idealize.ShloMosaic.Lib.ValueIdx
import Idealize.ShloMosaic.Lib.Pipeline.Value

set_option maxRecDepth 16384

noncomputable section

namespace Cert.Bridge.QKV

open Cert.ReferenceIdeal Cert.ReferenceIdeal.Gen Cert.ReferenceIdeal.Read
open Idealize.ShloMosaic Idealize.ShloMosaic.ValueIdx

/-- Row b·3136 + n of the 25088 rows. -/
abbrev pos (b : Fin 8) (n : Fin 3136) : Fin 25088 := ⟨b.val * 3136 + n.val, by have := b.isLt; have := n.isLt; omega⟩
/-- Column 64·h + d of the 768 columns of one part. -/
abbrev hd (h : Fin 12) (d : Fin 64) : Fin 768 := ⟨h.val * 64 + d.val, by have := h.isLt; have := d.isLt; omega⟩
/-- Column 768·j + 64·h + d of the 2304 columns. -/
abbrev col3 (j : Fin 3) (h : Fin 12) (d : Fin 64) : Fin 2304 :=
  ⟨(j.val * 12 + h.val) * 64 + d.val, by have := j.isLt; have := h.isLt; have := d.isLt; omega⟩

/-- Heads in front: entry (b, h, n, d) of the re-laid projection is entry (b·3136 + n, 64·h + d). -/
theorem toHeads_apply {α : Type} (G : Cert.KernelIdeal.S25088x768.Idx → α) (b : Fin 8) (h : Fin 12) (n : Fin 3136) (d : Fin 64) :
    Cert.KernelIdeal.HostSide.toHeads G (ix4 b h n d) = G (ix2 (pos b n) (hd h d)) := by
  unfold Cert.KernelIdeal.HostSide.toHeads
  refine (transpose_apply [0, 2, 1, 3] _ Cert.KernelIdeal.Gen.transposes_S8x3136x12x64_S8x12x3136x64_0_2_1_3 (ix4 b h n d) (ix4 b n h d) (fun a => match a with
    | ⟨0, _⟩ => rfl
    | ⟨1, _⟩ => rfl
    | ⟨2, _⟩ => rfl
    | ⟨3, _⟩ => rfl)).trans ?_
  exact shapeCast_apply G Cert.KernelIdeal.Gen.shapeCasts_S25088x768_S8x3136x12x64 (ix4 b n h d) (ix2 (pos b n) (hd h d)) (by
    rw [Shape.rowMajor_val_two, Shape.rowMajor_val_four]
    show (b.val * 3136 + n.val) * 768 + (h.val * 64 + d.val) = ((b.val * 3136 + n.val) * 12 + h.val) * 64 + d.val
    omega)

/-- The input re-grouped to rows reads the input where the reference's re-grouping to (batch, position) does. -/
theorem rows_apply (x0 : (⟨S8x16x196x768, .f32⟩ : BufTy).Contents (Elt Ideal)) (b : Fin 8) (n : Fin 3136) (k : Fin 768) :
    shapeCast Cert.KernelIdeal.S25088x768 x0 Cert.KernelIdeal.Gen.shapeCasts_S8x16x196x768_S25088x768 (ix2 (pos b n) k) = val_main_v0 (F := Ideal) x0 (ix3 b n k) := by
  unfold val_main_v0
  refine Cert.Lib.Reshape.shapeCast_eq_shapeCast x0 _ _ (ix2 (pos b n) k) (ix3 b n k) ?_
  rw [Shape.rowMajor_val_two, Shape.rowMajor_val_three]
  show (b.val * 3136 + n.val) * 768 + k.val = (b.val * 3136 + n.val) * 768 + k.val
  rfl

/-- The transposed weight at (k, e) is the weight at (e, k). -/
theorem wT_apply (x1 : (⟨S2304x768, .f32⟩ : BufTy).Contents (Elt Ideal)) (k : Fin 768) (e : Fin 2304) :
    transpose Cert.KernelIdeal.S768x2304 [1, 0] x1 Cert.KernelIdeal.Gen.transposes_S2304x768_S768x2304_1_0 (ix2 k e) = x1 (ix2 e k) :=
  transpose_apply [1, 0] x1 Cert.KernelIdeal.Gen.transposes_S2304x768_S768x2304_1_0 (ix2 k e) (ix2 e k) (fun a => match a with
    | ⟨0, _⟩ => rfl
    | ⟨1, _⟩ => rfl)

/-- The reference's projection at (b, n, e). -/
theorem proj_apply (x0 : (⟨S8x16x196x768, .f32⟩ : BufTy).Contents (Elt Ideal)) (x1 : (⟨S2304x768, .f32⟩ : BufTy).Contents (Elt Ideal)) (b : Fin 8) (n : Fin 3136) (e : Fin 2304) :
    val_main_v1 (F := Ideal) x0 x1 (ix3 b n e) = ∑ k : Fin 768, val_main_v0 (F := Ideal) x0 (ix3 b n k) * x1 (ix2 e k) := by
  rw [val_main_v1_apply]
  refine Finset.sum_congr rfl fun k _ => ?_
  have el : lidx_main_v1 (ix3 b n e) k = ix3 b n k := funext fun a => Fin.ext (by match a with | ⟨0, _⟩ => rfl | ⟨1, _⟩ => rfl | ⟨2, _⟩ => rfl)
  have er : ridx_main_v1 (ix3 b n e) k = ix2 e k := funext fun a => Fin.ext (by match a with | ⟨0, _⟩ => rfl | ⟨1, _⟩ => rfl)
  rw [el, er]

/-- The reference's split and re-laid projection, before a part is taken: entry (j, b, h, n, d). -/
theorem split_apply (x0 : (⟨S8x16x196x768, .f32⟩ : BufTy).Contents (Elt Ideal)) (x1 : (⟨S2304x768, .f32⟩ : BufTy).Contents (Elt Ideal)) (j : Fin 3) (b : Fin 8) (h : Fin 12) (n : Fin 3136) (d : Fin 64) :
    val_main_v3 (F := Ideal) x0 x1 (ix5 j b h n d) = val_main_v1 (F := Ideal) x0 x1 (ix3 b n (col3 j h d)) := by
  unfold val_main_v3
  refine (transpose_apply [2, 0, 3, 1, 4] _ transposes_S8x3136x3x12x64_S3x8x12x3136x64_2_0_3_1_4 (ix5 j b h n d) (ix5 b n j h d) (fun a => match a with
    | ⟨0, _⟩ => rfl
    | ⟨1, _⟩ => rfl
    | ⟨2, _⟩ => rfl
    | ⟨3, _⟩ => rfl
    | ⟨4, _⟩ => rfl)).trans ?_
  unfold val_main_v2
  exact shapeCast_apply _ shapeCasts_S8x3136x2304_S8x3136x3x12x64 (ix5 b n j h d) (ix3 b n (col3 j h d)) (by
    rw [Shape.rowMajor_val_three, Shape.rowMajor_val_five]
    show (b.val * 3136 + n.val) * 2304 + ((j.val * 12 + h.val) * 64 + d.val) = (((b.val * 3136 + n.val) * 3 + j.val) * 12 + h.val) * 64 + d.val
    omega)

/-- Part 0: the kernel program's array of window 2, heads in front, is the reference's part 0. -/
theorem part0_eq (x0 : (⟨S8x16x196x768, .f32⟩ : BufTy).Contents (Elt Ideal)) (x1 : (⟨S2304x768, .f32⟩ : BufTy).Contents (Elt Ideal)) :
    Cert.KernelIdeal.HostSide.toHeads (Cert.KernelIdeal.Gemm0.whole2 (shapeCast Cert.KernelIdeal.S25088x768 x0 Cert.KernelIdeal.Gen.shapeCasts_S8x16x196x768_S25088x768)
      (transpose Cert.KernelIdeal.S768x2304 [1, 0] x1 Cert.KernelIdeal.Gen.transposes_S2304x768_S768x2304_1_0))
    = val_main_v5 (F := Ideal) x0 x1 := by
  funext i
  obtain ⟨b, h, n, d, rfl⟩ : ∃ (b : Fin 8) (h : Fin 12) (n : Fin 3136) (d : Fin 64), i = ix4 b h n d := ⟨i 0, i 1, i 2, i 3, eq_ix4 i⟩
  rw [toHeads_apply]
  have hR : val_main_v5 (F := Ideal) x0 x1 (ix4 b h n d) = val_main_v1 (F := Ideal) x0 x1 (ix3 b n (col3 (0 : Fin 3) h d)) := by
    unfold val_main_v5
    refine (shapeCast_apply _ shapeCasts_S1x8x12x3136x64_S8x12x3136x64 (ix4 b h n d) (ix5 (0 : Fin 1) b h n d) (by
      rw [Shape.rowMajor_val_five, Shape.rowMajor_val_four]
      show (((0 * 8 + b.val) * 12 + h.val) * 3136 + n.val) * 64 + d.val = ((b.val * 12 + h.val) * 3136 + n.val) * 64 + d.val
      omega)).trans ?_
    unfold val_main_v4
    refine (extractStridedSlice_apply _ _ slices_S3x8x12x3136x64_S1x8x12x3136x64_0_0_0_0_0 (ix5 (0 : Fin 1) b h n d) (ix5 (0 : Fin 3) b h n d) (fun a => match a with
      | ⟨0, _⟩ => by show 0 = 0 + 0; rfl
      | ⟨1, _⟩ => by show b.val = 0 + b.val; omega
      | ⟨2, _⟩ => by show h.val = 0 + h.val; omega
      | ⟨3, _⟩ => by show n.val = 0 + n.val; omega
      | ⟨4, _⟩ => by show d.val = 0 + d.val; omega)).trans ?_
    exact split_apply x0 x1 (0 : Fin 3) b h n d
  rw [hR, proj_apply]
  show (∑ k : Fin 768, shapeCast Cert.KernelIdeal.S25088x768 x0 Cert.KernelIdeal.Gen.shapeCasts_S8x16x196x768_S25088x768 (ix2 (pos b n) k)
      * transpose Cert.KernelIdeal.S768x2304 [1, 0] x1 Cert.KernelIdeal.Gen.transposes_S2304x768_S768x2304_1_0 (ix2 k (Cert.KernelIdeal.Gemm0.col 0 (by decide) (hd h d)))) = _
  refine Finset.sum_congr rfl fun k _ => ?_
  rw [rows_apply, wT_apply]
  have ec : Cert.KernelIdeal.Gemm0.col 0 (by decide) (hd h d) = col3 (0 : Fin 3) h d := Fin.ext (by
    show 0 + (h.val * 64 + d.val) = (0 * 12 + h.val) * 64 + d.val
    omega)
  rw [ec]

/-- Part 1: the kernel program's array of window 3, heads in front, is the reference's part 1. -/
theorem part1_eq (x0 : (⟨S8x16x196x768, .f32⟩ : BufTy).Contents (Elt Ideal)) (x1 : (⟨S2304x768, .f32⟩ : BufTy).Contents (Elt Ideal)) :
    Cert.KernelIdeal.HostSide.toHeads (Cert.KernelIdeal.Gemm0.whole3 (shapeCast Cert.KernelIdeal.S25088x768 x0 Cert.KernelIdeal.Gen.shapeCasts_S8x16x196x768_S25088x768)
      (transpose Cert.KernelIdeal.S768x2304 [1, 0] x1 Cert.KernelIdeal.Gen.transposes_S2304x768_S768x2304_1_0))
    = val_main_v7 (F := Ideal) x0 x1 := by
  funext i
  obtain ⟨b, h, n, d, rfl⟩ : ∃ (b : Fin 8) (h : Fin 12) (n : Fin 3136) (d : Fin 64), i = ix4 b h n d := ⟨i 0, i 1, i 2, i 3, eq_ix4 i⟩
  rw [toHeads_apply]
  have hR : val_main_v7 (F := Ideal) x0 x1 (ix4 b h n d) = val_main_v1 (F := Ideal) x0 x1 (ix3 b n (col3 (1 : Fin 3) h d)) := by
    unfold val_main_v7
    refine (shapeCast_apply _ shapeCasts_S1x8x12x3136x64_S8x12x3136x64 (ix4 b h n d) (ix5 (0 : Fin 1) b h n d) (by
      rw [Shape.rowMajor_val_five, Shape.rowMajor_val_four]
      show (((0 * 8 + b.val) * 12 + h.val) * 3136 + n.val) * 64 + d.val = ((b.val * 12 + h.val) * 3136 + n.val) * 64 + d.val
      omega)).trans ?_
    unfold val_main_v6
    refine (extractStridedSlice_apply _ _ slices_S3x8x12x3136x64_S1x8x12x3136x64_1_0_0_0_0 (ix5 (0 : Fin 1) b h n d) (ix5 (1 : Fin 3) b h n d) (fun a => match a with
      | ⟨0, _⟩ => by show 1 = 1 + 0; rfl
      | ⟨1, _⟩ => by show b.val = 0 + b.val; omega
      | ⟨2, _⟩ => by show h.val = 0 + h.val; omega
      | ⟨3, _⟩ => by show n.val = 0 + n.val; omega
      | ⟨4, _⟩ => by show d.val = 0 + d.val; omega)).trans ?_
    exact split_apply x0 x1 (1 : Fin 3) b h n d
  rw [hR, proj_apply]
  show (∑ k : Fin 768, shapeCast Cert.KernelIdeal.S25088x768 x0 Cert.KernelIdeal.Gen.shapeCasts_S8x16x196x768_S25088x768 (ix2 (pos b n) k)
      * transpose Cert.KernelIdeal.S768x2304 [1, 0] x1 Cert.KernelIdeal.Gen.transposes_S2304x768_S768x2304_1_0 (ix2 k (Cert.KernelIdeal.Gemm0.col 768 (by decide) (hd h d)))) = _
  refine Finset.sum_congr rfl fun k _ => ?_
  rw [rows_apply, wT_apply]
  have ec : Cert.KernelIdeal.Gemm0.col 768 (by decide) (hd h d) = col3 (1 : Fin 3) h d := Fin.ext (by
    show 768 + (h.val * 64 + d.val) = (1 * 12 + h.val) * 64 + d.val
    omega)
  rw [ec]

/-- Part 2: the kernel program's array of window 4, heads in front, is the reference's part 2. -/
theorem part2_eq (x0 : (⟨S8x16x196x768, .f32⟩ : BufTy).Contents (Elt Ideal)) (x1 : (⟨S2304x768, .f32⟩ : BufTy).Contents (Elt Ideal)) :
    Cert.KernelIdeal.HostSide.toHeads (Cert.KernelIdeal.Gemm0.whole4 (shapeCast Cert.KernelIdeal.S25088x768 x0 Cert.KernelIdeal.Gen.shapeCasts_S8x16x196x768_S25088x768)
      (transpose Cert.KernelIdeal.S768x2304 [1, 0] x1 Cert.KernelIdeal.Gen.transposes_S2304x768_S768x2304_1_0))
    = val_main_v9 (F := Ideal) x0 x1 := by
  funext i
  obtain ⟨b, h, n, d, rfl⟩ : ∃ (b : Fin 8) (h : Fin 12) (n : Fin 3136) (d : Fin 64), i = ix4 b h n d := ⟨i 0, i 1, i 2, i 3, eq_ix4 i⟩
  rw [toHeads_apply]
  have hR : val_main_v9 (F := Ideal) x0 x1 (ix4 b h n d) = val_main_v1 (F := Ideal) x0 x1 (ix3 b n (col3 (2 : Fin 3) h d)) := by
    unfold val_main_v9
    refine (shapeCast_apply _ shapeCasts_S1x8x12x3136x64_S8x12x3136x64 (ix4 b h n d) (ix5 (0 : Fin 1) b h n d) (by
      rw [Shape.rowMajor_val_five, Shape.rowMajor_val_four]
      show (((0 * 8 + b.val) * 12 + h.val) * 3136 + n.val) * 64 + d.val = ((b.val * 12 + h.val) * 3136 + n.val) * 64 + d.val
      omega)).trans ?_
    unfold val_main_v8
    refine (extractStridedSlice_apply _ _ slices_S3x8x12x3136x64_S1x8x12x3136x64_2_0_0_0_0 (ix5 (0 : Fin 1) b h n d) (ix5 (2 : Fin 3) b h n d) (fun a => match a with
      | ⟨0, _⟩ => by show 2 = 2 + 0; rfl
      | ⟨1, _⟩ => by show b.val = 0 + b.val; omega
      | ⟨2, _⟩ => by show h.val = 0 + h.val; omega
      | ⟨3, _⟩ => by show n.val = 0 + n.val; omega
      | ⟨4, _⟩ => by show d.val = 0 + d.val; omega)).trans ?_
    exact split_apply x0 x1 (2 : Fin 3) b h n d
  rw [hR, proj_apply]
  show (∑ k : Fin 768, shapeCast Cert.KernelIdeal.S25088x768 x0 Cert.KernelIdeal.Gen.shapeCasts_S8x16x196x768_S25088x768 (ix2 (pos b n) k)
      * transpose Cert.KernelIdeal.S768x2304 [1, 0] x1 Cert.KernelIdeal.Gen.transposes_S2304x768_S768x2304_1_0 (ix2 k (Cert.KernelIdeal.Gemm0.col 1536 (by decide) (hd h d)))) = _
  refine Finset.sum_congr rfl fun k _ => ?_
  rw [rows_apply, wT_apply]
  have ec : Cert.KernelIdeal.Gemm0.col 1536 (by decide) (hd h d) = col3 (2 : Fin 3) h d := Fin.ext (by
    show 1536 + (h.val * 64 + d.val) = (2 * 12 + h.val) * 64 + d.val
    omega)
  rw [ec]

end Cert.Bridge.QKV

end
-- ==== Proof.BridgeOut.lean ====
/-
  The output projection, both ways. The kernel program re-groups the joined attention result (8 × 3136 × 768) to
  25088 rows, multiplies by the transposed output weight, adds the bias laid as one row, and re-groups the 25088 rows
  into 8 × 16 × 196. The reference multiplies the joined result by the weight contracted on its second axis, adds the
  bias broadcast along batch and position, and re-groups 3136 positions into 16 × 196. Row p of the 25088 is
  (batch p / 3136, position p % 3136), so entry (p, e) is ∑_k w[p, k] · W[e, k] + bias[e] on both sides, and the two
  final re-groupings keep the same row-major order.
-/
import proofs.«178978_j19473381720281_2_alg».proof.Proof.RefRead
import proofs.«178978_j19473381720281_2_alg».proof.Proof.Gemm3
import proofs.«178978_j19473381720281_2_alg».proof.Proof.LibReshape
import Idealize.ShloMosaic.Lib.ValueIdx
import Idealize.ShloMosaic.Lib.Pipeline.Value

set_option maxRecDepth 16384

noncomputable section

namespace Cert.Bridge.Out

open Cert.ReferenceIdeal Cert.ReferenceIdeal.Gen Cert.ReferenceIdeal.Read
open Idealize.ShloMosaic Idealize.ShloMosaic.ValueIdx

/-- The batch of row p. -/
abbrev bq (p : Fin 25088) : Fin 8 := ⟨p.val / 3136, by have := p.isLt; omega⟩
/-- The position of row p within its batch. -/
abbrev nr (p : Fin 25088) : Fin 3136 := ⟨p.val % 3136, by omega⟩

/-- A (batch, position, column) array re-grouped to rows: row p is (p / 3136, p % 3136). -/
theorem rows_apply {α : Type} (A : S8x3136x768.Idx → α) (p : Fin 25088) (k : Fin 768) :
    shapeCast Cert.KernelIdeal.S25088x768 A Cert.KernelIdeal.Gen.shapeCasts_S8x3136x768_S25088x768 (ix2 p k) = A (ix3 (bq p) (nr p) k) :=
  shapeCast_apply A Cert.KernelIdeal.Gen.shapeCasts_S8x3136x768_S25088x768 (ix2 p k) (ix3 (bq p) (nr p) k) (by
    rw [Shape.rowMajor_val_three, Shape.rowMajor_val_two]
    show (p.val / 3136 * 3136 + p.val % 3136) * 768 + k.val = p.val * 768 + k.val
    have := p.isLt
    omega)

/-- The transposed output weight at (k, e) is the weight at (e, k). -/
theorem wT_apply (x2 : (⟨S768x768, .f32⟩ : BufTy).Contents (Elt Ideal)) (k e : Fin 768) :
    transpose Cert.KernelIdeal.S768x768 [1, 0] x2 Cert.KernelIdeal.Gen.transposes_S768x768_S768x768_1_0 (ix2 k e) = x2 (ix2 e k) :=
  transpose_apply [1, 0] x2 Cert.KernelIdeal.Gen.transposes_S768x768_S768x768_1_0 (ix2 k e) (ix2 e k) (fun a => match a with
    | ⟨0, _⟩ => rfl
    | ⟨1, _⟩ => rfl)

/-- The bias laid as one row, at (0, e), is the bias at e. -/
theorem bias_apply (x3 : (⟨S768, .f32⟩ : BufTy).Contents (Elt Ideal)) (e : Fin 768) :
    shapeCast Cert.KernelIdeal.S1x768 x3 Cert.KernelIdeal.Gen.shapeCasts_S768_S1x768 (ix2 (0 : Fin 1) e) = x3 (ix1 e) :=
  shapeCast_apply x3 Cert.KernelIdeal.Gen.shapeCasts_S768_S1x768 (ix2 (0 : Fin 1) e) (ix1 e) (by
    rw [Shape.rowMajor_val_one, Shape.rowMajor_val_two]
    show e.val = 0 * 768 + e.val
    omega)

/-- The reference's projected and biased array at (b, n, e). -/
theorem ref_apply (x0 : (⟨S8x16x196x768, .f32⟩ : BufTy).Contents (Elt Ideal)) (x1 : (⟨S2304x768, .f32⟩ : BufTy).Contents (Elt Ideal))
    (x2 : (⟨S768x768, .f32⟩ : BufTy).Contents (Elt Ideal)) (x3 : (⟨S768, .f32⟩ : BufTy).Contents (Elt Ideal)) (b : Fin 8) (n : Fin 3136) (e : Fin 768) :
    val_main_v60 (F := Ideal) x0 x1 x2 x3 (ix3 b n e)
      = (∑ k : Fin 768, val_main_v56 (F := Ideal) x0 x1 (ix3 b n k) * x2 (ix2 e k)) + x3 (ix1 e) := by
  rw [val_main_v60_apply, val_main_v57_apply, val_main_v59_apply, val_main_v58_apply]
  have eb : idx_main_v58 (idx_main_v59 (ix3 b n e)) = ix1 e := funext fun a => Fin.ext (by match a with | ⟨0, _⟩ => rfl)
  rw [eb]
  refine congrArg₂ (· + ·) (Finset.sum_congr rfl fun k _ => ?_) rfl
  have el : lidx_main_v57 (ix3 b n e) k = ix3 b n k := funext fun a => Fin.ext (by match a with | ⟨0, _⟩ => rfl | ⟨1, _⟩ => rfl | ⟨2, _⟩ => rfl)
  have er : ridx_main_v57 (ix3 b n e) k = ix2 e k := funext fun a => Fin.ext (by match a with | ⟨0, _⟩ => rfl | ⟨1, _⟩ => rfl)
  rw [el, er]

/-- The kernel program's last launch, on the reference's joined array re-grouped to rows, leaves the reference's projected
    and biased array re-grouped to rows. -/
theorem rows_eq (x0 : (⟨S8x16x196x768, .f32⟩ : BufTy).Contents (Elt Ideal)) (x1 : (⟨S2304x768, .f32⟩ : BufTy).Contents (Elt Ideal))
    (x2 : (⟨S768x768, .f32⟩ : BufTy).Contents (Elt Ideal)) (x3 : (⟨S768, .f32⟩ : BufTy).Contents (Elt Ideal)) :
    Cert.KernelIdeal.Gemm3.whole (shapeCast Cert.KernelIdeal.S25088x768 (val_main_v56 (F := Ideal) x0 x1) Cert.KernelIdeal.Gen.shapeCasts_S8x3136x768_S25088x768)
        (transpose Cert.KernelIdeal.S768x768 [1, 0] x2 Cert.KernelIdeal.Gen.transposes_S768x768_S768x768_1_0) (shapeCast Cert.KernelIdeal.S1x768 x3 Cert.KernelIdeal.Gen.shapeCasts_S768_S1x768)
      = shapeCast Cert.KernelIdeal.S25088x768 (val_main_v60 (F := Ideal) x0 x1 x2 x3) Cert.KernelIdeal.Gen.shapeCasts_S8x3136x768_S25088x768 := by
  funext i
  obtain ⟨p, e, rfl⟩ : ∃ (p : Fin 25088) (e : Fin 768), i = ix2 p e := ⟨i 0, i 1, eq_ix2 i⟩
  rw [rows_apply (val_main_v60 (F := Ideal) x0 x1 x2 x3) p e, ref_apply]
  show (∑ k : Fin 768, shapeCast Cert.KernelIdeal.S25088x768 (val_main_v56 (F := Ideal) x0 x1) Cert.KernelIdeal.Gen.shapeCasts_S8x3136x768_S25088x768 (ix2 p k)
        * transpose Cert.KernelIdeal.S768x768 [1, 0] x2 Cert.KernelIdeal.Gen.transposes_S768x768_S768x768_1_0 (ix2 k e))
      + shapeCast Cert.KernelIdeal.S1x768 x3 Cert.KernelIdeal.Gen.shapeCasts_S768_S1x768 (ix2 (0 : Fin 1) e) = _
  rw [bias_apply]
  refine congrArg₂ (· + ·) (Finset.sum_congr rfl fun k _ => ?_) rfl
  rw [rows_apply, wT_apply]

/-- And re-grouped into frames it is the reference's result. -/
theorem out_eq (x0 : (⟨S8x16x196x768, .f32⟩ : BufTy).Contents (Elt Ideal)) (x1 : (⟨S2304x768, .f32⟩ : BufTy).Contents (Elt Ideal))
    (x2 : (⟨S768x768, .f32⟩ : BufTy).Contents (Elt Ideal)) (x3 : (⟨S768, .f32⟩ : BufTy).Contents (Elt Ideal)) :
    shapeCast Cert.KernelIdeal.S8x16x196x768
        (Cert.KernelIdeal.Gemm3.whole (shapeCast Cert.KernelIdeal.S25088x768 (val_main_v56 (F := Ideal) x0 x1) Cert.KernelIdeal.Gen.shapeCasts_S8x3136x768_S25088x768)
          (transpose Cert.KernelIdeal.S768x768 [1, 0] x2 Cert.KernelIdeal.Gen.transposes_S768x768_S768x768_1_0) (shapeCast Cert.KernelIdeal.S1x768 x3 Cert.KernelIdeal.Gen.shapeCasts_S768_S1x768))
        Cert.KernelIdeal.Gen.shapeCasts_S25088x768_S8x16x196x768
      = val_main_v61 (F := Ideal) x0 x1 x2 x3 := by
  rw [rows_eq]
  unfold val_main_v61
  exact Cert.Lib.Reshape.shapeCast_comp (val_main_v60 (F := Ideal) x0 x1 x2 x3) _ _ _

end Cert.Bridge.Out

end
-- ==== Proof.Final.lean ====
/-
  The kernel program's result, stage by stage. Its result buffer is the last launch's result re-grouped; the last
  launch's result is the output projection of its operands; those are the joined attention results re-grouped, the
  transposed output weight and the bias row; the two attention results are the attention of their operands, which are
  re-layouts of the first launch's three results; and those are the three column ranges of the projection of the
  input. Read from the inside out, each is the reference's stage of the same name applied to the same arguments: the
  projection's three parts, their re-groupings, the two attentions, the joined array, the output projection.
-/
import proofs.«178978_j19473381720281_2_alg».proof.Proof.KernelRun
import proofs.«178978_j19473381720281_2_alg».proof.Proof.HostSide
import proofs.«178978_j19473381720281_2_alg».proof.Proof.Gemm0
import proofs.«178978_j19473381720281_2_alg».proof.Proof.Gemm3
import proofs.«178978_j19473381720281_2_alg».proof.Proof.RegionS
import proofs.«178978_j19473381720281_2_alg».proof.Proof.RegionT
import proofs.«178978_j19473381720281_2_alg».proof.Proof.AttnRS
import proofs.«178978_j19473381720281_2_alg».proof.Proof.AttnRT
import proofs.«178978_j19473381720281_2_alg».proof.Proof.BridgeQKV
import proofs.«178978_j19473381720281_2_alg».proof.Proof.BridgeOut
import proofs.«178978_j19473381720281_2_alg».proof.Proof.RefStages

set_option maxRecDepth 16384

noncomputable section

namespace Cert.Bridge.Final

open Cert.KernelIdeal Cert.KernelIdeal.Gen Cert.KernelIdeal.HostSide
open Idealize.ShloMosaic Idealize.ShloMosaic.TcCoe Idealize.ShloMosaic.ValueIdx Idealize.SL.Sem

/-- The reference's attention over the positions of a frame is the attention entry, index by index. -/
theorem spatial_eq (x0 : S8x16x196x768.Idx → EReal) (x1 : S2304x768.Idx → EReal) :
    RegionS.whole (Cert.ReferenceIdeal.Read.val_main_v16 (F := Ideal) x0 x1) (Cert.ReferenceIdeal.Read.val_main_v17 (F := Ideal) x0 x1) (Cert.ReferenceIdeal.Read.val_main_v18 (F := Ideal) x0 x1)
      = Cert.ReferenceIdeal.Read.val_main_v33 (F := Ideal) x0 x1 := by
  funext i
  obtain ⟨n, h, q, d, rfl⟩ : ∃ (n : Fin 128) (h : Fin 6) (q : Fin 196) (d : Fin 64), i = ix4 n h q d := ⟨i 0, i 1, i 2, i 3, eq_ix4 i⟩
  rw [Cert.ReferenceIdeal.AttnRS.out_apply]
  rfl

/-- The reference's attention over the frames of a position is the attention entry, index by index. -/
theorem temporal_eq (x0 : S8x16x196x768.Idx → EReal) (x1 : S2304x768.Idx → EReal) :
    RegionT.whole (Cert.ReferenceIdeal.Read.val_main_v34 (F := Ideal) x0 x1) (Cert.ReferenceIdeal.Read.val_main_v35 (F := Ideal) x0 x1) (Cert.ReferenceIdeal.Read.val_main_v36 (F := Ideal) x0 x1)
      = Cert.ReferenceIdeal.Read.val_main_v51 (F := Ideal) x0 x1 := by
  funext i
  obtain ⟨n, h, q, d, rfl⟩ : ∃ (n : Fin 1568) (h : Fin 6) (q : Fin 16) (d : Fin 64), i = ix4 n h q d := ⟨i 0, i 1, i 2, i 3, eq_ix4 i⟩
  rw [Cert.ReferenceIdeal.AttnRT.out_apply]
  rfl

variable (m : (ℓ : Loc nD τ sig) → Buf (Elt Ideal) ℓ) (ρ : Dev nD → PrngReg)

/-- The kernel program's result buffer ends at the reference's last stage of the four argument arrays. -/
theorem kernel_value (c : Dev nD) :
    (W9 m ρ c (Proc.devRef .tc main_v34) : S8x16x196x768.Idx → EReal)
      = Cert.ReferenceIdeal.Read.val_main_v61 (F := Ideal) (m ((c : Thread nD τ).loc main_arg0)) (m ((c : Thread nD τ).loc main_arg1))
          (m ((c : Thread nD τ).loc main_arg2)) (m ((c : Thread nD τ).loc main_arg3)) := by
  -- what each launch leaves, as the whole-array function of what it found
  have h2 : (W2 m ρ c (Proc.devRef .tc main_v3_0) : S25088x768.Idx → EReal) = Gemm0.whole2 (V1 m ρ c main_v0) (V1 m ρ c main_v2) :=
    (W2_arr m ρ c 2).trans (Gemm0.final2 (V1 m ρ) c)
  have h3 : (W2 m ρ c (Proc.devRef .tc main_v3_1) : S25088x768.Idx → EReal) = Gemm0.whole3 (V1 m ρ c main_v0) (V1 m ρ c main_v2) :=
    (W2_arr m ρ c 3).trans (Gemm0.final3 (V1 m ρ) c)
  have h4 : (W2 m ρ c (Proc.devRef .tc main_v3_2) : S25088x768.Idx → EReal) = Gemm0.whole4 (V1 m ρ c main_v0) (V1 m ρ c main_v2) :=
    (W2_arr m ρ c 4).trans (Gemm0.final4 (V1 m ρ) c)
  have hS : (W4 m ρ c (Proc.devRef .tc main_v19) : S128x6x196x64.Idx → EReal)
      = RegionS.whole (V3 m ρ c main_v16) (V3 m ρ c main_v17) (V3 m ρ c main_v18) :=
    (W4_arr m ρ c 3).trans (RegionS.final (V3 m ρ) c)
  have hT : (W6 m ρ c (Proc.devRef .tc main_v23) : S1568x6x16x64.Idx → EReal)
      = RegionT.whole (V5 m ρ c main_v20) (V5 m ρ c main_v21) (V5 m ρ c main_v22) :=
    (W6_arr m ρ c 3).trans (RegionT.final (V5 m ρ) c)
  have hO : (W8 m ρ c (Proc.devRef .tc main_v33) : S25088x768.Idx → EReal)
      = Gemm3.whole (V7 m ρ c main_v29) (V7 m ρ c main_v31) (V7 m ρ c main_v32) :=
    (W8_arr m ρ c 3).trans (Gemm3.final (V7 m ρ) c)
  rw [out_v34, hO, in_v29, in_v31, in_v32, hS, hT, in_v16, in_v17, in_v18, in_v20, in_v21, in_v22, h2, h3, h4, in_v0, in_v2]
  rw [Cert.Bridge.QKV.part0_eq, Cert.Bridge.QKV.part1_eq, Cert.Bridge.QKV.part2_eq]
  -- the re-groupings are the reference's own operations on the same arrays
  rw [show lowS (Cert.ReferenceIdeal.Read.val_main_v5 (F := Ideal) (m ((c : Thread nD τ).loc main_arg0)) (m ((c : Thread nD τ).loc main_arg1)))
        = Cert.ReferenceIdeal.Read.val_main_v16 (F := Ideal) (m ((c : Thread nD τ).loc main_arg0)) (m ((c : Thread nD τ).loc main_arg1)) from rfl,
      show lowS (Cert.ReferenceIdeal.Read.val_main_v7 (F := Ideal) (m ((c : Thread nD τ).loc main_arg0)) (m ((c : Thread nD τ).loc main_arg1)))
        = Cert.ReferenceIdeal.Read.val_main_v17 (F := Ideal) (m ((c : Thread nD τ).loc main_arg0)) (m ((c : Thread nD τ).loc main_arg1)) from rfl,
      show lowS (Cert.ReferenceIdeal.Read.val_main_v9 (F := Ideal) (m ((c : Thread nD τ).loc main_arg0)) (m ((c : Thread nD τ).loc main_arg1)))
        = Cert.ReferenceIdeal.Read.val_main_v18 (F := Ideal) (m ((c : Thread nD τ).loc main_arg0)) (m ((c : Thread nD τ).loc main_arg1)) from rfl,
      show highT (Cert.ReferenceIdeal.Read.val_main_v5 (F := Ideal) (m ((c : Thread nD τ).loc main_arg0)) (m ((c : Thread nD τ).loc main_arg1)))
        = Cert.ReferenceIdeal.Read.val_main_v34 (F := Ideal) (m ((c : Thread nD τ).loc main_arg0)) (m ((c : Thread nD τ).loc main_arg1)) from rfl,
      show highT (Cert.ReferenceIdeal.Read.val_main_v7 (F := Ideal) (m ((c : Thread nD τ).loc main_arg0)) (m ((c : Thread nD τ).loc main_arg1)))
        = Cert.ReferenceIdeal.Read.val_main_v35 (F := Ideal) (m ((c : Thread nD τ).loc main_arg0)) (m ((c : Thread nD τ).loc main_arg1)) from rfl,
      show highT (Cert.ReferenceIdeal.Read.val_main_v9 (F := Ideal) (m ((c : Thread nD τ).loc main_arg0)) (m ((c : Thread nD τ).loc main_arg1)))
        = Cert.ReferenceIdeal.Read.val_main_v36 (F := Ideal) (m ((c : Thread nD τ).loc main_arg0)) (m ((c : Thread nD τ).loc main_arg1)) from rfl]
  rw [spatial_eq, temporal_eq]
  rw [show merge (Cert.ReferenceIdeal.Read.val_main_v33 (F := Ideal) (m ((c : Thread nD τ).loc main_arg0)) (m ((c : Thread nD τ).loc main_arg1)))
          (Cert.ReferenceIdeal.Read.val_main_v51 (F := Ideal) (m ((c : Thread nD τ).loc main_arg0)) (m ((c : Thread nD τ).loc main_arg1)))
        = Cert.ReferenceIdeal.Read.val_main_v56 (F := Ideal) (m ((c : Thread nD τ).loc main_arg0)) (m ((c : Thread nD τ).loc main_arg1)) from rfl]
  exact Cert.Bridge.Out.out_eq _ _ _ _

end Cert.Bridge.Final

end
-- ==== Proof.lean ====
/-
  The certificate: a split spatial and temporal attention layer, computed by four launches with re-layouts between them,
  against the plain reference, on the extended reals.

  Both programs compute, entry by entry, the same expressions of the same arguments. The projection of the input is a
  sum over the 768 input columns; the queries, keys and values are its three column ranges, cut into 12 heads; the
  first six heads attend over the 196 positions of each frame and the last six over the 16 frames of each position,
  each with scores (q · k) · 1/8, the row maximum subtracted, the exponentials divided by their sum, and the weights
  taken against the values; the two results are joined and projected once more with a bias. The kernel program's
  changes of float format are the identity on the extended reals, its tilings only decide which launch point writes an
  entry, and its re-groupings are the reference's own. No law of arithmetic is used beyond re-indexing a finite sum,
  so the precondition (finite inputs) is never opened.

  The three frames are the generated frames of the two kernel programs and the reference's run with its result
  dropped; the idealization rewrote nothing, so it is preserved trivially; the value claim names the kernel program's
  result buffer after its run and shows the reference's run ends with the same array.
-/
import proofs.«178978_j19473381720281_2_alg».proof.Defs
import proofs.«178978_j19473381720281_2_alg».proof.Proof.Gen.Kernel
import proofs.«178978_j19473381720281_2_alg».proof.Proof.Gen.Kernel.Skeleton
import proofs.«178978_j19473381720281_2_alg».proof.Proof.Gen.Kernel.Launch
import proofs.«178978_j19473381720281_2_alg».proof.Proof.Gen.Kernel.Points
import proofs.«178978_j19473381720281_2_alg».proof.Proof.Gen.Kernel.Frame
import proofs.«178978_j19473381720281_2_alg».proof.Proof.Gen.KernelIdeal
import proofs.«178978_j19473381720281_2_alg».proof.Proof.Gen.KernelIdeal.Skeleton
import proofs.«178978_j19473381720281_2_alg».proof.Proof.Gen.KernelIdeal.Launch
import proofs.«178978_j19473381720281_2_alg».proof.Proof.Gen.KernelIdeal.Points
import proofs.«178978_j19473381720281_2_alg».proof.Proof.Gen.KernelIdeal.Frame
import proofs.«178978_j19473381720281_2_alg».proof.Proof.Gen.ReferenceIdeal
import proofs.«178978_j19473381720281_2_alg».proof.Proof.RefRun
import proofs.«178978_j19473381720281_2_alg».proof.Proof.RefRead
import proofs.«178978_j19473381720281_2_alg».proof.Proof.RefStages
import proofs.«178978_j19473381720281_2_alg».proof.Proof.KernelRun
import proofs.«178978_j19473381720281_2_alg».proof.Proof.Final
import proofs.«178978_j19473381720281_2_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Stages.run m ρ)

/-- The idealization rewrote no operation. -/
theorem preserves : Cert.preserves_Kernel_KernelIdeal := trivial

/-- From memories agreeing on the arguments both programs run, and end with the same result array: the kernel program's
    result buffer after its run is the reference's last stage of the arguments, which is where the reference's run ends. -/
theorem algebraic : Cert.algebraic_KernelIdeal_ReferenceIdeal := by
  intro m ρ m' ρ' _ hagree
  refine ⟨fun c => Cert.KernelIdeal.Gen.W9 m ρ c (Proc.devRef .tc Cert.KernelIdeal.main_v34), Cert.KernelIdeal.RunValue.run m ρ, ?_⟩
  refine (θ_run Cert.ReferenceIdeal.defs _ _).mono (fun _ h c => ⟨(h c).1.trans ?_, (h c).2⟩) (Cert.ReferenceIdeal.Stages.run m' ρ')
  rw [(hagree c).1, (hagree c).2.1, (hagree c).2.2.1, (hagree c).2.2.2]
  exact (Cert.Bridge.Final.kernel_value m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
